-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v85)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S6x32 : Shape := ⟨2, ![6, 32]⟩
abbrev S100000x128 : Shape := ⟨2, ![100000, 128]⟩
abbrev S500000x128 : Shape := ⟨2, ![500000, 128]⟩
abbrev S10000x64 : Shape := ⟨2, ![10000, 64]⟩
abbrev S100x32 : Shape := ⟨2, ![100, 32]⟩
abbrev S200000x128 : Shape := ⟨2, ![200000, 128]⟩
abbrev S512x384 : Shape := ⟨2, ![512, 384]⟩
abbrev S512 : Shape := ⟨1, ![512]⟩
abbrev S512x160 : Shape := ⟨2, ![512, 160]⟩
abbrev S256x256 : Shape := ⟨2, ![256, 256]⟩
abbrev S256x256x12 : Shape := ⟨3, ![256, 256, 12]⟩
abbrev S_ : Shape := ⟨0, ![]⟩

class Facts : Prop where
  bcast_S_S6x32 : S_.BroadcastsInDim S6x32 (![] : Fin 0 → Fin S6x32.rank)
  reducesTo_S6x32_S_d0_1 : S6x32.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S500000x128 : S_.BroadcastsInDim S500000x128 (![] : Fin 0 → Fin S500000x128.rank)
  reducesTo_S500000x128_S_d0_1 : S500000x128.ReducesTo [0, 1] S_
  bcast_S_S10000x64 : S_.BroadcastsInDim S10000x64 (![] : Fin 0 → Fin S10000x64.rank)
  reducesTo_S10000x64_S_d0_1 : S10000x64.ReducesTo [0, 1] S_
  bcast_S_S100x32 : S_.BroadcastsInDim S100x32 (![] : Fin 0 → Fin S100x32.rank)
  reducesTo_S100x32_S_d0_1 : S100x32.ReducesTo [0, 1] S_
  bcast_S_S200000x128 : S_.BroadcastsInDim S200000x128 (![] : Fin 0 → Fin S200000x128.rank)
  reducesTo_S200000x128_S_d0_1 : S200000x128.ReducesTo [0, 1] S_
  bcast_S_S512x384 : S_.BroadcastsInDim S512x384 (![] : Fin 0 → Fin S512x384.rank)
  reducesTo_S512x384_S_d0_1 : S512x384.ReducesTo [0, 1] S_
  bcast_S_S512 : S_.BroadcastsInDim S512 (![] : Fin 0 → Fin S512.rank)
  reducesTo_S512_S_d0 : S512.ReducesTo [0] S_
  bcast_S_S512x160 : S_.BroadcastsInDim S512x160 (![] : Fin 0 → Fin S512x160.rank)
  reducesTo_S512x160_S_d0_1 : S512x160.ReducesTo [0, 1] S_

variable [Facts]

def fn_part3 {F : FTy → Type} [FloatOps F] (main_arg11 : FVec F S512 .f32) (main_v48 : IVec S_ 1) (main_v49 : FVec F S512x160 .f32) (main_v50 : FVec F S512x160 .f32) : IVec S_ 1 :=
  let main_v51 : IVec S512x160 1 := cmpf .olt main_v49 main_v50
  let main_c_19 : IVec S_ 1 := constantI S_ 1 1#1
  let main_v52 : IVec S_ 1 := (fun x v => Host.reduce IntOp.andi x v reducesTo_S512x160_S_d0_1 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  main_v58

def fn_part2 {F : FTy → Type} [FloatOps F] (main_arg7 : FVec F S512 .f32) (main_arg8 : FVec F S512x160 .f32) (main_arg9 : FVec F S512 .f32) (main_arg10 : FVec F S512x160 .f32) (main_arg11 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x160 .f32 := Host.absf main_arg8
  let main_cst_14 : FVec F S_ .f32 := constant S_ .f32 0x7F800000#32
  let main_v40 : FVec F S512x160 .f32 := broadcastInDim S512x160 ![] bcast_S_S512x160 main_cst_14
  let main_v41 : IVec S512x160 1 := cmpf .olt main_v39 main_v40
  let main_c_15 : IVec S_ 1 := constantI S_ 1 1#1
  let main_v42 : IVec S_ 1 := (fun x v => Host.reduce IntOp.andi x v reducesTo_S512x160_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512x160 .f32 := Host.absf main_arg10
  let main_cst_18 : FVec F S_ .f32 := constant S_ .f32 0x7F800000#32
  let main_v50 : FVec F S512x160 .f32 := broadcastInDim S512x160 ![] bcast_S_S512x160 main_cst_18
  fn_part3 (F := F) main_arg11 main_v48 main_v49 main_v50

def fn_part1 {F : FTy → Type} [FloatOps F] (main_arg4 : FVec F S100x32 .f32) (main_arg5 : FVec F S200000x128 .f32) (main_arg6 : FVec F S512x384 .f32) (main_arg7 : FVec F S512 .f32) (main_arg8 : FVec F S512x160 .f32) (main_arg9 : FVec F S512 .f32) (main_arg10 : FVec F S512x160 .f32) (main_arg11 : FVec F S512 .f32) (main_v13 : IVec S_ 1) (main_v16 : IVec S10000x64 1) : IVec S_ 1 :=
  let main_c_5 : IVec S_ 1 := constantI S_ 1 1#1
  let main_v17 : IVec S_ 1 := (fun x v => Host.reduce IntOp.andi x v reducesTo_S10000x64_S_d0_1 h_S_) main_v16 main_c_5
  let main_v18 : IVec S_ 1 := andi main_v13 main_v17
  let main_v19 : FVec F S100x32 .f32 := Host.absf main_arg4
  let main_cst_6 : FVec F S_ .f32 := constant S_ .f32 0x7F800000#32
  let main_v20 : FVec F S100x32 .f32 := broadcastInDim S100x32 ![] bcast_S_S100x32 main_cst_6
  let main_v21 : IVec S100x32 1 := cmpf .olt main_v19 main_v20
  let main_c_7 : IVec S_ 1 := constantI S_ 1 1#1
  let main_v22 : IVec S_ 1 := (fun x v => Host.reduce IntOp.andi x v reducesTo_S100x32_S_d0_1 h_S_) main_v21 main_c_7
  let main_v23 : IVec S_ 1 := andi main_v18 main_v22
  let main_v24 : FVec F S200000x128 .f32 := Host.absf main_arg5
  let main_cst_8 : FVec F S_ .f32 := constant S_ .f32 0x7F800000#32
  let main_v25 : FVec F S200000x128 .f32 := broadcastInDim S200000x128 ![] bcast_S_S200000x128 main_cst_8
  let main_v26 : IVec S200000x128 1 := cmpf .olt main_v24 main_v25
  let main_c_9 : IVec S_ 1 := constantI S_ 1 1#1
  let main_v27 : IVec S_ 1 := (fun x v => Host.reduce IntOp.andi x v reducesTo_S200000x128_S_d0_1 h_S_) main_v26 main_c_9
  let main_v28 : IVec S_ 1 := andi main_v23 main_v27
  let main_v29 : FVec F S512x384 .f32 := Host.absf main_arg6
  let main_cst_10 : FVec F S_ .f32 := constant S_ .f32 0x7F800000#32
  let main_v30 : FVec F S512x384 .f32 := broadcastInDim S512x384 ![] bcast_S_S512x384 main_cst_10
  let main_v31 : IVec S512x384 1 := cmpf .olt main_v29 main_v30
  let main_c_11 : IVec S_ 1 := constantI S_ 1 1#1
  let main_v32 : IVec S_ 1 := (fun x v => Host.reduce IntOp.andi x v reducesTo_S512x384_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S6x32 .f32) (main_arg1 : FVec F S100000x128 .f32) (main_arg2 : FVec F S500000x128 .f32) (main_arg3 : FVec F S10000x64 .f32) (main_arg4 : FVec F S100x32 .f32) (main_arg5 : FVec F S200000x128 .f32) (main_arg6 : FVec F S512x384 .f32) (main_arg7 : FVec F S512 .f32) (main_arg8 : FVec F S512x160 .f32) (main_arg9 : FVec F S512 .f32) (main_arg10 : FVec F S512x160 .f32) (main_arg11 : FVec F S512 .f32) (main_arg12 : IVec S256x256 32) (main_arg13 : IVec S256x256 32) (main_arg14 : IVec S256x256 32) (main_arg15 : IVec S256x256 32) (main_arg16 : IVec S256x256 32) (main_arg17 : IVec S256x256x12 32) : IVec S_ 1 :=
  let main_v0 : FVec F S6x32 .f32 := Host.absf main_arg0
  let main_cst : FVec F S_ .f32 := constant S_ .f32 0x7F800000#32
  let main_v1 : FVec F S6x32 .f32 := broadcastInDim S6x32 ![] bcast_S_S6x32 main_cst
  let main_v2 : IVec S6x32 1 := cmpf .olt main_v0 main_v1
  let main_c : IVec S_ 1 := constantI S_ 1 1#1
  let main_v3 : IVec S_ 1 := (fun x v => Host.reduce IntOp.andi x v reducesTo_S6x32_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S500000x128 .f32 := Host.absf main_arg2
  let main_cst_2 : FVec F S_ .f32 := constant S_ .f32 0x7F800000#32
  let main_v10 : FVec F S500000x128 .f32 := broadcastInDim S500000x128 ![] bcast_S_S500000x128 main_cst_2
  let main_v11 : IVec S500000x128 1 := cmpf .olt main_v9 main_v10
  let main_c_3 : IVec S_ 1 := constantI S_ 1 1#1
  let main_v12 : IVec S_ 1 := (fun x v => Host.reduce IntOp.andi x v reducesTo_S500000x128_S_d0_1 h_S_) main_v11 main_c_3
  let main_v13 : IVec S_ 1 := andi main_v8 main_v12
  let main_v14 : FVec F S10000x64 .f32 := Host.absf main_arg3
  let main_cst_4 : FVec F S_ .f32 := constant S_ .f32 0x7F800000#32
  let main_v15 : FVec F S10000x64 .f32 := broadcastInDim S10000x64 ![] bcast_S_S10000x64 main_cst_4
  let main_v16 : IVec S10000x64 1 := cmpf .olt main_v14 main_v15
  fn_part1 (F := F) main_arg4 main_arg5 main_arg6 main_arg7 main_arg8 main_arg9 main_arg10 main_arg11 main_v13 main_v16
-- ==== Kernel.lean ====
abbrev S6x32 : Shape := ⟨2, ![6, 32]⟩
abbrev S100000x128 : Shape := ⟨2, ![100000, 128]⟩
abbrev S500000x128 : Shape := ⟨2, ![500000, 128]⟩
abbrev S10000x64 : Shape := ⟨2, ![10000, 64]⟩
abbrev S100x32 : Shape := ⟨2, ![100, 32]⟩
abbrev S200000x128 : Shape := ⟨2, ![200000, 128]⟩
abbrev S512x384 : Shape := ⟨2, ![512, 384]⟩
abbrev S512 : Shape := ⟨1, ![512]⟩
abbrev S512x160 : Shape := ⟨2, ![512, 160]⟩
abbrev S256x256 : Shape := ⟨2, ![256, 256]⟩
abbrev S256x256x12 : Shape := ⟨3, ![256, 256, 12]⟩
abbrev S_ : Shape := ⟨0, ![]⟩
abbrev S256x256x1 : Shape := ⟨3, ![256, 256, 1]⟩
abbrev S256x256x32 : Shape := ⟨3, ![256, 256, 32]⟩
abbrev S256x256x12x1 : Shape := ⟨4, ![256, 256, 12, 1]⟩
abbrev S256x256x12x128 : Shape := ⟨4, ![256, 256, 12, 128]⟩
abbrev S256x256x128 : Shape := ⟨3, ![256, 256, 128]⟩
abbrev S256x256x64 : Shape := ⟨3, ![256, 256, 64]⟩
abbrev S256x256x384 : Shape := ⟨3, ![256, 256, 384]⟩
abbrev S256x256x160 : Shape := ⟨3, ![256, 256, 160]⟩
abbrev S65536x384 : Shape := ⟨2, ![65536, 384]⟩
abbrev S65536x160 : Shape := ⟨2, ![65536, 160]⟩
abbrev S65536x1 : Shape := ⟨2, ![65536, 1]⟩
abbrev S384x512 : Shape := ⟨2, ![384, 512]⟩
abbrev S160x512 : Shape := ⟨2, ![160, 512]⟩
abbrev S1x512 : Shape := ⟨2, ![1, 512]⟩
abbrev S65536x512 : Shape := ⟨2, ![65536, 512]⟩
abbrev S2048x384 : Shape := ⟨2, ![2048, 384]⟩
abbrev S2048x160 : Shape := ⟨2, ![2048, 160]⟩
abbrev S2048x1 : Shape := ⟨2, ![2048, 1]⟩
abbrev S2048x512 : Shape := ⟨2, ![2048, 512]⟩
abbrev S256x256x512 : Shape := ⟨3, ![256, 256, 512]⟩

abbrev nBuf : Space → Nat
  | .hbm => 123
  | .vmem => 20
  | .smem => 0
  | _ => 0

abbrev bufTy : (tb : Table) → Fin (tcTables nBuf tb) → BufTy
  | .hbm, ⟨0, _⟩ => ⟨S6x32, .f32⟩
  | .hbm, ⟨1, _⟩ => ⟨S100000x128, .f32⟩
  | .hbm, ⟨2, _⟩ => ⟨S500000x128, .f32⟩
  | .hbm, ⟨3, _⟩ => ⟨S10000x64, .f32⟩
  | .hbm, ⟨4, _⟩ => ⟨S100x32, .f32⟩
  | .hbm, ⟨5, _⟩ => ⟨S200000x128, .f32⟩
  | .hbm, ⟨6, _⟩ => ⟨S512x384, .f32⟩
  | .hbm, ⟨7, _⟩ => ⟨S512, .f32⟩
  | .hbm, ⟨8, _⟩ => ⟨S512x160, .f32⟩
  | .hbm, ⟨9, _⟩ => ⟨S512, .f32⟩
  | .hbm, ⟨10, _⟩ => ⟨S512x160, .f32⟩
  | .hbm, ⟨11, _⟩ => ⟨S512, .f32⟩
  | .hbm, ⟨12, _⟩ => ⟨S256x256, .i32⟩
  | .hbm, ⟨13, _⟩ => ⟨S256x256, .i32⟩
  | .hbm, ⟨14, _⟩ => ⟨S256x256, .i32⟩
  | .hbm, ⟨15, _⟩ => ⟨S256x256, .i32⟩
  | .hbm, ⟨16, _⟩ => ⟨S256x256, .i32⟩
  | .hbm, ⟨17, _⟩ => ⟨S256x256x12, .i32⟩
  | .hbm, ⟨18, _⟩ => ⟨S_, .i32⟩
  | .hbm, ⟨19, _⟩ => ⟨S256x256, .i32⟩
  | .hbm, ⟨20, _⟩ => ⟨S256x256, .i1⟩
  | .hbm, ⟨21, _⟩ => ⟨S256x256, .f32⟩
  | .hbm, ⟨22, _⟩ => ⟨S_, .i32⟩
  | .hbm, ⟨23, _⟩ => ⟨S256x256, .i32⟩
  | .hbm, ⟨24, _⟩ => ⟨S256x256, .i1⟩
  | .hbm, ⟨25, _⟩ => ⟨S_, .i32⟩
  | .hbm, ⟨26, _⟩ => ⟨S256x256, .i32⟩
  | .hbm, ⟨27, _⟩ => ⟨S256x256, .i32⟩
  | .hbm, ⟨28, _⟩ => ⟨S256x256, .i32⟩
  | .hbm, ⟨29, _⟩ => ⟨S256x256x1, .i32⟩
  | .hbm, ⟨30, _⟩ => ⟨S256x256x32, .f32⟩
  | .hbm, ⟨31, _⟩ => ⟨S_, .i32⟩
  | .hbm, ⟨32, _⟩ => ⟨S256x256x12, .i32⟩
  | .hbm, ⟨33, _⟩ => ⟨S256x256x12, .i1⟩
  | .hbm, ⟨34, _⟩ => ⟨S_, .i32⟩
  | .hbm, ⟨35, _⟩ => ⟨S256x256x12, .i32⟩
  | .hbm, ⟨36, _⟩ => ⟨S256x256x12, .i32⟩
  | .hbm, ⟨37, _⟩ => ⟨S256x256x12, .i32⟩
  | .hbm, ⟨38, _⟩ => ⟨S256x256x12x1, .i32⟩
  | .hbm, ⟨39, _⟩ => ⟨S256x256x12x128, .f32⟩
  | .hbm, ⟨40, _⟩ => ⟨S_, .f32⟩
  | .hbm, ⟨41, _⟩ => ⟨S256x256x128, .f32⟩
  | .hbm, ⟨42, _⟩ => ⟨S_, .f32⟩
  | .hbm, ⟨43, _⟩ => ⟨S256x256x128, .f32⟩
  | .hbm, ⟨44, _⟩ => ⟨S256x256x128, .f32⟩
  | .hbm, ⟨45, _⟩ => ⟨S_, .i32⟩
  | .hbm, ⟨46, _⟩ => ⟨S256x256, .i32⟩
  | .hbm, ⟨47, _⟩ => ⟨S256x256, .i1⟩
  | .hbm, ⟨48, _⟩ => ⟨S_, .i32⟩
  | .hbm, ⟨49, _⟩ => ⟨S256x256, .i32⟩
  | .hbm, ⟨50, _⟩ => ⟨S256x256, .i32⟩
  | .hbm, ⟨51, _⟩ => ⟨S256x256, .i32⟩
  | .hbm, ⟨52, _⟩ => ⟨S256x256x1, .i32⟩
  | .hbm, ⟨53, _⟩ => ⟨S256x256x128, .f32⟩
  | .hbm, ⟨54, _⟩ => ⟨S_, .i32⟩
  | .hbm, ⟨55, _⟩ => ⟨S256x256, .i32⟩
  | .hbm, ⟨56, _⟩ => ⟨S256x256, .i1⟩
  | .hbm, ⟨57, _⟩ => ⟨S_, .i32⟩
  | .hbm, ⟨58, _⟩ => ⟨S256x256, .i32⟩
  | .hbm, ⟨59, _⟩ => ⟨S256x256, .i32⟩
  | .hbm, ⟨60, _⟩ => ⟨S256x256, .i32⟩
  | .hbm, ⟨61, _⟩ => ⟨S256x256x1, .i32⟩
  | .hbm, ⟨62, _⟩ => ⟨S256x256x64, .f32⟩
  | .hbm, ⟨63, _⟩ => ⟨S_, .i32⟩
  | .hbm, ⟨64, _⟩ => ⟨S256x256, .i32⟩
  | .hbm, ⟨65, _⟩ => ⟨S256x256, .i1⟩
  | .hbm, ⟨66, _⟩ => ⟨S_, .i32⟩
  | .hbm, ⟨67, _⟩ => ⟨S256x256, .i32⟩
  | .hbm, ⟨68, _⟩ => ⟨S256x256, .i32⟩
  | .hbm, ⟨69, _⟩ => ⟨S256x256, .i32⟩
  | .hbm, ⟨70, _⟩ => ⟨S256x256x1, .i32⟩
  | .hbm, ⟨71, _⟩ => ⟨S256x256x32, .f32⟩
  | .hbm, ⟨72, _⟩ => ⟨S_, .i32⟩
  | .hbm, ⟨73, _⟩ => ⟨S256x256, .i32⟩
  | .hbm, ⟨74, _⟩ => ⟨S256x256, .i1⟩
  | .hbm, ⟨75, _⟩ => ⟨S_, .i32⟩
  | .hbm, ⟨76, _⟩ => ⟨S256x256, .i32⟩
  | .hbm, ⟨77, _⟩ => ⟨S256x256, .i32⟩
  | .hbm, ⟨78, _⟩ => ⟨S256x256, .i32⟩
  | .hbm, ⟨79, _⟩ => ⟨S256x256x1, .i32⟩
  | .hbm, ⟨80, _⟩ => ⟨S256x256x128, .f32⟩
  | .hbm, ⟨81, _⟩ => ⟨S256x256x384, .f32⟩
  | .hbm, ⟨82, _⟩ => ⟨S256x256x160, .f32⟩
  | .hbm, ⟨83, _⟩ => ⟨S256x256x160, .f32⟩
  | .hbm, ⟨84, _⟩ => ⟨S_, .i32⟩
  | .hbm, ⟨85, _⟩ => ⟨S256x256, .i32⟩
  | .hbm, ⟨86, _⟩ => ⟨S256x256, .i1⟩
  | .hbm, ⟨87, _⟩ => ⟨S_, .i32⟩
  | .hbm, ⟨88, _⟩ => ⟨S256x256, .i32⟩
  | .hbm, ⟨89, _⟩ => ⟨S256x256, .i1⟩
  | .hbm, ⟨90, _⟩ => ⟨S256x256, .i1⟩
  | .hbm, ⟨91, _⟩ => ⟨S256x256, .f32⟩
  | .hbm, ⟨92, _⟩ => ⟨S256x256x1, .f32⟩
  | .hbm, ⟨93, _⟩ => ⟨S_, .i32⟩
  | .hbm, ⟨94, _⟩ => ⟨S256x256, .i32⟩
  | .hbm, ⟨95, _⟩ => ⟨S256x256, .i1⟩
  | .hbm, ⟨96, _⟩ => ⟨S256x256, .f32⟩
  | .hbm, ⟨97, _⟩ => ⟨S256x256x1, .f32⟩
  | .hbm, ⟨98, _⟩ => ⟨S_, .i32⟩
  | .hbm, ⟨99, _⟩ => ⟨S256x256, .i32⟩
  | .hbm, ⟨100, _⟩ => ⟨S256x256, .i1⟩
  | .hbm, ⟨101, _⟩ => ⟨S256x256, .f32⟩
  | .hbm, ⟨102, _⟩ => ⟨S256x256x1, .f32⟩
  | .hbm, ⟨103, _⟩ => ⟨S65536x384, .f32⟩
  | .hbm, ⟨104, _⟩ => ⟨S65536x384, .bf16⟩
  | .hbm, ⟨105, _⟩ => ⟨S65536x160, .f32⟩
  | .hbm, ⟨106, _⟩ => ⟨S65536x160, .bf16⟩
  | .hbm, ⟨107, _⟩ => ⟨S65536x160, .f32⟩
  | .hbm, ⟨108, _⟩ => ⟨S65536x160, .bf16⟩
  | .hbm, ⟨109, _⟩ => ⟨S65536x1, .f32⟩
  | .hbm, ⟨110, _⟩ => ⟨S65536x1, .f32⟩
  | .hbm, ⟨111, _⟩ => ⟨S65536x1, .f32⟩
  | .hbm, ⟨112, _⟩ => ⟨S384x512, .f32⟩
  | .hbm, ⟨113, _⟩ => ⟨S384x512, .bf16⟩
  | .hbm, ⟨114, _⟩ => ⟨S160x512, .f32⟩
  | .hbm, ⟨115, _⟩ => ⟨S160x512, .bf16⟩
  | .hbm, ⟨116, _⟩ => ⟨S160x512, .f32⟩
  | .hbm, ⟨117, _⟩ => ⟨S160x512, .bf16⟩
  | .hbm, ⟨118, _⟩ => ⟨S1x512, .f32⟩
  | .hbm, ⟨119, _⟩ => ⟨S1x512, .f32⟩
  | .hbm, ⟨120, _⟩ => ⟨S1x512, .f32⟩
  | .hbm, ⟨121, _⟩ => ⟨S65536x512, .f32⟩
  | .hbm, ⟨122, _⟩ => ⟨S256x256x512, .f32⟩
  | .local _ .vmem, ⟨0, _⟩ => ⟨S2048x384, .bf16⟩
  | .local _ .vmem, ⟨1, _⟩ => ⟨S2048x384, .bf16⟩
  | .local _ .vmem, ⟨2, _⟩ => ⟨S2048x160, .bf16⟩
  | .local _ .vmem, ⟨3, _⟩ => ⟨S2048x160, .bf16⟩
  | .local _ .vmem, ⟨4, _⟩ => ⟨S2048x160, .bf16⟩
  | .local _ .vmem, ⟨5, _⟩ => ⟨S2048x160, .bf16⟩
  | .local _ .vmem, ⟨6, _⟩ => ⟨S2048x1, .f32⟩
  | .local _ .vmem, ⟨7, _⟩ => ⟨S2048x1, .f32⟩
  | .local _ .vmem, ⟨8, _⟩ => ⟨S2048x1, .f32⟩
  | .local _ .vmem, ⟨9, _⟩ => ⟨S2048x1, .f32⟩
  | .local _ .vmem, ⟨10, _⟩ => ⟨S2048x1, .f32⟩
  | .local _ .vmem, ⟨11, _⟩ => ⟨S2048x1, .f32⟩
  | .local _ .vmem, ⟨12, _⟩ => ⟨S384x512, .bf16⟩
  | .local _ .vmem, ⟨13, _⟩ => ⟨S1x512, .f32⟩
  | .local _ .vmem, ⟨14, _⟩ => ⟨S160x512, .bf16⟩
  | .local _ .vmem, ⟨15, _⟩ => ⟨S1x512, .f32⟩
  | .local _ .vmem, ⟨16, _⟩ => ⟨S160x512, .bf16⟩
  | .local _ .vmem, ⟨17, _⟩ => ⟨S1x512, .f32⟩
  | .local _ .vmem, ⟨18, _⟩ => ⟨S2048x512, .f32⟩
  | .local _ .vmem, ⟨19, _⟩ => ⟨S2048x512, .f32⟩
  | _, _ => ⟨S6x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_c_0 : Ref sig .tc := ⟨.hbm, 22, rfl⟩
abbrev main_v3 : Ref sig .tc := ⟨.hbm, 23, rfl⟩
abbrev main_v4 : Ref sig .tc := ⟨.hbm, 24, rfl⟩
abbrev main_c_1 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_c_2 : Ref sig .tc := ⟨.hbm, 31, rfl⟩
abbrev main_v10 : Ref sig .tc := ⟨.hbm, 32, rfl⟩
abbrev main_v11 : Ref sig .tc := ⟨.hbm, 33, rfl⟩
abbrev main_c_3 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_cst : Ref sig .tc := ⟨.hbm, 40, rfl⟩
abbrev main_v17 : Ref sig .tc := ⟨.hbm, 41, rfl⟩
abbrev main_cst_4 : Ref sig .tc := ⟨.hbm, 42, rfl⟩
abbrev main_v18 : Ref sig .tc := ⟨.hbm, 43, rfl⟩
abbrev main_v19 : Ref sig .tc := ⟨.hbm, 44, rfl⟩
abbrev main_c_5 : Ref sig .tc := ⟨.hbm, 45, rfl⟩
abbrev main_v20 : Ref sig .tc := ⟨.hbm, 46, rfl⟩
abbrev main_v21 : Ref sig .tc := ⟨.hbm, 47, rfl⟩
abbrev main_c_6 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_c_7 : Ref sig .tc := ⟨.hbm, 54, rfl⟩
abbrev main_v27 : Ref sig .tc := ⟨.hbm, 55, rfl⟩
abbrev main_v28 : Ref sig .tc := ⟨.hbm, 56, rfl⟩
abbrev main_c_8 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_c_9 : Ref sig .tc := ⟨.hbm, 63, rfl⟩
abbrev main_v34 : Ref sig .tc := ⟨.hbm, 64, rfl⟩
abbrev main_v35 : Ref sig .tc := ⟨.hbm, 65, rfl⟩
abbrev main_c_10 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_c_11 : Ref sig .tc := ⟨.hbm, 72, rfl⟩
abbrev main_v41 : Ref sig .tc := ⟨.hbm, 73, rfl⟩
abbrev main_v42 : Ref sig .tc := ⟨.hbm, 74, rfl⟩
abbrev main_c_12 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_c_13 : Ref sig .tc := ⟨.hbm, 84, rfl⟩
abbrev main_v51 : Ref sig .tc := ⟨.hbm, 85, rfl⟩
abbrev main_v52 : Ref sig .tc := ⟨.hbm, 86, rfl⟩
abbrev main_c_14 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_c_15 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_c_16 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x160 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x160 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S384x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S160x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S160x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S2048x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  bcast_S_S256x256 : S_.BroadcastsInDim S256x256 (![] : Fin 0 → Fin S256x256.rank)
  bcast_S256x256_S256x256x1_0_1 : S256x256.BroadcastsInDim S256x256x1 (![0, 1] : Fin 2 → Fin S256x256x1.rank)
  bcast_S_S256x256x12 : S_.BroadcastsInDim S256x256x12 (![] : Fin 0 → Fin S256x256x12.rank)
  bcast_S256x256x12_S256x256x12x1_0_1_2 : S256x256x12.BroadcastsInDim S256x256x12x1 (![0, 1, 2] : Fin 3 → Fin S256x256x12x1.rank)
  reducesTo_S256x256x12x128_S256x256x128_d2 : S256x256x12x128.ReducesTo [2] S256x256x128
  h_S_ : 0 < S_.numel
  bcast_S_S256x256x128 : S_.BroadcastsInDim S256x256x128 (![] : Fin 0 → Fin S256x256x128.rank)
  concatenates_S256x256x32_S256x256x128_S256x256x64_S256x256x32_S256x256x128_S256x256x384_d2 : Shape.Concatenates [S256x256x32, S256x256x128, S256x256x64, S256x256x32, S256x256x128] S256x256x384 2
  concatenates_S256x256x128_S256x256x32_S256x256x160_d2 : Shape.Concatenates [S256x256x128, S256x256x32] S256x256x160 2
  concatenates_S256x256x32_S256x256x128_S256x256x160_d2 : Shape.Concatenates [S256x256x32, S256x256x128] S256x256x160 2
  shapeCasts_S256x256x384_S65536x384 : S256x256x384.ShapeCasts S65536x384
  bitsLt_bf16_f32 : FTy.bits .bf16 < FTy.bits .f32
  shapeCasts_S256x256x160_S65536x160 : S256x256x160.ShapeCasts S65536x160
  shapeCasts_S256x256x1_S65536x1 : S256x256x1.ShapeCasts S65536x1
  transposes_S512x384_S384x512_1_0 : S512x384.Transposes [1, 0] S384x512
  transposes_S512x160_S160x512_1_0 : S512x160.Transposes [1, 0] S160x512
  shapeCasts_S512_S1x512 : S512.ShapeCasts S1x512
  inb_S2048x384_S2048x384_0_0 : ∀ a, (![0, 0] : Fin 2 → Nat) a + S2048x384.size a ≤ S2048x384.size a
  h_S2048x384 : 0 < S2048x384.numel
  shapeCasts_S2048x384_S2048x384 : S2048x384.ShapeCasts S2048x384
  inb_S384x512_S384x512_0_0 : ∀ a, (![0, 0] : Fin 2 → Nat) a + S384x512.size a ≤ S384x512.size a
  h_S384x512 : 0 < S384x512.numel
  shapeCasts_S384x512_S384x512 : S384x512.ShapeCasts S384x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x512 : S2048x1.Broadcasts S2048x512
  inb_S2048x160_S2048x160_0_0 : ∀ a, (![0, 0] : Fin 2 → Nat) a + S2048x160.size a ≤ S2048x160.size a
  h_S2048x160 : 0 < S2048x160.numel
  shapeCasts_S2048x160_S2048x160 : S2048x160.ShapeCasts S2048x160
  inb_S160x512_S160x512_0_0 : ∀ a, (![0, 0] : Fin 2 → Nat) a + S160x512.size a ≤ S160x512.size a
  h_S160x512 : 0 < S160x512.numel
  shapeCasts_S160x512_S160x512 : S160x512.ShapeCasts S160x512
  inb_S2048x512_S2048x512_0_0 : ∀ a, (![0, 0] : Fin 2 → Nat) a + S2048x512.size a ≤ S2048x512.size a
  h_S2048x512 : 0 < S2048x512.numel
  shapeCasts_S65536x512_S256x256x512 : S65536x512.ShapeCasts S256x256x512
  gather_S6x32_S256x256x1_S256x256x32_2_0_n_n_0_2_132_wf : GatherDims.WF S6x32 S256x256x1 S256x256x32 [2] [0] [] [0] [] 2 ![1, 32]
  gather_S100000x128_S256x256x12x1_S256x256x12x128_3_0_n_n_0_3_1128_wf : GatherDims.WF S100000x128 S256x256x12x1 S256x256x12x128 [3] [0] [] [0] [] 3 ![1, 128]
  gather_S500000x128_S256x256x1_S256x256x128_2_0_n_n_0_2_1128_wf : GatherDims.WF S500000x128 S256x256x1 S256x256x128 [2] [0] [] [0] [] 2 ![1, 128]
  gather_S10000x64_S256x256x1_S256x256x64_2_0_n_n_0_2_164_wf : GatherDims.WF S10000x64 S256x256x1 S256x256x64 [2] [0] [] [0] [] 2 ![1, 64]
  gather_S100x32_S256x256x1_S256x256x32_2_0_n_n_0_2_132_wf : GatherDims.WF S100x32 S256x256x1 S256x256x32 [2] [0] [] [0] [] 2 ![1, 32]
  gather_S200000x128_S256x256x1_S256x256x128_2_0_n_n_0_2_1128_wf : GatherDims.WF S200000x128 S256x256x1 S256x256x128 [2] [0] [] [0] [] 2 ![1, 128]
  dot_S2048x384_S384x512_S2048x512_1_0_0_1_n_n_wf : DotDims.WF S2048x384 S384x512 S2048x512 [1] [0] [0] [1] [] []
  dot_S2048x160_S160x512_S2048x512_1_0_0_1_n_n_wf : DotDims.WF S2048x160 S160x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x384.size a ≤ S65536x384.size a
  hwx0_0 : ∀ i : grid0.Coords, EltTy.bits .bf16 = 32 ∨ (Rect.block (s := S65536x384) S2048x384.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x160.size a ≤ S65536x160.size a
  hwx0_1 : ∀ i : grid0.Coords, EltTy.bits .bf16 = 32 ∨ (Rect.block (s := S65536x160) S2048x160.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x160.size a ≤ S65536x160.size a
  hwx0_2 : ∀ i : grid0.Coords, EltTy.bits .bf16 = 32 ∨ (Rect.block (s := S65536x160) S2048x160.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S65536x1.size a
  hwx0_3 : ∀ i : grid0.Coords, EltTy.bits .f32 = 32 ∨ (Rect.block (s := S65536x1) S2048x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1.size a ≤ S65536x1.size a
  hwx0_4 : ∀ i : grid0.Coords, EltTy.bits .f32 = 32 ∨ (Rect.block (s := S65536x1) S2048x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x1.size a ≤ S65536x1.size a
  hwx0_5 : ∀ i : grid0.Coords, EltTy.bits .f32 = 32 ∨ (Rect.block (s := S65536x1) S2048x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S384x512.size a ≤ S384x512.size a
  hwx0_6 : ∀ i : grid0.Coords, EltTy.bits .bf16 = 32 ∨ (Rect.block (s := S384x512) S384x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S160x512.size a ≤ S160x512.size a
  hwx0_8 : ∀ i : grid0.Coords, EltTy.bits .bf16 = 32 ∨ (Rect.block (s := S160x512) S160x512.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x512.size a
  hwx0_9 : ∀ i : grid0.Coords, EltTy.bits .f32 = 32 ∨ (Rect.block (s := S1x512) S1x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S160x512.size a ≤ S160x512.size a
  hwx0_10 : ∀ i : grid0.Coords, EltTy.bits .bf16 = 32 ∨ (Rect.block (s := S160x512) S160x512.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x512.size a ≤ S1x512.size a
  hwx0_11 : ∀ i : grid0.Coords, EltTy.bits .f32 = 32 ∨ (Rect.block (s := S1x512) S1x512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2048x512.size a ≤ S65536x512.size a
  hwx0_12 : ∀ i : grid0.Coords, EltTy.bits .f32 = 32 ∨ (Rect.block (s := S65536x512) S2048x512.size (cc0_transform_12 i) (hinb0_12 i)).WholeWords (EltTy.packing .f32)

variable [Facts₀]

def gather_S6x32_S256x256x1_S256x256x32_2_0_n_n_0_2_132 : GatherDims S6x32 S256x256x1 S256x256x32 where
  offsetDims := [2]
  collapsedSliceDims := [0]
  operandBatchingDims := []
  startIndicesBatchingDims := []
  startIndexMap := [0]
  indexVectorDim := 2
  sliceSizes := ![1, 32]
  wf := gather_S6x32_S256x256x1_S256x256x32_2_0_n_n_0_2_132_wf
def gather_S100000x128_S256x256x12x1_S256x256x12x128_3_0_n_n_0_3_1128 : GatherDims S100000x128 S256x256x12x1 S256x256x12x128 where
  offsetDims := [3]
  collapsedSliceDims := [0]
  operandBatchingDims := []
  startIndicesBatchingDims := []
  startIndexMap := [0]
  indexVectorDim := 3
  sliceSizes := ![1, 128]
  wf := gather_S100000x128_S256x256x12x1_S256x256x12x128_3_0_n_n_0_3_1128_wf
def gather_S500000x128_S256x256x1_S256x256x128_2_0_n_n_0_2_1128 : GatherDims S500000x128 S256x256x1 S256x256x128 where
  offsetDims := [2]
  collapsedSliceDims := [0]
  operandBatchingDims := []
  startIndicesBatchingDims := []
  startIndexMap := [0]
  indexVectorDim := 2
  sliceSizes := ![1, 128]
  wf := gather_S500000x128_S256x256x1_S256x256x128_2_0_n_n_0_2_1128_wf
def gather_S10000x64_S256x256x1_S256x256x64_2_0_n_n_0_2_164 : GatherDims S10000x64 S256x256x1 S256x256x64 where
  offsetDims := [2]
  collapsedSliceDims := [0]
  operandBatchingDims := []
  startIndicesBatchingDims := []
  startIndexMap := [0]
  indexVectorDim := 2
  sliceSizes := ![1, 64]
  wf := gather_S10000x64_S256x256x1_S256x256x64_2_0_n_n_0_2_164_wf
def gather_S100x32_S256x256x1_S256x256x32_2_0_n_n_0_2_132 : GatherDims S100x32 S256x256x1 S256x256x32 where
  offsetDims := [2]
  collapsedSliceDims := [0]
  operandBatchingDims := []
  startIndicesBatchingDims := []
  startIndexMap := [0]
  indexVectorDim := 2
  sliceSizes := ![1, 32]
  wf := gather_S100x32_S256x256x1_S256x256x32_2_0_n_n_0_2_132_wf
def gather_S200000x128_S256x256x1_S256x256x128_2_0_n_n_0_2_1128 : GatherDims S200000x128 S256x256x1 S256x256x128 where
  offsetDims := [2]
  collapsedSliceDims := [0]
  operandBatchingDims := []
  startIndicesBatchingDims := []
  startIndexMap := [0]
  indexVectorDim := 2
  sliceSizes := ![1, 128]
  wf := gather_S200000x128_S256x256x1_S256x256x128_2_0_n_n_0_2_1128_wf
def dot_S2048x384_S384x512_S2048x512_1_0_0_1_n_n : DotDims S2048x384 S384x512 S2048x512 where
  lhsContracting := [1]
  rhsContracting := [0]
  lhsNonContracting := [0]
  rhsNonContracting := [1]
  lhsBatch := []
  rhsBatch := []
  wf := dot_S2048x384_S384x512_S2048x512_1_0_0_1_n_n_wf
def dot_S2048x160_S160x512_S2048x512_1_0_0_1_n_n : DotDims S2048x160 S160x512 S2048x512 where
  lhsContracting := [1]
  rhsContracting := [0]
  lhsNonContracting := [0]
  rhsNonContracting := [1]
  lhsBatch := []
  rhsBatch := []
  wf := dot_S2048x160_S160x512_S2048x512_1_0_0_1_n_n_wf

abbrev win0_0 : Pipeline.Window sig grid0 :=
  Pipeline.Window.ofSpec (Memref.whole main_v67) S2048x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v69) S2048x160.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v71) S2048x160.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v72) S2048x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v73) S2048x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v74) S2048x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v76) S384x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v81) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v78) S160x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v82) S1x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v80) S160x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v83) S1x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v84) S2048x512.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S6x32 : Shape := ⟨2, ![6, 32]⟩
abbrev S100000x128 : Shape := ⟨2, ![100000, 128]⟩
abbrev S500000x128 : Shape := ⟨2, ![500000, 128]⟩
abbrev S10000x64 : Shape := ⟨2, ![10000, 64]⟩
abbrev S100x32 : Shape := ⟨2, ![100, 32]⟩
abbrev S200000x128 : Shape := ⟨2, ![200000, 128]⟩
abbrev S512x384 : Shape := ⟨2, ![512, 384]⟩
abbrev S512 : Shape := ⟨1, ![512]⟩
abbrev S512x160 : Shape := ⟨2, ![512, 160]⟩
abbrev S256x256 : Shape := ⟨2, ![256, 256]⟩
abbrev S256x256x12 : Shape := ⟨3, ![256, 256, 12]⟩
abbrev S_ : Shape := ⟨0, ![]⟩
abbrev S256x256x1 : Shape := ⟨3, ![256, 256, 1]⟩
abbrev S256x256x32 : Shape := ⟨3, ![256, 256, 32]⟩
abbrev S256x256x12x1 : Shape := ⟨4, ![256, 256, 12, 1]⟩
abbrev S256x256x12x128 : Shape := ⟨4, ![256, 256, 12, 128]⟩
abbrev S256x256x128 : Shape := ⟨3, ![256, 256, 128]⟩
abbrev S256x256x64 : Shape := ⟨3, ![256, 256, 64]⟩
abbrev S256x256x384 : Shape := ⟨3, ![256, 256, 384]⟩
abbrev S256x256x512 : Shape := ⟨3, ![256, 256, 512]⟩
abbrev S1x1x512 : Shape := ⟨3, ![1, 1, 512]⟩
abbrev S256x256x160 : Shape := ⟨3, ![256, 256, 160]⟩

abbrev nBuf : Space → Nat
  | .hbm => 138
  | .vmem => 0
  | .smem => 0
  | _ => 0

abbrev hbmTy0_0 (i : Nat) : BufTy := match i % 128 with
  | 0 => ⟨S6x32, .f32⟩
  | 1 => ⟨S100000x128, .f32⟩
  | 2 => ⟨S500000x128, .f32⟩
  | 3 => ⟨S10000x64, .f32⟩
  | 4 => ⟨S100x32, .f32⟩
  | 5 => ⟨S200000x128, .f32⟩
  | 6 => ⟨S512x384, .f32⟩
  | 7 => ⟨S512, .f32⟩
  | 8 => ⟨S512x160, .f32⟩
  | 9 => ⟨S512, .f32⟩
  | 10 => ⟨S512x160, .f32⟩
  | 11 => ⟨S512, .f32⟩
  | 12 => ⟨S256x256, .i32⟩
  | 13 => ⟨S256x256, .i32⟩
  | 14 => ⟨S256x256, .i32⟩
  | 15 => ⟨S256x256, .i32⟩
  | 16 => ⟨S256x256, .i32⟩
  | 17 => ⟨S256x256x12, .i32⟩
  | 18 => ⟨S_, .i32⟩
  | 19 => ⟨S256x256, .i32⟩
  | 20 => ⟨S256x256, .i1⟩
  | 21 => ⟨S256x256, .f32⟩
  | 22 => ⟨S_, .i32⟩
  | 23 => ⟨S256x256, .i32⟩
  | 24 => ⟨S256x256, .i1⟩
  | 25 => ⟨S_, .i32⟩
  | 26 => ⟨S256x256, .i32⟩
  | 27 => ⟨S256x256, .i32⟩
  | 28 => ⟨S256x256, .i32⟩
  | 29 => ⟨S256x256x1, .i32⟩
  | 30 => ⟨S256x256x32, .f32⟩
  | 31 => ⟨S_, .i32⟩
  | 32 => ⟨S256x256x12, .i32⟩
  | 33 => ⟨S256x256x12, .i1⟩
  | 34 => ⟨S_, .i32⟩
  | 35 => ⟨S256x256x12, .i32⟩
  | 36 => ⟨S256x256x12, .i32⟩
  | 37 => ⟨S256x256x12, .i32⟩
  | 38 => ⟨S256x256x12x1, .i32⟩
  | 39 => ⟨S256x256x12x128, .f32⟩
  | 40 => ⟨S_, .f32⟩
  | 41 => ⟨S256x256x128, .f32⟩
  | 42 => ⟨S_, .f32⟩
  | 43 => ⟨S256x256x128, .f32⟩
  | 44 => ⟨S256x256x128, .f32⟩
  | 45 => ⟨S_, .i32⟩
  | 46 => ⟨S256x256, .i32⟩
  | 47 => ⟨S256x256, .i1⟩
  | 48 => ⟨S_, .i32⟩
  | 49 => ⟨S256x256, .i32⟩
  | 50 => ⟨S256x256, .i32⟩
  | 51 => ⟨S256x256, .i32⟩
  | 52 => ⟨S256x256x1, .i32⟩
  | 53 => ⟨S256x256x128, .f32⟩
  | 54 => ⟨S_, .i32⟩
  | 55 => ⟨S256x256, .i32⟩
  | 56 => ⟨S256x256, .i1⟩
  | 57 => ⟨S_, .i32⟩
  | 58 => ⟨S256x256, .i32⟩
  | 59 => ⟨S256x256, .i32⟩
  | 60 => ⟨S256x256, .i32⟩
  | 61 => ⟨S256x256x1, .i32⟩
  | 62 => ⟨S256x256x64, .f32⟩
  | 63 => ⟨S_, .i32⟩
  | 64 => ⟨S256x256, .i32⟩
  | 65 => ⟨S256x256, .i1⟩
  | 66 => ⟨S_, .i32⟩
  | 67 => ⟨S256x256, .i32⟩
  | 68 => ⟨S256x256, .i32⟩
  | 69 => ⟨S256x256, .i32⟩
  | 70 => ⟨S256x256x1, .i32⟩
  | 71 => ⟨S256x256x32, .f32⟩
  | 72 => ⟨S256x256x384, .f32⟩
  | 73 => ⟨S256x256x512, .f32⟩
  | 74 => ⟨S1x1x512, .f32⟩
  | 75 => ⟨S256x256x512, .f32⟩
  | 76 => ⟨S256x256x512, .f32⟩
  | 77 => ⟨S_, .f32⟩
  | 78 => ⟨S256x256x512, .f32⟩
  | 79 => ⟨S256x256x512, .f32⟩
  | 80 => ⟨S_, .i32⟩
  | 81 => ⟨S256x256, .i32⟩
  | 82 => ⟨S256x256, .i1⟩
  | 83 => ⟨S_, .i32⟩
  | 84 => ⟨S256x256, .i32⟩
  | 85 => ⟨S256x256, .i32⟩
  | 86 => ⟨S256x256, .i32⟩
  | 87 => ⟨S256x256x1, .i32⟩
  | 88 => ⟨S256x256x128, .f32⟩
  | 89 => ⟨S256x256x160, .f32⟩
  | 90 => ⟨S256x256x512, .f32⟩
  | 91 => ⟨S1x1x512, .f32⟩
  | 92 => ⟨S256x256x512, .f32⟩
  | 93 => ⟨S256x256x512, .f32⟩
  | 94 => ⟨S_, .f32⟩
  | 95 => ⟨S256x256x512, .f32⟩
  | 96 => ⟨S256x256x512, .f32⟩
  | 97 => ⟨S256x256x160, .f32⟩
  | 98 => ⟨S256x256x512, .f32⟩
  | 99 => ⟨S1x1x512, .f32⟩
  | 100 => ⟨S256x256x512, .f32⟩
  | 101 => ⟨S256x256x512, .f32⟩
  | 102 => ⟨S_, .f32⟩
  | 103 => ⟨S256x256x512, .f32⟩
  | 104 => ⟨S256x256x512, .f32⟩
  | 105 => ⟨S_, .i32⟩
  | 106 => ⟨S256x256, .i32⟩
  | 107 => ⟨S256x256, .i1⟩
  | 108 => ⟨S_, .i32⟩
  | 109 => ⟨S256x256, .i32⟩
  | 110 => ⟨S256x256, .i1⟩
  | 111 => ⟨S256x256, .i1⟩
  | 112 => ⟨S256x256x1, .i1⟩
  | 113 => ⟨S_, .i32⟩
  | 114 => ⟨S256x256, .i32⟩
  | 115 => ⟨S256x256, .i1⟩
  | 116 => ⟨S256x256x1, .i1⟩
  | 117 => ⟨S_, .i32⟩
  | 118 => ⟨S256x256, .i32⟩
  | 119 => ⟨S256x256, .i1⟩
  | 120 => ⟨S256x256x1, .i1⟩
  | 121 => ⟨S_, .f32⟩
  | 122 => ⟨S_, .f32⟩
  | 123 => ⟨S256x256x512, .i1⟩
  | 124 => ⟨S256x256x512, .f32⟩
  | 125 => ⟨S256x256x512, .f32⟩
  | 126 => ⟨S_, .f32⟩
  | 127 => ⟨S_, .f32⟩
  | _ => ⟨S6x32, .f32⟩

abbrev hbmTy0_1 (i : Nat) : BufTy := match i % 128 with
  | 0 => ⟨S256x256x512, .i1⟩
  | 1 => ⟨S256x256x512, .f32⟩
  | 2 => ⟨S256x256x512, .f32⟩
  | 3 => ⟨S256x256x512, .f32⟩
  | 4 => ⟨S_, .f32⟩
  | 5 => ⟨S_, .f32⟩
  | 6 => ⟨S256x256x512, .i1⟩
  | 7 => ⟨S256x256x512, .f32⟩
  | 8 => ⟨S256x256x512, .f32⟩
  | 9 => ⟨S256x256x512, .f32⟩
  | _ => ⟨S6x32, .f32⟩

abbrev hbmTy (i : Nat) : BufTy := match i / 128 with
  | 0 => hbmTy0_0 i
  | 1 => hbmTy0_1 i
  | _ => ⟨S6x32, .f32⟩

abbrev bufTy : (tb : Table) → Fin (tcTables nBuf tb) → BufTy
  | .hbm, ⟨i, _⟩ => hbmTy i
  | _, _ => ⟨S6x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_c_0 : Ref sig .tc := ⟨.hbm, 22, rfl⟩
abbrev main_v3 : Ref sig .tc := ⟨.hbm, 23, rfl⟩
abbrev main_v4 : Ref sig .tc := ⟨.hbm, 24, rfl⟩
abbrev main_c_1 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_c_2 : Ref sig .tc := ⟨.hbm, 31, rfl⟩
abbrev main_v10 : Ref sig .tc := ⟨.hbm, 32, rfl⟩
abbrev main_v11 : Ref sig .tc := ⟨.hbm, 33, rfl⟩
abbrev main_c_3 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_cst : Ref sig .tc := ⟨.hbm, 40, rfl⟩
abbrev main_v17 : Ref sig .tc := ⟨.hbm, 41, rfl⟩
abbrev main_cst_4 : Ref sig .tc := ⟨.hbm, 42, rfl⟩
abbrev main_v18 : Ref sig .tc := ⟨.hbm, 43, rfl⟩
abbrev main_v19 : Ref sig .tc := ⟨.hbm, 44, rfl⟩
abbrev main_c_5 : Ref sig .tc := ⟨.hbm, 45, rfl⟩
abbrev main_v20 : Ref sig .tc := ⟨.hbm, 46, rfl⟩
abbrev main_v21 : Ref sig .tc := ⟨.hbm, 47, rfl⟩
abbrev main_c_6 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_c_7 : Ref sig .tc := ⟨.hbm, 54, rfl⟩
abbrev main_v27 : Ref sig .tc := ⟨.hbm, 55, rfl⟩
abbrev main_v28 : Ref sig .tc := ⟨.hbm, 56, rfl⟩
abbrev main_c_8 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_c_9 : Ref sig .tc := ⟨.hbm, 63, rfl⟩
abbrev main_v34 : Ref sig .tc := ⟨.hbm, 64, rfl⟩
abbrev main_v35 : Ref sig .tc := ⟨.hbm, 65, rfl⟩
abbrev main_c_10 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_call0_cst : Ref sig .tc := ⟨.hbm, 77, rfl⟩
abbrev main_call0_v0 : Ref sig .tc := ⟨.hbm, 78, rfl⟩
abbrev main_v46 : Ref sig .tc := ⟨.hbm, 79, rfl⟩
abbrev main_c_11 : Ref sig .tc := ⟨.hbm, 80, rfl⟩
abbrev main_v47 : Ref sig .tc := ⟨.hbm, 81, rfl⟩
abbrev main_v48 : Ref sig .tc := ⟨.hbm, 82, rfl⟩
abbrev main_c_12 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_call1_cst : Ref sig .tc := ⟨.hbm, 94, rfl⟩
abbrev main_call1_v0 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_call2_cst : Ref sig .tc := ⟨.hbm, 102, rfl⟩
abbrev main_call2_v0 : Ref sig .tc := ⟨.hbm, 103, rfl⟩
abbrev main_v65 : Ref sig .tc := ⟨.hbm, 104, rfl⟩
abbrev main_c_13 : Ref sig .tc := ⟨.hbm, 105, rfl⟩
abbrev main_v66 : Ref sig .tc := ⟨.hbm, 106, rfl⟩
abbrev main_v67 : Ref sig .tc := ⟨.hbm, 107, rfl⟩
abbrev main_c_14 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_c_15 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_c_16 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_cst_17 : Ref sig .tc := ⟨.hbm, 121, rfl⟩
abbrev main_call3_v0 : Ref sig .tc := ⟨.hbm, 122, rfl⟩
abbrev main_call3_v1 : Ref sig .tc := ⟨.hbm, 123, rfl⟩
abbrev main_call3_v2 : Ref sig .tc := ⟨.hbm, 124, rfl⟩
abbrev main_v78 : Ref sig .tc := ⟨.hbm, 125, rfl⟩
abbrev main_cst_18 : Ref sig .tc := ⟨.hbm, 126, rfl⟩
abbrev main_call4_v0 : Ref sig .tc := ⟨.hbm, 127, rfl⟩
abbrev main_call4_v1 : Ref sig .tc := ⟨.hbm, 128, rfl⟩
abbrev main_call4_v2 : Ref sig .tc := ⟨.hbm, 129, rfl⟩
abbrev main_v79 : Ref sig .tc := ⟨.hbm, 130, rfl⟩
abbrev main_v80 : Ref sig .tc := ⟨.hbm, 131, rfl⟩
abbrev main_cst_19 : Ref sig .tc := ⟨.hbm, 132, rfl⟩
abbrev main_call5_v0 : Ref sig .tc := ⟨.hbm, 133, rfl⟩
abbrev main_call5_v1 : Ref sig .tc := ⟨.hbm, 134, rfl⟩
abbrev main_call5_v2 : Ref sig .tc := ⟨.hbm, 135, rfl⟩
abbrev main_v81 : Ref sig .tc := ⟨.hbm, 136, rfl⟩
abbrev main_v82 : Ref sig .tc := ⟨.hbm, 137, rfl⟩

abbrev nD : Nat := 1
abbrev τ : Topo := Topo.v7x

variable {F : FTy → Type} [FloatOps F]

class Facts₀ : Prop where
  bcast_S_S256x256 : S_.BroadcastsInDim S256x256 (![] : Fin 0 → Fin S256x256.rank)
  bcast_S256x256_S256x256x1_0_1 : S256x256.BroadcastsInDim S256x256x1 (![0, 1] : Fin 2 → Fin S256x256x1.rank)
  bcast_S_S256x256x12 : S_.BroadcastsInDim S256x256x12 (![] : Fin 0 → Fin S256x256x12.rank)
  bcast_S256x256x12_S256x256x12x1_0_1_2 : S256x256x12.BroadcastsInDim S256x256x12x1 (![0, 1, 2] : Fin 3 → Fin S256x256x12x1.rank)
  reducesTo_S256x256x12x128_S256x256x128_d2 : S256x256x12x128.ReducesTo [2] S256x256x128
  h_S_ : 0 < S_.numel
  bcast_S_S256x256x128 : S_.BroadcastsInDim S256x256x128 (![] : Fin 0 → Fin S256x256x128.rank)
  concatenates_S256x256x32_S256x256x128_S256x256x64_S256x256x32_S256x256x128_S256x256x384_d2 : Shape.Concatenates [S256x256x32, S256x256x128, S256x256x64, S256x256x32, S256x256x128] S256x256x384 2
  bcast_S512_S1x1x512_2 : S512.BroadcastsInDim S1x1x512 (![2] : Fin 1 → Fin S1x1x512.rank)
  bcast_S1x1x512_S256x256x512_0_1_2 : S1x1x512.BroadcastsInDim S256x256x512 (![0, 1, 2] : Fin 3 → Fin S256x256x512.rank)
  bcast_S_S256x256x512 : S_.BroadcastsInDim S256x256x512 (![] : Fin 0 → Fin S256x256x512.rank)
  concatenates_S256x256x128_S256x256x32_S256x256x160_d2 : Shape.Concatenates [S256x256x128, S256x256x32] S256x256x160 2
  concatenates_S256x256x32_S256x256x128_S256x256x160_d2 : Shape.Concatenates [S256x256x32, S256x256x128] S256x256x160 2
  bcast_S256x256x1_S256x256x512_0_1_2 : S256x256x1.BroadcastsInDim S256x256x512 (![0, 1, 2] : Fin 3 → Fin S256x256x512.rank)
  gather_S6x32_S256x256x1_S256x256x32_2_0_n_n_0_2_132_wf : GatherDims.WF S6x32 S256x256x1 S256x256x32 [2] [0] [] [0] [] 2 ![1, 32]
  gather_S100000x128_S256x256x12x1_S256x256x12x128_3_0_n_n_0_3_1128_wf : GatherDims.WF S100000x128 S256x256x12x1 S256x256x12x128 [3] [0] [] [0] [] 3 ![1, 128]
  gather_S500000x128_S256x256x1_S256x256x128_2_0_n_n_0_2_1128_wf : GatherDims.WF S500000x128 S256x256x1 S256x256x128 [2] [0] [] [0] [] 2 ![1, 128]
  gather_S10000x64_S256x256x1_S256x256x64_2_0_n_n_0_2_164_wf : GatherDims.WF S10000x64 S256x256x1 S256x256x64 [2] [0] [] [0] [] 2 ![1, 64]
  gather_S100x32_S256x256x1_S256x256x32_2_0_n_n_0_2_132_wf : GatherDims.WF S100x32 S256x256x1 S256x256x32 [2] [0] [] [0] [] 2 ![1, 32]
  dot_S256x256x384_S512x384_S256x256x512_2_1_01_0_n_n_wf : DotDims.WF S256x256x384 S512x384 S256x256x512 [2] [1] [0, 1] [0] [] []
  gather_S200000x128_S256x256x1_S256x256x128_2_0_n_n_0_2_1128_wf : GatherDims.WF S200000x128 S256x256x1 S256x256x128 [2] [0] [] [0] [] 2 ![1, 128]
  dot_S256x256x160_S512x160_S256x256x512_2_1_01_0_n_n_wf : DotDims.WF S256x256x160 S512x160 S256x256x512 [2] [1] [0, 1] [0] [] []

variable [Facts₀]

def gather_S6x32_S256x256x1_S256x256x32_2_0_n_n_0_2_132 : GatherDims S6x32 S256x256x1 S256x256x32 where
  offsetDims := [2]
  collapsedSliceDims := [0]
  operandBatchingDims := []
  startIndicesBatchingDims := []
  startIndexMap := [0]
  indexVectorDim := 2
  sliceSizes := ![1, 32]
  wf := gather_S6x32_S256x256x1_S256x256x32_2_0_n_n_0_2_132_wf
def gather_S100000x128_S256x256x12x1_S256x256x12x128_3_0_n_n_0_3_1128 : GatherDims S100000x128 S256x256x12x1 S256x256x12x128 where
  offsetDims := [3]
  collapsedSliceDims := [0]
  operandBatchingDims := []
  startIndicesBatchingDims := []
  startIndexMap := [0]
  indexVectorDim := 3
  sliceSizes := ![1, 128]
  wf := gather_S100000x128_S256x256x12x1_S256x256x12x128_3_0_n_n_0_3_1128_wf
def gather_S500000x128_S256x256x1_S256x256x128_2_0_n_n_0_2_1128 : GatherDims S500000x128 S256x256x1 S256x256x128 where
  offsetDims := [2]
  collapsedSliceDims := [0]
  operandBatchingDims := []
  startIndicesBatchingDims := []
  startIndexMap := [0]
  indexVectorDim := 2
  sliceSizes := ![1, 128]
  wf := gather_S500000x128_S256x256x1_S256x256x128_2_0_n_n_0_2_1128_wf
def gather_S10000x64_S256x256x1_S256x256x64_2_0_n_n_0_2_164 : GatherDims S10000x64 S256x256x1 S256x256x64 where
  offsetDims := [2]
  collapsedSliceDims := [0]
  operandBatchingDims := []
  startIndicesBatchingDims := []
  startIndexMap := [0]
  indexVectorDim := 2
  sliceSizes := ![1, 64]
  wf := gather_S10000x64_S256x256x1_S256x256x64_2_0_n_n_0_2_164_wf
def gather_S100x32_S256x256x1_S256x256x32_2_0_n_n_0_2_132 : GatherDims S100x32 S256x256x1 S256x256x32 where
  offsetDims := [2]
  collapsedSliceDims := [0]
  operandBatchingDims := []
  startIndicesBatchingDims := []
  startIndexMap := [0]
  indexVectorDim := 2
  sliceSizes := ![1, 32]
  wf := gather_S100x32_S256x256x1_S256x256x32_2_0_n_n_0_2_132_wf
def dot_S256x256x384_S512x384_S256x256x512_2_1_01_0_n_n : DotDims S256x256x384 S512x384 S256x256x512 where
  lhsContracting := [2]
  rhsContracting := [1]
  lhsNonContracting := [0, 1]
  rhsNonContracting := [0]
  lhsBatch := []
  rhsBatch := []
  wf := dot_S256x256x384_S512x384_S256x256x512_2_1_01_0_n_n_wf
def gather_S200000x128_S256x256x1_S256x256x128_2_0_n_n_0_2_1128 : GatherDims S200000x128 S256x256x1 S256x256x128 where
  offsetDims := [2]
  collapsedSliceDims := [0]
  operandBatchingDims := []
  startIndicesBatchingDims := []
  startIndexMap := [0]
  indexVectorDim := 2
  sliceSizes := ![1, 128]
  wf := gather_S200000x128_S256x256x1_S256x256x128_2_0_n_n_0_2_1128_wf
def dot_S256x256x160_S512x160_S256x256x512_2_1_01_0_n_n : DotDims S256x256x160 S512x160 S256x256x512 where
  lhsContracting := [2]
  rhsContracting := [1]
  lhsNonContracting := [0, 1]
  rhsNonContracting := [0]
  lhsBatch := []
  rhsBatch := []
  wf := dot_S256x256x160_S512x160_S256x256x512_2_1_01_0_n_n_wf

class Facts : Prop extends Facts₀ where

variable [Facts]
-- ==== Proof.HostBits.lean ====
/-
  The host program around the one pipelined region of the routed three-layer kernel.

  The program is: a stretch of host operations (six row gathers, a mean over twelve gathered rows, three
  concatenations, three one-bit masks, reshapes to 65536 rows, three transposed weights, three bias rows), then the
  region, then one reshape of the region's result to [256, 256, 512].  This module says what the buffers hold when
  the region is entered (the host stretch applied to the launch contents), that no host operation writes an argument
  array, that the line after the region touches only what it may, and reads the program's frame (the arguments end
  unchanged) off any run that ends with every array of the region at the contents computed from the per-point data.
-/
import proofs.«154332_j41308995453233_1_alg».proof.Proof.Gen.Kernel.Launch
import proofs.«154332_j41308995453233_1_alg».proof.Proof.Gen.Kernel.Skeleton
import proofs.«154332_j41308995453233_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- The buffer contents of core `c` when the region is entered: the host stretch before it applied to the launch
    contents. -/
abbrev V0 (c : Dev nD) : Valuation τ sig (Elt F) := StableHlo.after (List.flatten [hostOps0]) (fun b => m (c, b))
/-- The same read at a reference of the core. -/
abbrev V (c : Dev nD) (b : Ref sig .tc) : Buf (Elt F) ((c : Thread nD τ).loc b) := V0 m c (Proc.devRef .tc b)

set_option maxHeartbeats 4000000 in
/-- No host operation before the region allocates. -/
theorem hostOps0_fresh : (hostOps0 : List (HloOp τ sig (Elt F))).Forall fun op => op.fresh = ∅ := by
  simp only [List.Forall]; repeat' constructor
/-- Nor does the one after it. -/
theorem hostOps1_fresh : (hostOps1 : List (HloOp τ sig (Elt F))).Forall fun op => op.fresh = ∅ := by
  simp only [List.Forall]; repeat' constructor

/-- The program is its host stretch, then the region continued by the line after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The line after the region touches only the region's arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the region: it writes its own result buffer only. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The argument arrays are written by no host operation -/

set_option maxHeartbeats 4000000 in
/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes argument 16: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes argument 17: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## And by none after the region -/

/-- The line after the region does not write argument 0: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- The line after the region does not write argument 1: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- The line after the region does not write argument 2: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- The line after the region does not write argument 3: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- The line after the region does not write argument 4: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- The line after the region does not write argument 5: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- The line after the region does not write argument 6: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- The line after the region does not write argument 7: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- The line after the region does not write argument 8: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- The line after the region does not write argument 9: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-- The line after the region does not write argument 10: it ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-- The line after the region does not write argument 11: it ends as launched. -/
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c

/-- The line after the region does not write argument 12: it ends as launched. -/
theorem W_main_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c

/-- The line after the region does not write argument 13: it ends as launched. -/
theorem W_main_arg13 (dats : (p : Fin _) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) := by
  unfold Pipeline.afterTail₀
  rw [StableHlo.after_of_forall_not_mem (b := Proc.devRef .tc main_arg13) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg13 (by exact (by decide : ∀ w, Pipeline.arrRef spec0 w ≠ main_arg13))]
  exact V_main_arg13 m c

/-- The line after the region does not write argument 14: it ends as launched. -/
theorem W_main_arg14 (dats : (p : Fin _) → (c : Dev nD) → Dat τ (Elt F) Unit ℕ (UR sig nD τ) ℕ (cfgs p) c) (c : Dev nD) :
    Pipeline.afterTail₀ cfgs dats 0 (V0 m) [hostOps1] c main_arg14 = m ((c : Thread nD τ).loc main_arg14) := by
  unfold Pipeline.afterTail₀
  rw [StableHlo.after_of_forall_not_mem (b := Proc.devRef .tc main_arg14) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg14 (by exact (by decide : ∀ w, Pipeline.arrRef spec0 w ≠ main_arg14))]
  exact V_main_arg14 m c

/-- The line after the region does not write argument 15: it ends as launched. -/
theorem W_main_arg15 (dats : (p : Fin _) → (c : Dev nD) → Dat τ (Elt F) Unit ℕ (UR sig nD τ) ℕ (cfgs p) c) (c : Dev nD) :
    Pipeline.afterTail₀ cfgs dats 0 (V0 m) [hostOps1] c main_arg15 = m ((c : Thread nD τ).loc main_arg15) := by
  unfold Pipeline.afterTail₀
  rw [StableHlo.after_of_forall_not_mem (b := Proc.devRef .tc main_arg15) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg15 (by exact (by decide : ∀ w, Pipeline.arrRef spec0 w ≠ main_arg15))]
  exact V_main_arg15 m c

/-- The line after the region does not write argument 16: it ends as launched. -/
theorem W_main_arg16 (dats : (p : Fin _) → (c : Dev nD) → Dat τ (Elt F) Unit ℕ (UR sig nD τ) ℕ (cfgs p) c) (c : Dev nD) :
    Pipeline.afterTail₀ cfgs dats 0 (V0 m) [hostOps1] c main_arg16 = m ((c : Thread nD τ).loc main_arg16) := by
  unfold Pipeline.afterTail₀
  rw [StableHlo.after_of_forall_not_mem (b := Proc.devRef .tc main_arg16) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg16 (by exact (by decide : ∀ w, Pipeline.arrRef spec0 w ≠ main_arg16))]
  exact V_main_arg16 m c

/-- The line after the region does not write argument 17: it ends as launched. -/
theorem W_main_arg17 (dats : (p : Fin _) → (c : Dev nD) → Dat τ (Elt F) Unit ℕ (UR sig nD τ) ℕ (cfgs p) c) (c : Dev nD) :
    Pipeline.afterTail₀ cfgs dats 0 (V0 m) [hostOps1] c main_arg17 = m ((c : Thread nD τ).loc main_arg17) := by
  unfold Pipeline.afterTail₀
  rw [StableHlo.after_of_forall_not_mem (b := Proc.devRef .tc main_arg17) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg17 (by exact (by decide : ∀ w, Pipeline.arrRef spec0 w ≠ main_arg17))]
  exact V_main_arg17 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every point, fetched there or not (where it is not
    fetched its block index has not moved), for any per-point data whose array is the region-entry contents and whose
    body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current buffer holds its block at every point, fetched there or not (where it is not
    fetched its block index has not moved), for any per-point data whose array is the region-entry contents and whose
    body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current buffer holds its block at every point, fetched there or not (where it is not
    fetched its block index has not moved), for any per-point data whose array is the region-entry contents and whose
    body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current buffer holds its block at every point, fetched there or not (where it is not
    fetched its block index has not moved), for any per-point data whose array is the region-entry contents and whose
    body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current buffer holds its block at every point, fetched there or not (where it is not
    fetched its block index has not moved), for any per-point data whose array is the region-entry contents and whose
    body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current buffer holds its block at every point, fetched there or not (where it is not
    fetched its block index has not moved), for any per-point data whose array is the region-entry contents and whose
    body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current buffer holds its block at every point, fetched there or not (where it is not
    fetched its block index has not moved), for any per-point data whose array is the region-entry contents and whose
    body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current buffer holds its block at every point, fetched there or not (where it is not
    fetched its block index has not moved), for any per-point data whose array is the region-entry contents and whose
    body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current buffer holds its block at every point, fetched there or not (where it is not
    fetched its block index has not moved), for any per-point data whose array is the region-entry contents and whose
    body leaves the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's current buffer holds its block at every point, fetched there or not (where it is not
    fetched its block index has not moved), for any per-point data whose array is the region-entry contents and whose
    body leaves the block in place. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- Input window 10's current buffer holds its block at every point, fetched there or not (where it is not
    fetched its block index has not moved), for any per-point data whose array is the region-entry contents and whose
    body leaves the block in place. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-- Input window 11's current buffer holds its block at every point, fetched there or not (where it is not
    fetched its block index has not moved), for any per-point data whose array is the region-entry contents and whose
    body leaves the block in place. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The frame from a run -/

/-- The frame: for any per-point data whose arrays are the region-entry contents, a run that ends with every array of
    the region at the contents computed from the data and every other buffer as the line after the region leaves it
    ends with every argument array as launched — no window stages an argument, and no host operation writes one. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c),
    ((h c).2 main_arg9 (Pipeline.mem_restRefs_of main_arg9 (by decide) (by decide))).trans (W_main_arg9 m dats c),
    ((h c).2 main_arg10 (Pipeline.mem_restRefs_of main_arg10 (by decide) (by decide))).trans (W_main_arg10 m dats c),
    ((h c).2 main_arg11 (Pipeline.mem_restRefs_of main_arg11 (by decide) (by decide))).trans (W_main_arg11 m dats c),
    ((h c).2 main_arg12 (Pipeline.mem_restRefs_of main_arg12 (by decide) (by decide))).trans (W_main_arg12 m dats c),
    ((h c).2 main_arg13 (Pipeline.mem_restRefs_of main_arg13 (by decide) (by decide))).trans (W_main_arg13 m dats c),
    ((h c).2 main_arg14 (Pipeline.mem_restRefs_of main_arg14 (by decide) (by decide))).trans (W_main_arg14 m dats c),
    ((h c).2 main_arg15 (Pipeline.mem_restRefs_of main_arg15 (by decide) (by decide))).trans (W_main_arg15 m dats c),
    ((h c).2 main_arg16 (Pipeline.mem_restRefs_of main_arg16 (by decide) (by decide))).trans (W_main_arg16 m dats c),
    ((h c).2 main_arg17 (Pipeline.mem_restRefs_of main_arg17 (by decide) (by decide))).trans (W_main_arg17 m dats c)⟩) h

end Cert.Kernel.Hand

end
-- ==== Proof.BodyBits.lean ====
/-
  The body of the routed three-layer kernel at one grid point, and the run of the whole program.

  At a point the body reads its twelve input blocks whole (three feature blocks of 2048 rows, three mask columns,
  three weight matrices, three bias rows), computes, and stores ONE whole 2048 x 512 block: the output block after the
  body is that one store's value as a function of the twelve input blocks.  The per-point data say so at every point;
  the program then runs: the host stretch, the region point by point, the reshape after it.
-/
import proofs.«154332_j41308995453233_1_alg».proof.Proof.HostBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: each is a whole block -/

abbrev rFeat384 : Rect S2048x384 := Rect.unit (s := S2048x384) ![0, 0] S2048x384.size inb_S2048x384_S2048x384_0_0
abbrev rW384 : Rect S384x512 := Rect.unit (s := S384x512) ![0, 0] S384x512.size inb_S384x512_S384x512_0_0
abbrev rBias : Rect S1x512 := Rect.unit (s := S1x512) ![0, 0] S1x512.size inb_S1x512_S1x512_0_0
abbrev rMask : Rect S2048x1 := Rect.unit (s := S2048x1) ![0, 0] S2048x1.size inb_S2048x1_S2048x1_0_0
abbrev rFeat160 : Rect S2048x160 := Rect.unit (s := S2048x160) ![0, 0] S2048x160.size inb_S2048x160_S2048x160_0_0
abbrev rW160 : Rect S160x512 := Rect.unit (s := S160x512) ![0, 0] S160x512.size inb_S160x512_S160x512_0_0
abbrev rOut : Rect S2048x512 := Rect.unit (s := S2048x512) ![0, 0] S2048x512.size inb_S2048x512_S2048x512_0_0

/-! ## What the body leaves in the output window's buffer -/

/-- The output block after the body, from the twelve input blocks: its one store, of the routed sum of the three
    rectified layers (the first two layers' sum is computed first, the third layer added to it). -/
def out0_12 (x0 : Vec F S2048x384 .bf16) (x1 : Vec F S2048x160 .bf16) (x2 : Vec F S2048x160 .bf16) (x3 : Vec F S2048x1 .f32) (x4 : Vec F S2048x1 .f32) (x5 : Vec F S2048x1 .f32) (x6 : Vec F S384x512 .bf16) (x7 : Vec F S1x512 .f32) (x8 : Vec F S160x512 .bf16) (x9 : Vec F S1x512 .f32) (x10 : Vec F S160x512 .bf16) (x11 : Vec F S1x512 .f32) : Vec F S2048x512 .f32 :=
  View.canon [⟨rOut, k0_pay1 (k0_pay2 (View.ld x0 rFeat384) (View.ld x6 rW384) (View.ld x7 rBias) (View.ld x3 rMask) (View.ld x1 rFeat160) (View.ld x8 rW160) (View.ld x9 rBias) (View.ld x4 rMask)) (k0_pay3 (View.ld x2 rFeat160)) (k0_pay4 (View.ld x10 rW160)) (View.ld x11 rBias) (View.ld x5 rMask)⟩]

/-- The one store covers the block. -/
theorem cover0_12 (p0 : Vec F S2048x512 .f32) (y : S2048x512.Idx) :
    ∃ pc ∈ ([⟨rOut, p0⟩] : List (View.Piece (Elt F) S2048x512 .f32)), y ∈ pc.1.set :=
  View.cover_of_tiled [⟨rOut, p0⟩] S2048x512.size (by rfl) y

/-! ## The body's triple -/

set_option maxHeartbeats 4000000 in
/-- The body on whole buffers, the inputs' at contents `xW` and the output's at anything, runs to the continuation
    holding the inputs' as they were and the output's at `out0_12` of the inputs'. -/
theorem sound_kernel (c : Dev nD) (E : Set ℕ) (i : grid0.Coords) (arg1 : Memref sig .tc .vmem S2048x384 .bf16) (harg1 : arg1.IsWhole) (arg2 : Memref sig .tc .vmem S2048x160 .bf16) (harg2 : arg2.IsWhole) (arg3 : Memref sig .tc .vmem S2048x160 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S384x512 .bf16) (harg7 : arg7.IsWhole) (arg8 : Memref sig .tc .vmem S1x512 .f32) (harg8 : arg8.IsWhole) (arg9 : Memref sig .tc .vmem S160x512 .bf16) (harg9 : arg9.IsWhole) (arg10 : Memref sig .tc .vmem S1x512 .f32) (harg10 : arg10.IsWhole) (arg11 : Memref sig .tc .vmem S160x512 .bf16) (harg11 : arg11.IsWhole) (arg12 : Memref sig .tc .vmem S1x512 .f32) (harg12 : arg12.IsWhole) (arg13 : Memref sig .tc .vmem S2048x512 .f32) (harg13 : arg13.IsWhole)
    (x0 : Vec F S2048x384 .bf16) (x1 : Vec F S2048x160 .bf16) (x2 : Vec F S2048x160 .bf16) (x3 : Vec F S2048x1 .f32) (x4 : Vec F S2048x1 .f32) (x5 : Vec F S2048x1 .f32) (x6 : Vec F S384x512 .bf16) (x7 : Vec F S1x512 .f32) (x8 : Vec F S160x512 .bf16) (x9 : Vec F S1x512 .f32) (x10 : Vec F S160x512 .bf16) (x11 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (out0_12 x0 x1 x2 x3 x4 x5 x6 x7 x8 x9 x10 x11)) -∗ K ⟨⟩))
      ⊢ wp frame (wpE (defs₀ (F := F)) Variants.none c none) E (cc0__moe_kernel i arg1 harg1 arg2 harg2 arg3 harg3 arg4 harg4 arg5 harg5 arg6 harg6 arg7 harg7 arg8 harg8 arg9 harg9 arg10 harg10 arg11 harg11 arg12 harg12 arg13 harg13) K := by
  simp only [cc0__moe_kernel_eq_skeleton]; unfold cc0__moe_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  try dsimp only
  exact View.read_writes_eq_canon _ _ _ (cover0_12 _)

/-! ## The per-point data -/

/-- The data of the region on core `c`: the arrays as the region finds them; after the body at point `t` each input's
    buffer at its block and the output's at `out0_12` of the input blocks; the invariant: the rest of the core's scoped
    memory, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
  Φ _ := Pipeline.ΦA spec0 c
  q _ := fullShare
  owed _ := 0

/-- The data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

set_option maxHeartbeats 4000000 in
/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel c Set.univ (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state
    has every array of the region at what the per-point data compute and every other buffer as the line after the region
    leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame of the program: it runs to the end and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ (dats m) (A_eq m) (run_main m ρ)

end Cert.Kernel.Hand

end
-- ==== Proof.HostIdeal.lean ====
/-
  The host program around the one pipelined region of the routed three-layer kernel.

  The program is: a stretch of host operations (six row gathers, a mean over twelve gathered rows, three
  concatenations, three one-bit masks, reshapes to 65536 rows, three transposed weights, three bias rows), then the
  region, then one reshape of the region's result to [256, 256, 512].  This module says what the buffers hold when
  the region is entered (the host stretch applied to the launch contents), that no host operation writes an argument
  array, that the line after the region touches only what it may, and reads the program's frame (the arguments end
  unchanged) off any run that ends with every array of the region at the contents computed from the per-point data.
-/
import proofs.«154332_j41308995453233_1_alg».proof.Proof.Gen.KernelIdeal.Launch
import proofs.«154332_j41308995453233_1_alg».proof.Proof.Gen.KernelIdeal.Skeleton
import proofs.«154332_j41308995453233_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- The buffer contents of core `c` when the region is entered: the host stretch before it applied to the launch
    contents. -/
abbrev V0 (c : Dev nD) : Valuation τ sig (Elt F) := StableHlo.after (List.flatten [hostOps0]) (fun b => m (c, b))
/-- The same read at a reference of the core. -/
abbrev V (c : Dev nD) (b : Ref sig .tc) : Buf (Elt F) ((c : Thread nD τ).loc b) := V0 m c (Proc.devRef .tc b)

set_option maxHeartbeats 4000000 in
/-- No host operation before the region allocates. -/
theorem hostOps0_fresh : (hostOps0 : List (HloOp τ sig (Elt F))).Forall fun op => op.fresh = ∅ := by
  simp only [List.Forall]; repeat' constructor
/-- Nor does the one after it. -/
theorem hostOps1_fresh : (hostOps1 : List (HloOp τ sig (Elt F))).Forall fun op => op.fresh = ∅ := by
  simp only [List.Forall]; repeat' constructor

/-- The program is its host stretch, then the region continued by the line after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The line after the region touches only the region's arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the region: it writes its own result buffer only. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The argument arrays are written by no host operation -/

set_option maxHeartbeats 4000000 in
/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes argument 16: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes argument 17: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## And by none after the region -/

/-- The line after the region does not write argument 0: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- The line after the region does not write argument 1: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- The line after the region does not write argument 2: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- The line after the region does not write argument 3: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- The line after the region does not write argument 4: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- The line after the region does not write argument 5: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- The line after the region does not write argument 6: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- The line after the region does not write argument 7: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- The line after the region does not write argument 8: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- The line after the region does not write argument 9: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-- The line after the region does not write argument 10: it ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-- The line after the region does not write argument 11: it ends as launched. -/
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c

/-- The line after the region does not write argument 12: it ends as launched. -/
theorem W_main_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c

/-- The line after the region does not write argument 13: it ends as launched. -/
theorem W_main_arg13 (dats : (p : Fin _) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) := by
  unfold Pipeline.afterTail₀
  rw [StableHlo.after_of_forall_not_mem (b := Proc.devRef .tc main_arg13) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg13 (by exact (by decide : ∀ w, Pipeline.arrRef spec0 w ≠ main_arg13))]
  exact V_main_arg13 m c

/-- The line after the region does not write argument 14: it ends as launched. -/
theorem W_main_arg14 (dats : (p : Fin _) → (c : Dev nD) → Dat τ (Elt F) Unit ℕ (UR sig nD τ) ℕ (cfgs p) c) (c : Dev nD) :
    Pipeline.afterTail₀ cfgs dats 0 (V0 m) [hostOps1] c main_arg14 = m ((c : Thread nD τ).loc main_arg14) := by
  unfold Pipeline.afterTail₀
  rw [StableHlo.after_of_forall_not_mem (b := Proc.devRef .tc main_arg14) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg14 (by exact (by decide : ∀ w, Pipeline.arrRef spec0 w ≠ main_arg14))]
  exact V_main_arg14 m c

/-- The line after the region does not write argument 15: it ends as launched. -/
theorem W_main_arg15 (dats : (p : Fin _) → (c : Dev nD) → Dat τ (Elt F) Unit ℕ (UR sig nD τ) ℕ (cfgs p) c) (c : Dev nD) :
    Pipeline.afterTail₀ cfgs dats 0 (V0 m) [hostOps1] c main_arg15 = m ((c : Thread nD τ).loc main_arg15) := by
  unfold Pipeline.afterTail₀
  rw [StableHlo.after_of_forall_not_mem (b := Proc.devRef .tc main_arg15) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg15 (by exact (by decide : ∀ w, Pipeline.arrRef spec0 w ≠ main_arg15))]
  exact V_main_arg15 m c

/-- The line after the region does not write argument 16: it ends as launched. -/
theorem W_main_arg16 (dats : (p : Fin _) → (c : Dev nD) → Dat τ (Elt F) Unit ℕ (UR sig nD τ) ℕ (cfgs p) c) (c : Dev nD) :
    Pipeline.afterTail₀ cfgs dats 0 (V0 m) [hostOps1] c main_arg16 = m ((c : Thread nD τ).loc main_arg16) := by
  unfold Pipeline.afterTail₀
  rw [StableHlo.after_of_forall_not_mem (b := Proc.devRef .tc main_arg16) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg16 (by exact (by decide : ∀ w, Pipeline.arrRef spec0 w ≠ main_arg16))]
  exact V_main_arg16 m c

/-- The line after the region does not write argument 17: it ends as launched. -/
theorem W_main_arg17 (dats : (p : Fin _) → (c : Dev nD) → Dat τ (Elt F) Unit ℕ (UR sig nD τ) ℕ (cfgs p) c) (c : Dev nD) :
    Pipeline.afterTail₀ cfgs dats 0 (V0 m) [hostOps1] c main_arg17 = m ((c : Thread nD τ).loc main_arg17) := by
  unfold Pipeline.afterTail₀
  rw [StableHlo.after_of_forall_not_mem (b := Proc.devRef .tc main_arg17) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg17 (by exact (by decide : ∀ w, Pipeline.arrRef spec0 w ≠ main_arg17))]
  exact V_main_arg17 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every point, fetched there or not (where it is not
    fetched its block index has not moved), for any per-point data whose array is the region-entry contents and whose
    body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current buffer holds its block at every point, fetched there or not (where it is not
    fetched its block index has not moved), for any per-point data whose array is the region-entry contents and whose
    body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current buffer holds its block at every point, fetched there or not (where it is not
    fetched its block index has not moved), for any per-point data whose array is the region-entry contents and whose
    body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current buffer holds its block at every point, fetched there or not (where it is not
    fetched its block index has not moved), for any per-point data whose array is the region-entry contents and whose
    body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current buffer holds its block at every point, fetched there or not (where it is not
    fetched its block index has not moved), for any per-point data whose array is the region-entry contents and whose
    body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current buffer holds its block at every point, fetched there or not (where it is not
    fetched its block index has not moved), for any per-point data whose array is the region-entry contents and whose
    body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current buffer holds its block at every point, fetched there or not (where it is not
    fetched its block index has not moved), for any per-point data whose array is the region-entry contents and whose
    body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current buffer holds its block at every point, fetched there or not (where it is not
    fetched its block index has not moved), for any per-point data whose array is the region-entry contents and whose
    body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current buffer holds its block at every point, fetched there or not (where it is not
    fetched its block index has not moved), for any per-point data whose array is the region-entry contents and whose
    body leaves the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's current buffer holds its block at every point, fetched there or not (where it is not
    fetched its block index has not moved), for any per-point data whose array is the region-entry contents and whose
    body leaves the block in place. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- Input window 10's current buffer holds its block at every point, fetched there or not (where it is not
    fetched its block index has not moved), for any per-point data whose array is the region-entry contents and whose
    body leaves the block in place. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-- Input window 11's current buffer holds its block at every point, fetched there or not (where it is not
    fetched its block index has not moved), for any per-point data whose array is the region-entry contents and whose
    body leaves the block in place. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The frame from a run -/

/-- The frame: for any per-point data whose arrays are the region-entry contents, a run that ends with every array of
    the region at the contents computed from the data and every other buffer as the line after the region leaves it
    ends with every argument array as launched — no window stages an argument, and no host operation writes one. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c),
    ((h c).2 main_arg9 (Pipeline.mem_restRefs_of main_arg9 (by decide) (by decide))).trans (W_main_arg9 m dats c),
    ((h c).2 main_arg10 (Pipeline.mem_restRefs_of main_arg10 (by decide) (by decide))).trans (W_main_arg10 m dats c),
    ((h c).2 main_arg11 (Pipeline.mem_restRefs_of main_arg11 (by decide) (by decide))).trans (W_main_arg11 m dats c),
    ((h c).2 main_arg12 (Pipeline.mem_restRefs_of main_arg12 (by decide) (by decide))).trans (W_main_arg12 m dats c),
    ((h c).2 main_arg13 (Pipeline.mem_restRefs_of main_arg13 (by decide) (by decide))).trans (W_main_arg13 m dats c),
    ((h c).2 main_arg14 (Pipeline.mem_restRefs_of main_arg14 (by decide) (by decide))).trans (W_main_arg14 m dats c),
    ((h c).2 main_arg15 (Pipeline.mem_restRefs_of main_arg15 (by decide) (by decide))).trans (W_main_arg15 m dats c),
    ((h c).2 main_arg16 (Pipeline.mem_restRefs_of main_arg16 (by decide) (by decide))).trans (W_main_arg16 m dats c),
    ((h c).2 main_arg17 (Pipeline.mem_restRefs_of main_arg17 (by decide) (by decide))).trans (W_main_arg17 m dats c)⟩) h

end Cert.KernelIdeal.Hand

end
-- ==== Proof.BodyIdeal.lean ====
/-
  The body of the routed three-layer kernel at one grid point, and the run of the whole program.

  At a point the body reads its twelve input blocks whole (three feature blocks of 2048 rows, three mask columns,
  three weight matrices, three bias rows), computes, and stores ONE whole 2048 x 512 block: the output block after the
  body is that one store's value as a function of the twelve input blocks.  The per-point data say so at every point;
  the program then runs: the host stretch, the region point by point, the reshape after it.
-/
import proofs.«154332_j41308995453233_1_alg».proof.Proof.HostIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: each is a whole block -/

abbrev rFeat384 : Rect S2048x384 := Rect.unit (s := S2048x384) ![0, 0] S2048x384.size inb_S2048x384_S2048x384_0_0
abbrev rW384 : Rect S384x512 := Rect.unit (s := S384x512) ![0, 0] S384x512.size inb_S384x512_S384x512_0_0
abbrev rBias : Rect S1x512 := Rect.unit (s := S1x512) ![0, 0] S1x512.size inb_S1x512_S1x512_0_0
abbrev rMask : Rect S2048x1 := Rect.unit (s := S2048x1) ![0, 0] S2048x1.size inb_S2048x1_S2048x1_0_0
abbrev rFeat160 : Rect S2048x160 := Rect.unit (s := S2048x160) ![0, 0] S2048x160.size inb_S2048x160_S2048x160_0_0
abbrev rW160 : Rect S160x512 := Rect.unit (s := S160x512) ![0, 0] S160x512.size inb_S160x512_S160x512_0_0
abbrev rOut : Rect S2048x512 := Rect.unit (s := S2048x512) ![0, 0] S2048x512.size inb_S2048x512_S2048x512_0_0

/-! ## What the body leaves in the output window's buffer -/

/-- The output block after the body, from the twelve input blocks: its one store, of the routed sum of the three
    rectified layers (the first two layers' sum is computed first, the third layer added to it). -/
def out0_12 (x0 : Vec F S2048x384 .bf16) (x1 : Vec F S2048x160 .bf16) (x2 : Vec F S2048x160 .bf16) (x3 : Vec F S2048x1 .f32) (x4 : Vec F S2048x1 .f32) (x5 : Vec F S2048x1 .f32) (x6 : Vec F S384x512 .bf16) (x7 : Vec F S1x512 .f32) (x8 : Vec F S160x512 .bf16) (x9 : Vec F S1x512 .f32) (x10 : Vec F S160x512 .bf16) (x11 : Vec F S1x512 .f32) : Vec F S2048x512 .f32 :=
  View.canon [⟨rOut, k0_pay1 (k0_pay2 (View.ld x0 rFeat384) (View.ld x6 rW384) (View.ld x7 rBias) (View.ld x3 rMask) (View.ld x1 rFeat160) (View.ld x8 rW160) (View.ld x9 rBias) (View.ld x4 rMask)) (k0_pay3 (View.ld x2 rFeat160)) (k0_pay4 (View.ld x10 rW160)) (View.ld x11 rBias) (View.ld x5 rMask)⟩]

/-- The one store covers the block. -/
theorem cover0_12 (p0 : Vec F S2048x512 .f32) (y : S2048x512.Idx) :
    ∃ pc ∈ ([⟨rOut, p0⟩] : List (View.Piece (Elt F) S2048x512 .f32)), y ∈ pc.1.set :=
  View.cover_of_tiled [⟨rOut, p0⟩] S2048x512.size (by rfl) y

/-! ## The body's triple -/

set_option maxHeartbeats 4000000 in
/-- The body on whole buffers, the inputs' at contents `xW` and the output's at anything, runs to the continuation
    holding the inputs' as they were and the output's at `out0_12` of the inputs'. -/
theorem sound_kernel (c : Dev nD) (E : Set ℕ) (i : grid0.Coords) (arg1 : Memref sig .tc .vmem S2048x384 .bf16) (harg1 : arg1.IsWhole) (arg2 : Memref sig .tc .vmem S2048x160 .bf16) (harg2 : arg2.IsWhole) (arg3 : Memref sig .tc .vmem S2048x160 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S384x512 .bf16) (harg7 : arg7.IsWhole) (arg8 : Memref sig .tc .vmem S1x512 .f32) (harg8 : arg8.IsWhole) (arg9 : Memref sig .tc .vmem S160x512 .bf16) (harg9 : arg9.IsWhole) (arg10 : Memref sig .tc .vmem S1x512 .f32) (harg10 : arg10.IsWhole) (arg11 : Memref sig .tc .vmem S160x512 .bf16) (harg11 : arg11.IsWhole) (arg12 : Memref sig .tc .vmem S1x512 .f32) (harg12 : arg12.IsWhole) (arg13 : Memref sig .tc .vmem S2048x512 .f32) (harg13 : arg13.IsWhole)
    (x0 : Vec F S2048x384 .bf16) (x1 : Vec F S2048x160 .bf16) (x2 : Vec F S2048x160 .bf16) (x3 : Vec F S2048x1 .f32) (x4 : Vec F S2048x1 .f32) (x5 : Vec F S2048x1 .f32) (x6 : Vec F S384x512 .bf16) (x7 : Vec F S1x512 .f32) (x8 : Vec F S160x512 .bf16) (x9 : Vec F S1x512 .f32) (x10 : Vec F S160x512 .bf16) (x11 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (out0_12 x0 x1 x2 x3 x4 x5 x6 x7 x8 x9 x10 x11)) -∗ K ⟨⟩))
      ⊢ wp frame (wpE (defs₀ (F := F)) Variants.none c none) E (cc0__moe_kernel i arg1 harg1 arg2 harg2 arg3 harg3 arg4 harg4 arg5 harg5 arg6 harg6 arg7 harg7 arg8 harg8 arg9 harg9 arg10 harg10 arg11 harg11 arg12 harg12 arg13 harg13) K := by
  simp only [cc0__moe_kernel_eq_skeleton]; unfold cc0__moe_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  try dsimp only
  exact View.read_writes_eq_canon _ _ _ (cover0_12 _)

/-! ## The per-point data -/

/-- The data of the region on core `c`: the arrays as the region finds them; after the body at point `t` each input's
    buffer at its block and the output's at `out0_12` of the input blocks; the invariant: the rest of the core's scoped
    memory, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
  Φ _ := Pipeline.ΦA spec0 c
  q _ := fullShare
  owed _ := 0

/-- The data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

set_option maxHeartbeats 4000000 in
/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel c Set.univ (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state
    has every array of the region at what the per-point data compute and every other buffer as the line after the region
    leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame of the program: it runs to the end and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ (dats m) (A_eq m) (run_main m ρ)

end Cert.KernelIdeal.Hand

end
-- ==== Proof.Spec.lean ====
/-
  The mathematics both programs compute, index by index on the extended reals.

  A token (p, q) of the 256 x 256 batch carries three feature rows: xs (384 features), xu and xq
  (160 features each).  Each row goes through its own dense layer followed by a rectifier,
      lin x w b p q h = max (sum_k x p q k * w h k + b h) 0 ,
  and the three layer outputs are routed by three one-bit masks of the token: a layer's output is
  kept where its mask bit is 1 and replaced by 0 where it is not, and the three routed values are
  added, the first two first.
-/
import Idealize.ShloMosaic.PureOps.Ideal
import Idealize.ShloMosaic.Lib.ValueIdx

noncomputable section

namespace Moe

open Idealize.ShloMosaic

/-- One rectified dense layer at token (p, q) and hidden unit h. -/
def lin {K : Nat} (x : Fin 256 → Fin 256 → Fin K → EReal) (w : Fin 512 → Fin K → EReal) (b : Fin 512 → EReal)
    (p q : Fin 256) (h : Fin 512) : EReal :=
  max ((∑ k : Fin K, x p q k * w h k) + b h) 0

/-- A value kept where the mask bit is 1, replaced by 0 elsewhere. -/
def routed (bit : BitVec 1) (v : EReal) : EReal := if bit = 1#1 then v else 0

/-- The routed sum of the three layers. -/
def moe (xs : Fin 256 → Fin 256 → Fin 384 → EReal) (xu xq : Fin 256 → Fin 256 → Fin 160 → EReal)
    (ws : Fin 512 → Fin 384 → EReal) (bs : Fin 512 → EReal)
    (wu : Fin 512 → Fin 160 → EReal) (bu : Fin 512 → EReal)
    (wq : Fin 512 → Fin 160 → EReal) (bq : Fin 512 → EReal)
    (ms mu mq : Fin 256 → Fin 256 → BitVec 1) (p q : Fin 256) (h : Fin 512) : EReal :=
  (routed (ms p q) (lin xs ws bs p q h) + routed (mu p q) (lin xu wu bu p q h))
    + routed (mq p q) (lin xq wq bq p q h)

/-- Multiplying by the mask bit read as the number 0 or 1 is routing: v * 1 = v, and v * 0 = 0 for
    every extended real v, the infinities included. -/
theorem mul_bit (v : EReal) (bit : BitVec 1) :
    v * (if bit = 1#1 then (1 : EReal) else 0) = routed bit v := by
  unfold routed
  split
  · exact mul_one v
  · exact mul_zero v

end Moe

end
-- ==== Proof.Payload.lean ====
/-
  The kernel body's arithmetic read at one output position, on the extended reals.

  The body forms three matrix products into a zero accumulator, adds to each a bias row repeated down the rows,
  takes the maximum with zero, multiplies by a mask column repeated along the row, and adds the three results,
  the first two first.  Read at row r and column h this is

      (max (sum_k x0 r k * x6 k h + x7 0 h) 0 * x3 r 0 + max (sum_k x1 r k * x8 k h + x9 0 h) 0 * x4 r 0)
        + max (sum_k x2 r k * x10 k h + x11 0 h) 0 * x5 r 0 .
-/
import proofs.«154332_j41308995453233_1_alg».proof.Proof.Gen.KernelIdeal.Skeleton
import proofs.«154332_j41308995453233_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KValue

open Cert.KernelIdeal Cert.KernelIdeal.Gen Idealize.ShloMosaic

/-- The left operand's row coordinate at an output position is the output's row. -/
theorem lhs384_0 (i : S2048x512.Idx) (q : dot_S2048x384_S384x512_S2048x512_1_0_0_1_n_n.contr.Idx) :
    (dot_S2048x384_S384x512_S2048x512_1_0_0_1_n_n.lhsIdx i q 0).val = (i 0).val := by
  unfold DotDims.lhsIdx
  rw [dif_neg (show ¬(0 : Fin S2048x384.rank) ∈ dot_S2048x384_S384x512_S2048x512_1_0_0_1_n_n.lhsBatch by decide), dif_pos (show (0 : Fin S2048x384.rank) ∈ dot_S2048x384_S384x512_S2048x512_1_0_0_1_n_n.lhsNonContracting by decide)]
  rfl
/-- The left operand's column coordinate is the contraction position. -/
theorem lhs384_1 (i : S2048x512.Idx) (q : dot_S2048x384_S384x512_S2048x512_1_0_0_1_n_n.contr.Idx) :
    (dot_S2048x384_S384x512_S2048x512_1_0_0_1_n_n.lhsIdx i q 1).val = (q ⟨0, by decide⟩).val :=
  dot_S2048x384_S384x512_S2048x512_1_0_0_1_n_n.lhsIdx_val_of_single rfl i q
/-- The right operand's row coordinate is the contraction position. -/
theorem rhs384_0 (i : S2048x512.Idx) (q : dot_S2048x384_S384x512_S2048x512_1_0_0_1_n_n.contr.Idx) :
    (dot_S2048x384_S384x512_S2048x512_1_0_0_1_n_n.rhsIdx i q 0).val = (q ⟨0, by decide⟩).val :=
  dot_S2048x384_S384x512_S2048x512_1_0_0_1_n_n.rhsIdx_val_of_single rfl i q
/-- The right operand's column coordinate at an output position is the output's column. -/
theorem rhs384_1 (i : S2048x512.Idx) (q : dot_S2048x384_S384x512_S2048x512_1_0_0_1_n_n.contr.Idx) :
    (dot_S2048x384_S384x512_S2048x512_1_0_0_1_n_n.rhsIdx i q 1).val = (i 1).val := by
  unfold DotDims.rhsIdx
  rw [dif_neg (show ¬(1 : Fin S384x512.rank) ∈ dot_S2048x384_S384x512_S2048x512_1_0_0_1_n_n.rhsBatch by decide), dif_pos (show (1 : Fin S384x512.rank) ∈ dot_S2048x384_S384x512_S2048x512_1_0_0_1_n_n.rhsNonContracting by decide)]
  rfl

/-- A `[2048, 384] x [384, 512]` matrix product into the zero accumulator, read at row `r` and column `h`, is the
    sum over the 384 contraction positions of the products of the row's and the column's entries. -/
theorem matmul384_apply (a : FVec Ideal S2048x384 .bf16) (w : FVec Ideal S384x512 .bf16) (r : Fin 2048) (h : Fin 512) :
    matmul (F := Ideal) dot_S2048x384_S384x512_S2048x512_1_0_0_1_n_n none a w (constant (F := Ideal) S2048x512 .f32 0x00000000#32) (ValueIdx.ix2 r h)
      = ∑ k : Fin 384, a (ValueIdx.ix2 r k) * w (ValueIdx.ix2 k h) := by
  simp only [matmul]
  rw [Ideal.matmul_constant_zero_apply, ← Equiv.sum_comp (ValueIdx.contrEquiv1 dot_S2048x384_S384x512_S2048x512_1_0_0_1_n_n 384 rfl rfl).symm]
  refine Finset.sum_congr rfl fun k _ => ?_
  have hk := ValueIdx.contrEquiv1_symm_val dot_S2048x384_S384x512_S2048x512_1_0_0_1_n_n 384 rfl rfl k
  have el : dot_S2048x384_S384x512_S2048x512_1_0_0_1_n_n.lhsIdx (ValueIdx.ix2 r h) ((ValueIdx.contrEquiv1 dot_S2048x384_S384x512_S2048x512_1_0_0_1_n_n 384 rfl rfl).symm k) = ValueIdx.ix2 r k := funext fun ax => Fin.ext (by
    match ax with
    | ⟨0, _⟩ => exact lhs384_0 _ _
    | ⟨1, _⟩ => exact (lhs384_1 _ _).trans hk)
  have er : dot_S2048x384_S384x512_S2048x512_1_0_0_1_n_n.rhsIdx (ValueIdx.ix2 r h) ((ValueIdx.contrEquiv1 dot_S2048x384_S384x512_S2048x512_1_0_0_1_n_n 384 rfl rfl).symm k) = ValueIdx.ix2 k h := funext fun ax => Fin.ext (by
    match ax with
    | ⟨0, _⟩ => exact (rhs384_0 _ _).trans hk
    | ⟨1, _⟩ => exact rhs384_1 _ _)
  rw [el, er]

/-- The left operand's row coordinate at an output position is the output's row. -/
theorem lhs160_0 (i : S2048x512.Idx) (q : dot_S2048x160_S160x512_S2048x512_1_0_0_1_n_n.contr.Idx) :
    (dot_S2048x160_S160x512_S2048x512_1_0_0_1_n_n.lhsIdx i q 0).val = (i 0).val := by
  unfold DotDims.lhsIdx
  rw [dif_neg (show ¬(0 : Fin S2048x160.rank) ∈ dot_S2048x160_S160x512_S2048x512_1_0_0_1_n_n.lhsBatch by decide), dif_pos (show (0 : Fin S2048x160.rank) ∈ dot_S2048x160_S160x512_S2048x512_1_0_0_1_n_n.lhsNonContracting by decide)]
  rfl
/-- The left operand's column coordinate is the contraction position. -/
theorem lhs160_1 (i : S2048x512.Idx) (q : dot_S2048x160_S160x512_S2048x512_1_0_0_1_n_n.contr.Idx) :
    (dot_S2048x160_S160x512_S2048x512_1_0_0_1_n_n.lhsIdx i q 1).val = (q ⟨0, by decide⟩).val :=
  dot_S2048x160_S160x512_S2048x512_1_0_0_1_n_n.lhsIdx_val_of_single rfl i q
/-- The right operand's row coordinate is the contraction position. -/
theorem rhs160_0 (i : S2048x512.Idx) (q : dot_S2048x160_S160x512_S2048x512_1_0_0_1_n_n.contr.Idx) :
    (dot_S2048x160_S160x512_S2048x512_1_0_0_1_n_n.rhsIdx i q 0).val = (q ⟨0, by decide⟩).val :=
  dot_S2048x160_S160x512_S2048x512_1_0_0_1_n_n.rhsIdx_val_of_single rfl i q
/-- The right operand's column coordinate at an output position is the output's column. -/
theorem rhs160_1 (i : S2048x512.Idx) (q : dot_S2048x160_S160x512_S2048x512_1_0_0_1_n_n.contr.Idx) :
    (dot_S2048x160_S160x512_S2048x512_1_0_0_1_n_n.rhsIdx i q 1).val = (i 1).val := by
  unfold DotDims.rhsIdx
  rw [dif_neg (show ¬(1 : Fin S160x512.rank) ∈ dot_S2048x160_S160x512_S2048x512_1_0_0_1_n_n.rhsBatch by decide), dif_pos (show (1 : Fin S160x512.rank) ∈ dot_S2048x160_S160x512_S2048x512_1_0_0_1_n_n.rhsNonContracting by decide)]
  rfl

/-- A `[2048, 160] x [160, 512]` matrix product into the zero accumulator, read at row `r` and column `h`, is the
    sum over the 160 contraction positions of the products of the row's and the column's entries. -/
theorem matmul160_apply (a : FVec Ideal S2048x160 .bf16) (w : FVec Ideal S160x512 .bf16) (r : Fin 2048) (h : Fin 512) :
    matmul (F := Ideal) dot_S2048x160_S160x512_S2048x512_1_0_0_1_n_n none a w (constant (F := Ideal) S2048x512 .f32 0x00000000#32) (ValueIdx.ix2 r h)
      = ∑ k : Fin 160, a (ValueIdx.ix2 r k) * w (ValueIdx.ix2 k h) := by
  simp only [matmul]
  rw [Ideal.matmul_constant_zero_apply, ← Equiv.sum_comp (ValueIdx.contrEquiv1 dot_S2048x160_S160x512_S2048x512_1_0_0_1_n_n 160 rfl rfl).symm]
  refine Finset.sum_congr rfl fun k _ => ?_
  have hk := ValueIdx.contrEquiv1_symm_val dot_S2048x160_S160x512_S2048x512_1_0_0_1_n_n 160 rfl rfl k
  have el : dot_S2048x160_S160x512_S2048x512_1_0_0_1_n_n.lhsIdx (ValueIdx.ix2 r h) ((ValueIdx.contrEquiv1 dot_S2048x160_S160x512_S2048x512_1_0_0_1_n_n 160 rfl rfl).symm k) = ValueIdx.ix2 r k := funext fun ax => Fin.ext (by
    match ax with
    | ⟨0, _⟩ => exact lhs160_0 _ _
    | ⟨1, _⟩ => exact (lhs160_1 _ _).trans hk)
  have er : dot_S2048x160_S160x512_S2048x512_1_0_0_1_n_n.rhsIdx (ValueIdx.ix2 r h) ((ValueIdx.contrEquiv1 dot_S2048x160_S160x512_S2048x512_1_0_0_1_n_n 160 rfl rfl).symm k) = ValueIdx.ix2 k h := funext fun ax => Fin.ext (by
    match ax with
    | ⟨0, _⟩ => exact (rhs160_0 _ _).trans hk
    | ⟨1, _⟩ => exact rhs160_1 _ _)
  rw [el, er]

/-- A `[a, 1]` column repeated along the row to `[a, b]` reads, at `(p, c)`, the column's entry of row `p`. -/
theorem broadcastTo_a1_ab_apply {α : Type} {a b : ℕ} (v : (⟨2, ![a, 1]⟩ : Shape).Idx → α)
    (hb : (⟨2, ![a, 1]⟩ : Shape).Broadcasts ⟨2, ![a, b]⟩) (p : Fin a) (c : Fin b) :
    broadcastTo ⟨2, ![a, b]⟩ v hb (ValueIdx.ix2 p c) = v (ValueIdx.ix2 p (0 : Fin 1)) := by
  refine broadcastTo_apply v hb (ValueIdx.ix2 p c) (ValueIdx.ix2 p (0 : Fin 1)) fun ax => ?_
  match ax with
  | ⟨0, _⟩ =>
    show p.val = if a = 1 then 0 else p.val
    split
    · have := p.isLt; omega
    · rfl
  | ⟨1, _⟩ => rfl

/-- One rectified, masked layer read at row `r` and column `h`: the product sum plus the bias of column `h`,
    its maximum with zero, times the mask of row `r`. -/
theorem layer384_apply (a : FVec Ideal S2048x384 .bf16) (w : FVec Ideal S384x512 .bf16) (b : FVec Ideal S1x512 .f32)
    (m : FVec Ideal S2048x1 .f32) (r : Fin 2048) (h : Fin 512) :
    mulf (F := Ideal)
        (maximumf
          (addf (matmul (F := Ideal) dot_S2048x384_S384x512_S2048x512_1_0_0_1_n_n none a w (constant (F := Ideal) S2048x512 .f32 0x00000000#32))
            (broadcastTo S2048x512 b broadcasts_S1x512_S2048x512))
          (broadcast S2048x512 (Scalar.ofBits (F := Ideal) .f32 0x00000000#32)))
        (broadcastTo S2048x512 m broadcasts_S2048x1_S2048x512) (ValueIdx.ix2 r h)
      = max ((∑ k : Fin 384, a (ValueIdx.ix2 r k) * w (ValueIdx.ix2 k h)) + b (ValueIdx.ix2 0 h)) 0 * m (ValueIdx.ix2 r 0) := by
  rw [ValueIdx.mulf_apply, ValueIdx.maximumf_apply, ValueIdx.addf_apply, ValueIdx.broadcast_apply, matmul384_apply]
  rw [show broadcastTo S2048x512 b broadcasts_S1x512_S2048x512 (ValueIdx.ix2 r h) = b (ValueIdx.ix2 (0 : Fin 1) h) from
        ValueIdx.broadcastTo_1b_ab_apply b broadcasts_S1x512_S2048x512 r h,
      show broadcastTo S2048x512 m broadcasts_S2048x1_S2048x512 (ValueIdx.ix2 r h) = m (ValueIdx.ix2 r (0 : Fin 1)) from
        broadcastTo_a1_ab_apply m broadcasts_S2048x1_S2048x512 r h]
  rw [show (Scalar.ofBits (F := Ideal) .f32 0x00000000#32 : EReal) = 0 from Ideal.ofBits_zero_f32]

/-- One rectified, masked layer read at row `r` and column `h`: the product sum plus the bias of column `h`,
    its maximum with zero, times the mask of row `r`. -/
theorem layer160_apply (a : FVec Ideal S2048x160 .bf16) (w : FVec Ideal S160x512 .bf16) (b : FVec Ideal S1x512 .f32)
    (m : FVec Ideal S2048x1 .f32) (r : Fin 2048) (h : Fin 512) :
    mulf (F := Ideal)
        (maximumf
          (addf (matmul (F := Ideal) dot_S2048x160_S160x512_S2048x512_1_0_0_1_n_n none a w (constant (F := Ideal) S2048x512 .f32 0x00000000#32))
            (broadcastTo S2048x512 b broadcasts_S1x512_S2048x512))
          (broadcast S2048x512 (Scalar.ofBits (F := Ideal) .f32 0x00000000#32)))
        (broadcastTo S2048x512 m broadcasts_S2048x1_S2048x512) (ValueIdx.ix2 r h)
      = max ((∑ k : Fin 160, a (ValueIdx.ix2 r k) * w (ValueIdx.ix2 k h)) + b (ValueIdx.ix2 0 h)) 0 * m (ValueIdx.ix2 r 0) := by
  rw [ValueIdx.mulf_apply, ValueIdx.maximumf_apply, ValueIdx.addf_apply, ValueIdx.broadcast_apply, matmul160_apply]
  rw [show broadcastTo S2048x512 b broadcasts_S1x512_S2048x512 (ValueIdx.ix2 r h) = b (ValueIdx.ix2 (0 : Fin 1) h) from
        ValueIdx.broadcastTo_1b_ab_apply b broadcasts_S1x512_S2048x512 r h,
      show broadcastTo S2048x512 m broadcasts_S2048x1_S2048x512 (ValueIdx.ix2 r h) = m (ValueIdx.ix2 r (0 : Fin 1)) from
        broadcastTo_a1_ab_apply m broadcasts_S2048x1_S2048x512 r h]
  rw [show (Scalar.ofBits (F := Ideal) .f32 0x00000000#32 : EReal) = 0 from Ideal.ofBits_zero_f32]

/-- The kernel body's stored value read at row `r` and column `h`: the three rectified, masked layers added, the
    first two first. -/
theorem pay_apply (x0 : Vec Ideal S2048x384 .bf16) (x1 x2 : Vec Ideal S2048x160 .bf16) (x3 x4 x5 : Vec Ideal S2048x1 .f32)
    (x6 : Vec Ideal S384x512 .bf16) (x7 : Vec Ideal S1x512 .f32) (x8 : Vec Ideal S160x512 .bf16) (x9 : Vec Ideal S1x512 .f32)
    (x10 : Vec Ideal S160x512 .bf16) (x11 : Vec Ideal S1x512 .f32) (r : Fin 2048) (h : Fin 512) :
    k0_pay1 (F := Ideal) (k0_pay2 x0 x6 x7 x3 x1 x8 x9 x4) (k0_pay3 x2) (k0_pay4 x10) x11 x5 (ValueIdx.ix2 r h)
      = (max ((∑ k : Fin 384, x0 (ValueIdx.ix2 r k) * x6 (ValueIdx.ix2 k h)) + x7 (ValueIdx.ix2 0 h)) 0 * x3 (ValueIdx.ix2 r 0)
          + max ((∑ k : Fin 160, x1 (ValueIdx.ix2 r k) * x8 (ValueIdx.ix2 k h)) + x9 (ValueIdx.ix2 0 h)) 0 * x4 (ValueIdx.ix2 r 0))
        + max ((∑ k : Fin 160, x2 (ValueIdx.ix2 r k) * x10 (ValueIdx.ix2 k h)) + x11 (ValueIdx.ix2 0 h)) 0 * x5 (ValueIdx.ix2 r 0) := by
  unfold k0_pay1 k0_pay2 k0_pay3 k0_pay4
  simp only [shapeCast_self]
  rw [ValueIdx.addf_apply, ValueIdx.addf_apply, layer384_apply, layer160_apply, layer160_apply]

end Cert.KernelIdeal.KValue

end
-- ==== Proof.ValueIdeal.lean ====
/-
  The region's result array as one function of its twelve input arrays, and the program's first result.

  Point t of the 32-point grid reads rows 2048 t .. 2048 t + 2047 of the three feature arrays and of the three mask
  columns, and the whole of the three weight matrices and the three bias rows, and writes rows 2048 t .. 2048 t + 2047 of
  the result: entry (row, h) of the result is the routed sum of the three rectified layers of that row.  The 32
  blocks tile the 65536 rows, so the whole result array is that function; the line after the region splits the row axis
  back into the 256 x 256 tokens.
-/
import proofs.«154332_j41308995453233_1_alg».proof.Proof.BodyIdeal
import proofs.«154332_j41308995453233_1_alg».proof.Proof.Payload
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (m : (ℓ : Loc nD τ sig) → Buf (Elt Ideal) ℓ) (ρ : Dev nD → PrngReg)

theorem off_zero : (![0, 0] : Fin 2 → Nat) = fun _ => 0 := funext fun a => by fin_cases a <;> rfl

/-- Entry (row, h) of the region's result from the twelve input arrays: the three rectified layers of the row, each
    times its mask number, the first two added first. -/
def rowOut (A0 : S65536x384.Idx → EReal) (A1 A2 : S65536x160.Idx → EReal) (A3 A4 A5 : S65536x1.Idx → EReal)
    (A6 : S384x512.Idx → EReal) (A7 : S1x512.Idx → EReal) (A8 : S160x512.Idx → EReal) (A9 : S1x512.Idx → EReal)
    (A10 : S160x512.Idx → EReal) (A11 : S1x512.Idx → EReal) (row : Fin 65536) (h : Fin 512) : EReal :=
  (max ((∑ k : Fin 384, A0 (ix2 row k) * A6 (ix2 k h)) + A7 (ix2 0 h)) 0 * A3 (ix2 row 0)
      + max ((∑ k : Fin 160, A1 (ix2 row k) * A8 (ix2 k h)) + A9 (ix2 0 h)) 0 * A4 (ix2 row 0))
    + max ((∑ k : Fin 160, A2 (ix2 row k) * A10 (ix2 k h)) + A11 (ix2 0 h)) 0 * A5 (ix2 row 0)

/-- The whole result array. -/
def arrOut (A0 : S65536x384.Idx → EReal) (A1 A2 : S65536x160.Idx → EReal) (A3 A4 A5 : S65536x1.Idx → EReal)
    (A6 : S384x512.Idx → EReal) (A7 : S1x512.Idx → EReal) (A8 : S160x512.Idx → EReal) (A9 : S1x512.Idx → EReal)
    (A10 : S160x512.Idx → EReal) (A11 : S1x512.Idx → EReal) : S65536x512.Idx → EReal :=
  fun i => rowOut A0 A1 A2 A3 A4 A5 A6 A7 A8 A9 A10 A11 (i 0) (i 1)

/-- The whole result array at (row, h). -/
theorem arrOut_ix2 (A0 : S65536x384.Idx → EReal) (A1 A2 : S65536x160.Idx → EReal) (A3 A4 A5 : S65536x1.Idx → EReal)
    (A6 : S384x512.Idx → EReal) (A7 : S1x512.Idx → EReal) (A8 : S160x512.Idx → EReal) (A9 : S1x512.Idx → EReal)
    (A10 : S160x512.Idx → EReal) (A11 : S1x512.Idx → EReal) (row : Fin 65536) (h : Fin 512) :
    arrOut A0 A1 A2 A3 A4 A5 A6 A7 A8 A9 A10 A11 (ix2 row h) = rowOut A0 A1 A2 A3 A4 A5 A6 A7 A8 A9 A10 A11 row h := rfl

/-- The grid has 32 points. -/
theorem point_lt (t : Fin cfg0.N) : t.val < 32 :=
  lt_of_lt_of_eq t.isLt (N_0 : cfg0.N = 32)

/-- The block index of each window at each point, decided over the grid: the row-blocked windows (the three feature
    arrays, the three mask columns, the result) are at block (t, 0), the resident ones (weights, biases) at (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = t.val ∧ win0_12.index t (1 : Fin 2) = 0) :=
  (by decide +kernel : ∀ t : Fin grid0.N, _)

/-- Row r of block t is row 2048 t + r of the array. -/
def rowOf (t : Fin cfg0.N) (r : Fin 2048) : Fin 65536 := ⟨t.val * 2048 + r.val, by have := point_lt t; have := r.isLt; omega⟩

/-- Window 0's block at point t, entry by entry, is the array at rows 2048 t onwards. -/
theorem blk0_apply (c : Dev nD) (t : Fin cfg0.N) (r : Fin 2048) (k : Fin 384) :
    iblk m c 0 t (ix2 r k) = (V m c main_v67 : S65536x384.Idx → EReal) (ix2 (rowOf t r) k) := by
  show (V m c main_v67 : S65536x384.Idx → EReal) (((cfg0.win 0).blk t).view.emb (ix2 r k)) = _
  refine congrArg (V m c main_v67 : S65536x384.Idx → EReal) (funext fun a => Fin.ext ?_)
  obtain ⟨e0, e1⟩ := (idx_facts t).1
  match a with
  | ⟨0, _⟩ => show win0_0.index t (0 : Fin 2) * 2048 + 1 * r.val = t.val * 2048 + r.val; rw [e0]; omega
  | ⟨1, _⟩ => show win0_0.index t (1 : Fin 2) * 384 + 1 * k.val = k.val; rw [e1]; omega

/-- Window 1's block at point t, entry by entry, is the array at rows 2048 t onwards. -/
theorem blk1_apply (c : Dev nD) (t : Fin cfg0.N) (r : Fin 2048) (k : Fin 160) :
    iblk m c 1 t (ix2 r k) = (V m c main_v69 : S65536x160.Idx → EReal) (ix2 (rowOf t r) k) := by
  show (V m c main_v69 : S65536x160.Idx → EReal) (((cfg0.win 1).blk t).view.emb (ix2 r k)) = _
  refine congrArg (V m c main_v69 : S65536x160.Idx → EReal) (funext fun a => Fin.ext ?_)
  obtain ⟨e0, e1⟩ := (idx_facts t).2.1
  match a with
  | ⟨0, _⟩ => show win0_1.index t (0 : Fin 2) * 2048 + 1 * r.val = t.val * 2048 + r.val; rw [e0]; omega
  | ⟨1, _⟩ => show win0_1.index t (1 : Fin 2) * 160 + 1 * k.val = k.val; rw [e1]; omega

/-- Window 2's block at point t, entry by entry, is the array at rows 2048 t onwards. -/
theorem blk2_apply (c : Dev nD) (t : Fin cfg0.N) (r : Fin 2048) (k : Fin 160) :
    iblk m c 2 t (ix2 r k) = (V m c main_v71 : S65536x160.Idx → EReal) (ix2 (rowOf t r) k) := by
  show (V m c main_v71 : S65536x160.Idx → EReal) (((cfg0.win 2).blk t).view.emb (ix2 r k)) = _
  refine congrArg (V m c main_v71 : S65536x160.Idx → EReal) (funext fun a => Fin.ext ?_)
  obtain ⟨e0, e1⟩ := (idx_facts t).2.2.1
  match a with
  | ⟨0, _⟩ => show win0_2.index t (0 : Fin 2) * 2048 + 1 * r.val = t.val * 2048 + r.val; rw [e0]; omega
  | ⟨1, _⟩ => show win0_2.index t (1 : Fin 2) * 160 + 1 * k.val = k.val; rw [e1]; omega

/-- Window 3's block at point t, entry by entry, is the array at rows 2048 t onwards. -/
theorem blk3_apply (c : Dev nD) (t : Fin cfg0.N) (r : Fin 2048) (u : Fin 1) :
    iblk m c 3 t (ix2 r u) = (V m c main_v72 : S65536x1.Idx → EReal) (ix2 (rowOf t r) u) := by
  show (V m c main_v72 : S65536x1.Idx → EReal) (((cfg0.win 3).blk t).view.emb (ix2 r u)) = _
  refine congrArg (V m c main_v72 : S65536x1.Idx → EReal) (funext fun a => Fin.ext ?_)
  obtain ⟨e0, e1⟩ := (idx_facts t).2.2.2.1
  match a with
  | ⟨0, _⟩ => show win0_3.index t (0 : Fin 2) * 2048 + 1 * r.val = t.val * 2048 + r.val; rw [e0]; omega
  | ⟨1, _⟩ => show win0_3.index t (1 : Fin 2) * 1 + 1 * u.val = u.val; rw [e1]; omega

/-- Window 4's block at point t, entry by entry, is the array at rows 2048 t onwards. -/
theorem blk4_apply (c : Dev nD) (t : Fin cfg0.N) (r : Fin 2048) (u : Fin 1) :
    iblk m c 4 t (ix2 r u) = (V m c main_v73 : S65536x1.Idx → EReal) (ix2 (rowOf t r) u) := by
  show (V m c main_v73 : S65536x1.Idx → EReal) (((cfg0.win 4).blk t).view.emb (ix2 r u)) = _
  refine congrArg (V m c main_v73 : S65536x1.Idx → EReal) (funext fun a => Fin.ext ?_)
  obtain ⟨e0, e1⟩ := (idx_facts t).2.2.2.2.1
  match a with
  | ⟨0, _⟩ => show win0_4.index t (0 : Fin 2) * 2048 + 1 * r.val = t.val * 2048 + r.val; rw [e0]; omega
  | ⟨1, _⟩ => show win0_4.index t (1 : Fin 2) * 1 + 1 * u.val = u.val; rw [e1]; omega

/-- Window 5's block at point t, entry by entry, is the array at rows 2048 t onwards. -/
theorem blk5_apply (c : Dev nD) (t : Fin cfg0.N) (r : Fin 2048) (u : Fin 1) :
    iblk m c 5 t (ix2 r u) = (V m c main_v74 : S65536x1.Idx → EReal) (ix2 (rowOf t r) u) := by
  show (V m c main_v74 : S65536x1.Idx → EReal) (((cfg0.win 5).blk t).view.emb (ix2 r u)) = _
  refine congrArg (V m c main_v74 : S65536x1.Idx → EReal) (funext fun a => Fin.ext ?_)
  obtain ⟨e0, e1⟩ := (idx_facts t).2.2.2.2.2.1
  match a with
  | ⟨0, _⟩ => show win0_5.index t (0 : Fin 2) * 2048 + 1 * r.val = t.val * 2048 + r.val; rw [e0]; omega
  | ⟨1, _⟩ => show win0_5.index t (1 : Fin 2) * 1 + 1 * u.val = u.val; rw [e1]; omega

/-- Window 6's block at point t, entry by entry, is the array itself (the block is the whole array). -/
theorem blk6_apply (c : Dev nD) (t : Fin cfg0.N) (k : Fin 384) (h : Fin 512) :
    iblk m c 6 t (ix2 k h) = (V m c main_v76 : S384x512.Idx → EReal) (ix2 k h) := by
  show (V m c main_v76 : S384x512.Idx → EReal) (((cfg0.win 6).blk t).view.emb (ix2 k h)) = _
  refine congrArg (V m c main_v76 : S384x512.Idx → EReal) (funext fun a => Fin.ext ?_)
  obtain ⟨e0, e1⟩ := (idx_facts t).2.2.2.2.2.2.1
  match a with
  | ⟨0, _⟩ => show win0_6.index t (0 : Fin 2) * 384 + 1 * k.val = k.val; rw [e0]; omega
  | ⟨1, _⟩ => show win0_6.index t (1 : Fin 2) * 512 + 1 * h.val = h.val; rw [e1]; omega

/-- Window 7's block at point t, entry by entry, is the array itself (the block is the whole array). -/
theorem blk7_apply (c : Dev nD) (t : Fin cfg0.N) (u : Fin 1) (h : Fin 512) :
    iblk m c 7 t (ix2 u h) = (V m c main_v81 : S1x512.Idx → EReal) (ix2 u h) := by
  show (V m c main_v81 : S1x512.Idx → EReal) (((cfg0.win 7).blk t).view.emb (ix2 u h)) = _
  refine congrArg (V m c main_v81 : S1x512.Idx → EReal) (funext fun a => Fin.ext ?_)
  obtain ⟨e0, e1⟩ := (idx_facts t).2.2.2.2.2.2.2.1
  match a with
  | ⟨0, _⟩ => show win0_7.index t (0 : Fin 2) * 1 + 1 * u.val = u.val; rw [e0]; omega
  | ⟨1, _⟩ => show win0_7.index t (1 : Fin 2) * 512 + 1 * h.val = h.val; rw [e1]; omega

/-- Window 8's block at point t, entry by entry, is the array itself (the block is the whole array). -/
theorem blk8_apply (c : Dev nD) (t : Fin cfg0.N) (k : Fin 160) (h : Fin 512) :
    iblk m c 8 t (ix2 k h) = (V m c main_v78 : S160x512.Idx → EReal) (ix2 k h) := by
  show (V m c main_v78 : S160x512.Idx → EReal) (((cfg0.win 8).blk t).view.emb (ix2 k h)) = _
  refine congrArg (V m c main_v78 : S160x512.Idx → EReal) (funext fun a => Fin.ext ?_)
  obtain ⟨e0, e1⟩ := (idx_facts t).2.2.2.2.2.2.2.2.1
  match a with
  | ⟨0, _⟩ => show win0_8.index t (0 : Fin 2) * 160 + 1 * k.val = k.val; rw [e0]; omega
  | ⟨1, _⟩ => show win0_8.index t (1 : Fin 2) * 512 + 1 * h.val = h.val; rw [e1]; omega

/-- Window 9's block at point t, entry by entry, is the array itself (the block is the whole array). -/
theorem blk9_apply (c : Dev nD) (t : Fin cfg0.N) (u : Fin 1) (h : Fin 512) :
    iblk m c 9 t (ix2 u h) = (V m c main_v82 : S1x512.Idx → EReal) (ix2 u h) := by
  show (V m c main_v82 : S1x512.Idx → EReal) (((cfg0.win 9).blk t).view.emb (ix2 u h)) = _
  refine congrArg (V m c main_v82 : S1x512.Idx → EReal) (funext fun a => Fin.ext ?_)
  obtain ⟨e0, e1⟩ := (idx_facts t).2.2.2.2.2.2.2.2.2.1
  match a with
  | ⟨0, _⟩ => show win0_9.index t (0 : Fin 2) * 1 + 1 * u.val = u.val; rw [e0]; omega
  | ⟨1, _⟩ => show win0_9.index t (1 : Fin 2) * 512 + 1 * h.val = h.val; rw [e1]; omega

/-- Window 10's block at point t, entry by entry, is the array itself (the block is the whole array). -/
theorem blk10_apply (c : Dev nD) (t : Fin cfg0.N) (k : Fin 160) (h : Fin 512) :
    iblk m c 10 t (ix2 k h) = (V m c main_v80 : S160x512.Idx → EReal) (ix2 k h) := by
  show (V m c main_v80 : S160x512.Idx → EReal) (((cfg0.win 10).blk t).view.emb (ix2 k h)) = _
  refine congrArg (V m c main_v80 : S160x512.Idx → EReal) (funext fun a => Fin.ext ?_)
  obtain ⟨e0, e1⟩ := (idx_facts t).2.2.2.2.2.2.2.2.2.2.1
  match a with
  | ⟨0, _⟩ => show win0_10.index t (0 : Fin 2) * 160 + 1 * k.val = k.val; rw [e0]; omega
  | ⟨1, _⟩ => show win0_10.index t (1 : Fin 2) * 512 + 1 * h.val = h.val; rw [e1]; omega

/-- Window 11's block at point t, entry by entry, is the array itself (the block is the whole array). -/
theorem blk11_apply (c : Dev nD) (t : Fin cfg0.N) (u : Fin 1) (h : Fin 512) :
    iblk m c 11 t (ix2 u h) = (V m c main_v83 : S1x512.Idx → EReal) (ix2 u h) := by
  show (V m c main_v83 : S1x512.Idx → EReal) (((cfg0.win 11).blk t).view.emb (ix2 u h)) = _
  refine congrArg (V m c main_v83 : S1x512.Idx → EReal) (funext fun a => Fin.ext ?_)
  obtain ⟨e0, e1⟩ := (idx_facts t).2.2.2.2.2.2.2.2.2.2.2.1
  match a with
  | ⟨0, _⟩ => show win0_11.index t (0 : Fin 2) * 1 + 1 * u.val = u.val; rw [e0]; omega
  | ⟨1, _⟩ => show win0_11.index t (1 : Fin 2) * 512 + 1 * h.val = h.val; rw [e1]; omega

/-- The index of the array that entry (r, h) of the result's block t is. -/
theorem emb_out (t : Fin cfg0.N) (r : Fin 2048) (h : Fin 512) :
    ((cfg0.win 12).blk t).view.emb (ix2 r h) = (ix2 (rowOf t r) h : S65536x512.Idx) := by
  funext a; apply Fin.ext
  obtain ⟨e0, e1⟩ := (idx_facts t).2.2.2.2.2.2.2.2.2.2.2.2
  match a with
  | ⟨0, _⟩ => show win0_12.index t (0 : Fin 2) * 2048 + 1 * r.val = t.val * 2048 + r.val; rw [e0]; omega
  | ⟨1, _⟩ => show win0_12.index t (1 : Fin 2) * 512 + 1 * h.val = h.val; rw [e1]; omega

/-- What point t writes back is block t of the result function of the input arrays as the region finds them. -/
theorem flushed_out (c : Dev nD) (t : Fin cfg0.N) :
    (dats m 0 c).flushed 12 t = ((cfg0.win 12).blk t).view.read (Elt Ideal)
      (arrOut (V m c main_v67) (V m c main_v69) (V m c main_v71) (V m c main_v72) (V m c main_v73) (V m c main_v74) (V m c main_v76) (V m c main_v81) (V m c main_v78) (V m c main_v82) (V m c main_v80) (V m c main_v83)) := by
  show (cfg0.win 12).cut (grid0.coords t) ((dats m 0 c).after 12 t) = _
  rw [after0_12]
  unfold out0_12
  rw [View.canon_unit_zero off_zero]
  simp only [View.ld_unit_zero (S := S2048x384) off_zero, View.ld_unit_zero (S := S384x512) off_zero, View.ld_unit_zero (S := S1x512) off_zero,
    View.ld_unit_zero (S := S2048x1) off_zero, View.ld_unit_zero (S := S2048x160) off_zero, View.ld_unit_zero (S := S160x512) off_zero]
  funext y
  obtain ⟨r, h, rfl⟩ : ∃ (r : Fin 2048) (h : Fin 512), y = ix2 r h := ⟨y 0, y 1, eq_ix2 y⟩
  refine (Cert.KernelIdeal.KValue.pay_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) r h).trans ?_
  simp only [blk0_apply m c t, blk1_apply m c t, blk2_apply m c t, blk3_apply m c t, blk4_apply m c t, blk5_apply m c t, blk6_apply m c t, blk7_apply m c t, blk8_apply m c t, blk9_apply m c t, blk10_apply m c t, blk11_apply m c t]
  rw [View.read_apply, emb_out t r h, arrOut_ix2]
  rfl

/-- An index of the result array is in point t's block iff each coordinate is in the block's range. -/
theorem mem_blk_out (t : Fin cfg0.N) (i : S65536x512.Idx) :
    i ∈ ((cfg0.win 12).blk t).view.set ↔ ∀ a : Fin 2, win0_12.index t a * S2048x512.size a ≤ (i a).val ∧ (i a).val < win0_12.index t a * S2048x512.size a + S2048x512.size a := by
  show i ∈ ((View.whole main_v84).slice (win0_12.rect t)).set ↔ _
  rw [View.set_slice_whole, Rect.mem_set_unit]
  exact Iff.rfl

/-- The 32 blocks tile the 65536 rows: every index is in the block of the point its row falls in. -/
theorem cover_out (i : S65536x512.Idx) :
    ∃ t : Fin cfg0.N, (cfg0.win 12).flush t = true ∧ i ∈ ((cfg0.win 12).blk t).view.set := by
  have hi0 : (i 0).val < 65536 := (i 0).isLt
  have hi1 : (i 1).val < 512 := (i 1).isLt
  let t : Fin cfg0.N := ⟨(i 0).val / 2048, by rw [show cfg0.N = 32 from N_0]; omega⟩
  have ht : t.val = (i 0).val / 2048 := rfl
  obtain ⟨e0, e1⟩ := (idx_facts t).2.2.2.2.2.2.2.2.2.2.2.2
  refine ⟨t, flush0_12 t, ?_⟩
  rw [mem_blk_out]
  intro a
  match a with
  | ⟨0, _⟩ => show win0_12.index t (0 : Fin 2) * 2048 ≤ (i 0).val ∧ (i 0).val < win0_12.index t (0 : Fin 2) * 2048 + 2048; rw [e0, ht]; omega
  | ⟨1, _⟩ => show win0_12.index t (1 : Fin 2) * 512 ≤ (i 1).val ∧ (i 1).val < win0_12.index t (1 : Fin 2) * 512 + 512; rw [e1]; omega

/-- The result array after the region. -/
theorem final_out (c : Dev nD) :
    (dats m 0 c).arrAt 12 cfg0.N = arrOut (V m c main_v67) (V m c main_v69) (V m c main_v71) (V m c main_v72) (V m c main_v73) (V m c main_v74) (V m c main_v76) (V m c main_v81) (V m c main_v78) (V m c main_v82) (V m c main_v80) (V m c main_v83) :=
  (dats m 0 c).arrAt_eq_of_cover 12 _ (fun t _ => flushed_out m c t) cover_out

end Cert.KernelIdeal.Hand

end
-- ==== Proof.PrefixIdeal.lean ====
/-
  What the region's twelve input arrays hold, entry by entry.

  The host stretch before the region is cut in two: an early part that gathers and concatenates the three feature
  tensors [256, 256, K], and a late part that computes the three one-bit token masks from the event types, merges the two
  leading axes of the feature tensors and of the masks read as numbers (token (p, q) becomes row p * 256 + q), changes
  the float format of the features and weights (the identity on the extended reals), transposes the three weight
  matrices and lays the three biases out as rows.
-/
import proofs.«154332_j41308995453233_1_alg».proof.Proof.Gen.KernelIdeal.Launch
import Idealize.ShloMosaic.Lib.StableHlo.Run
import Idealize.ShloMosaic.Lib.ValueIdx
import Idealize.ShloMosaic.Lib.ValueLayout
import Idealize.ShloMosaic.Lib.Pipeline.Value
import Idealize.ShloMosaic.Lib.Pipeline.Frame
import Idealize.ShloMosaic.PureOps.Ideal

set_option maxRecDepth 16384

noncomputable section

namespace Cert.KernelIdeal.Pre

open Cert.KernelIdeal Cert.KernelIdeal.Gen
open Idealize.ShloMosaic Idealize.ShloMosaic.TcCoe Idealize.SL.Sem Idealize.ShloMosaic.StableHlo Idealize.ShloMosaic.ValueIdx

/-- The contents of buffer `b` after the host stretch before the region, from contents `μ`. -/
abbrev H (μ : Valuation τ sig (Elt Ideal)) (b : Ref sig .tc) : b.ty.Contents (Elt Ideal) :=
  StableHlo.after (hostOps0 (F := Ideal)) μ (Proc.devRef .tc b)

section Split

variable {F : FTy → Type} [FloatOps F]

set_option maxHeartbeats 4000000 in
/-- The early part of the host stretch: the gathers, the mean of the gathered word rows, the three concatenations. -/
def hostHeadF : List (HloOp τ sig (Elt F)) :=
  [ StableHlo.nullary main_c (constantI S_ 32 0#32),
    StableHlo.unary main_c main_v0 (broadcastInDim S256x256 ![] bcast_S_S256x256 : (⟨S_, .i32⟩ : BufTy).Contents (Elt F) → (⟨S256x256, .i32⟩ : BufTy).Contents (Elt F)),
    StableHlo.binary main_arg12 main_v0 main_v1 (cmpi .eq : (⟨S256x256, .i32⟩ : BufTy).Contents (Elt F) → (⟨S256x256, .i32⟩ : BufTy).Contents (Elt F) → (⟨S256x256, .i1⟩ : BufTy).Contents (Elt F)),
    StableHlo.unary main_v1 main_v2 (uitofp .f32 : (⟨S256x256, .i1⟩ : BufTy).Contents (Elt F) → (⟨S256x256, .f32⟩ : BufTy).Contents (Elt F)),
    StableHlo.nullary main_c_0 (constantI S_ 32 0#32),
    StableHlo.unary main_c_0 main_v3 (broadcastInDim S256x256 ![] bcast_S_S256x256 : (⟨S_, .i32⟩ : BufTy).Contents (Elt F) → (⟨S256x256, .i32⟩ : BufTy).Contents (Elt F)),
    StableHlo.binary main_arg12 main_v3 main_v4 (cmpi .slt : (⟨S256x256, .i32⟩ : BufTy).Contents (Elt F) → (⟨S256x256, .i32⟩ : BufTy).Contents (Elt F) → (⟨S256x256, .i1⟩ : BufTy).Contents (Elt F)),
    StableHlo.nullary main_c_1 (constantI S_ 32 6#32),
    StableHlo.unary main_c_1 main_v5 (broadcastInDim S256x256 ![] bcast_S_S256x256 : (⟨S_, .i32⟩ : BufTy).Contents (Elt F) → (⟨S256x256, .i32⟩ : BufTy).Contents (Elt F)),
    StableHlo.binary main_arg12 main_v5 main_v6 (addi : (⟨S256x256, .i32⟩ : BufTy).Contents (Elt F) → (⟨S256x256, .i32⟩ : BufTy).Contents (Elt F) → (⟨S256x256, .i32⟩ : BufTy).Contents (Elt F)),
    StableHlo.ternary main_v4 main_v6 main_arg12 main_v7 (select : (⟨S256x256, .i1⟩ : BufTy).Contents (Elt F) → (⟨S256x256, .i32⟩ : BufTy).Contents (Elt F) → (⟨S256x256, .i32⟩ : BufTy).Contents (Elt F) → (⟨S256x256, .i32⟩ : BufTy).Contents (Elt F)),
    StableHlo.unary main_v7 main_v8 (broadcastInDim S256x256x1 ![0, 1] bcast_S256x256_S256x256x1_0_1 : (⟨S256x256, .i32⟩ : BufTy).Contents (Elt F) → (⟨S256x256x1, .i32⟩ : BufTy).Contents (Elt F)),
    StableHlo.binary main_arg0 main_v8 main_v9 ((fun x i => Host.gather gather_S6x32_S256x256x1_S256x256x32_2_0_n_n_0_2_132 x i) : (⟨S6x32, .f32⟩ : BufTy).Contents (Elt F) → (⟨S256x256x1, .i32⟩ : BufTy).Contents (Elt F) → (⟨S256x256x32, .f32⟩ : BufTy).Contents (Elt F)),
    StableHlo.nullary main_c_2 (constantI S_ 32 0#32),
    StableHlo.unary main_c_2 main_v10 (broadcastInDim S256x256x12 ![] bcast_S_S256x256x12 : (⟨S_, .i32⟩ : BufTy).Contents (Elt F) → (⟨S256x256x12, .i32⟩ : BufTy).Contents (Elt F)),
    StableHlo.binary main_arg17 main_v10 main_v11 (cmpi .slt : (⟨S256x256x12, .i32⟩ : BufTy).Contents (Elt F) → (⟨S256x256x12, .i32⟩ : BufTy).Contents (Elt F) → (⟨S256x256x12, .i1⟩ : BufTy).Contents (Elt F)),
    StableHlo.nullary main_c_3 (constantI S_ 32 100000#32),
    StableHlo.unary main_c_3 main_v12 (broadcastInDim S256x256x12 ![] bcast_S_S256x256x12 : (⟨S_, .i32⟩ : BufTy).Contents (Elt F) → (⟨S256x256x12, .i32⟩ : BufTy).Contents (Elt F)),
    StableHlo.binary main_arg17 main_v12 main_v13 (addi : (⟨S256x256x12, .i32⟩ : BufTy).Contents (Elt F) → (⟨S256x256x12, .i32⟩ : BufTy).Contents (Elt F) → (⟨S256x256x12, .i32⟩ : BufTy).Contents (Elt F)),
    StableHlo.ternary main_v11 main_v13 main_arg17 main_v14 (select : (⟨S256x256x12, .i1⟩ : BufTy).Contents (Elt F) → (⟨S256x256x12, .i32⟩ : BufTy).Contents (Elt F) → (⟨S256x256x12, .i32⟩ : BufTy).Contents (Elt F) → (⟨S256x256x12, .i32⟩ : BufTy).Contents (Elt F)),
    StableHlo.unary main_v14 main_v15 (broadcastInDim S256x256x12x1 ![0, 1, 2] bcast_S256x256x12_S256x256x12x1_0_1_2 : (⟨S256x256x12, .i32⟩ : BufTy).Contents (Elt F) → (⟨S256x256x12x1, .i32⟩ : BufTy).Contents (Elt F)),
    StableHlo.binary main_arg1 main_v15 main_v16 ((fun x i => Host.gather gather_S100000x128_S256x256x12x1_S256x256x12x128_3_0_n_n_0_3_1128 x i) : (⟨S100000x128, .f32⟩ : BufTy).Contents (Elt F) → (⟨S256x256x12x1, .i32⟩ : BufTy).Contents (Elt F) → (⟨S256x256x12x128, .f32⟩ : BufTy).Contents (Elt F)),
    StableHlo.nullary main_cst (constant S_ .f32 0x00000000#32),
    StableHlo.binary main_v16 main_cst main_v17 ((fun x v => Host.reduceAdd x v reducesTo_S256x256x12x128_S256x256x128_d2 h_S_) : (⟨S256x256x12x128, .f32⟩ : BufTy).Contents (Elt F) → (⟨S_, .f32⟩ : BufTy).Contents (Elt F) → (⟨S256x256x128, .f32⟩ : BufTy).Contents (Elt F)),
    StableHlo.nullary main_cst_4 (constant S_ .f32 0x41400000#32),
    StableHlo.unary main_cst_4 main_v18 (broadcastInDim S256x256x128 ![] bcast_S_S256x256x128 : (⟨S_, .f32⟩ : BufTy).Contents (Elt F) → (⟨S256x256x128, .f32⟩ : BufTy).Contents (Elt F)),
    StableHlo.binary main_v17 main_v18 main_v19 (Host.divf : (⟨S256x256x128, .f32⟩ : BufTy).Contents (Elt F) → (⟨S256x256x128, .f32⟩ : BufTy).Contents (Elt F) → (⟨S256x256x128, .f32⟩ : BufTy).Contents (Elt F)),
    StableHlo.nullary main_c_5 (constantI S_ 32 0#32),
    StableHlo.unary main_c_5 main_v20 (broadcastInDim S256x256 ![] bcast_S_S256x256 : (⟨S_, .i32⟩ : BufTy).Contents (Elt F) → (⟨S256x256, .i32⟩ : BufTy).Contents (Elt F)),
    StableHlo.binary main_arg13 main_v20 main_v21 (cmpi .slt : (⟨S256x256, .i32⟩ : BufTy).Contents (Elt F) → (⟨S256x256, .i32⟩ : BufTy).Contents (Elt F) → (⟨S256x256, .i1⟩ : BufTy).Contents (Elt F)),
    StableHlo.nullary main_c_6 (constantI S_ 32 500000#32),
    StableHlo.unary main_c_6 main_v22 (broadcastInDim S256x256 ![] bcast_S_S256x256 : (⟨S_, .i32⟩ : BufTy).Contents (Elt F) → (⟨S256x256, .i32⟩ : BufTy).Contents (Elt F)),
    StableHlo.binary main_arg13 main_v22 main_v23 (addi : (⟨S256x256, .i32⟩ : BufTy).Contents (Elt F) → (⟨S256x256, .i32⟩ : BufTy).Contents (Elt F) → (⟨S256x256, .i32⟩ : BufTy).Contents (Elt F)),
    StableHlo.ternary main_v21 main_v23 main_arg13 main_v24 (select : (⟨S256x256, .i1⟩ : BufTy).Contents (Elt F) → (⟨S256x256, .i32⟩ : BufTy).Contents (Elt F) → (⟨S256x256, .i32⟩ : BufTy).Contents (Elt F) → (⟨S256x256, .i32⟩ : BufTy).Contents (Elt F)),
    StableHlo.unary main_v24 main_v25 (broadcastInDim S256x256x1 ![0, 1] bcast_S256x256_S256x256x1_0_1 : (⟨S256x256, .i32⟩ : BufTy).Contents (Elt F) → (⟨S256x256x1, .i32⟩ : BufTy).Contents (Elt F)),
    StableHlo.binary main_arg2 main_v25 main_v26 ((fun x i => Host.gather gather_S500000x128_S256x256x1_S256x256x128_2_0_n_n_0_2_1128 x i) : (⟨S500000x128, .f32⟩ : BufTy).Contents (Elt F) → (⟨S256x256x1, .i32⟩ : BufTy).Contents (Elt F) → (⟨S256x256x128, .f32⟩ : BufTy).Contents (Elt F)),
    StableHlo.nullary main_c_7 (constantI S_ 32 0#32),
    StableHlo.unary main_c_7 main_v27 (broadcastInDim S256x256 ![] bcast_S_S256x256 : (⟨S_, .i32⟩ : BufTy).Contents (Elt F) → (⟨S256x256, .i32⟩ : BufTy).Contents (Elt F)),
    StableHlo.binary main_arg15 main_v27 main_v28 (cmpi .slt : (⟨S256x256, .i32⟩ : BufTy).Contents (Elt F) → (⟨S256x256, .i32⟩ : BufTy).Contents (Elt F) → (⟨S256x256, .i1⟩ : BufTy).Contents (Elt F)),
    StableHlo.nullary main_c_8 (constantI S_ 32 10000#32),
    StableHlo.unary main_c_8 main_v29 (broadcastInDim S256x256 ![] bcast_S_S256x256 : (⟨S_, .i32⟩ : BufTy).Contents (Elt F) → (⟨S256x256, .i32⟩ : BufTy).Contents (Elt F)),
    StableHlo.binary main_arg15 main_v29 main_v30 (addi : (⟨S256x256, .i32⟩ : BufTy).Contents (Elt F) → (⟨S256x256, .i32⟩ : BufTy).Contents (Elt F) → (⟨S256x256, .i32⟩ : BufTy).Contents (Elt F)),
    StableHlo.ternary main_v28 main_v30 main_arg15 main_v31 (select : (⟨S256x256, .i1⟩ : BufTy).Contents (Elt F) → (⟨S256x256, .i32⟩ : BufTy).Contents (Elt F) → (⟨S256x256, .i32⟩ : BufTy).Contents (Elt F) → (⟨S256x256, .i32⟩ : BufTy).Contents (Elt F)),
    StableHlo.unary main_v31 main_v32 (broadcastInDim S256x256x1 ![0, 1] bcast_S256x256_S256x256x1_0_1 : (⟨S256x256, .i32⟩ : BufTy).Contents (Elt F) → (⟨S256x256x1, .i32⟩ : BufTy).Contents (Elt F)),
    StableHlo.binary main_arg3 main_v32 main_v33 ((fun x i => Host.gather gather_S10000x64_S256x256x1_S256x256x64_2_0_n_n_0_2_164 x i) : (⟨S10000x64, .f32⟩ : BufTy).Contents (Elt F) → (⟨S256x256x1, .i32⟩ : BufTy).Contents (Elt F) → (⟨S256x256x64, .f32⟩ : BufTy).Contents (Elt F)),
    StableHlo.nullary main_c_9 (constantI S_ 32 0#32),
    StableHlo.unary main_c_9 main_v34 (broadcastInDim S256x256 ![] bcast_S_S256x256 : (⟨S_, .i32⟩ : BufTy).Contents (Elt F) → (⟨S256x256, .i32⟩ : BufTy).Contents (Elt F)),
    StableHlo.binary main_arg16 main_v34 main_v35 (cmpi .slt : (⟨S256x256, .i32⟩ : BufTy).Contents (Elt F) → (⟨S256x256, .i32⟩ : BufTy).Contents (Elt F) → (⟨S256x256, .i1⟩ : BufTy).Contents (Elt F)),
    StableHlo.nullary main_c_10 (constantI S_ 32 100#32),
    StableHlo.unary main_c_10 main_v36 (broadcastInDim S256x256 ![] bcast_S_S256x256 : (⟨S_, .i32⟩ : BufTy).Contents (Elt F) → (⟨S256x256, .i32⟩ : BufTy).Contents (Elt F)),
    StableHlo.binary main_arg16 main_v36 main_v37 (addi : (⟨S256x256, .i32⟩ : BufTy).Contents (Elt F) → (⟨S256x256, .i32⟩ : BufTy).Contents (Elt F) → (⟨S256x256, .i32⟩ : BufTy).Contents (Elt F)),
    StableHlo.ternary main_v35 main_v37 main_arg16 main_v38 (select : (⟨S256x256, .i1⟩ : BufTy).Contents (Elt F) → (⟨S256x256, .i32⟩ : BufTy).Contents (Elt F) → (⟨S256x256, .i32⟩ : BufTy).Contents (Elt F) → (⟨S256x256, .i32⟩ : BufTy).Contents (Elt F)),
    StableHlo.unary main_v38 main_v39 (broadcastInDim S256x256x1 ![0, 1] bcast_S256x256_S256x256x1_0_1 : (⟨S256x256, .i32⟩ : BufTy).Contents (Elt F) → (⟨S256x256x1, .i32⟩ : BufTy).Contents (Elt F)),
    StableHlo.binary main_arg4 main_v39 main_v40 ((fun x i => Host.gather gather_S100x32_S256x256x1_S256x256x32_2_0_n_n_0_2_132 x i) : (⟨S100x32, .f32⟩ : BufTy).Contents (Elt F) → (⟨S256x256x1, .i32⟩ : BufTy).Contents (Elt F) → (⟨S256x256x32, .f32⟩ : BufTy).Contents (Elt F)),
    StableHlo.nullary main_c_11 (constantI S_ 32 0#32),
    StableHlo.unary main_c_11 main_v41 (broadcastInDim S256x256 ![] bcast_S_S256x256 : (⟨S_, .i32⟩ : BufTy).Contents (Elt F) → (⟨S256x256, .i32⟩ : BufTy).Contents (Elt F)),
    StableHlo.binary main_arg14 main_v41 main_v42 (cmpi .slt : (⟨S256x256, .i32⟩ : BufTy).Contents (Elt F) → (⟨S256x256, .i32⟩ : BufTy).Contents (Elt F) → (⟨S256x256, .i1⟩ : BufTy).Contents (Elt F)),
    StableHlo.nullary main_c_12 (constantI S_ 32 200000#32),
    StableHlo.unary main_c_12 main_v43 (broadcastInDim S256x256 ![] bcast_S_S256x256 : (⟨S_, .i32⟩ : BufTy).Contents (Elt F) → (⟨S256x256, .i32⟩ : BufTy).Contents (Elt F)),
    StableHlo.binary main_arg14 main_v43 main_v44 (addi : (⟨S256x256, .i32⟩ : BufTy).Contents (Elt F) → (⟨S256x256, .i32⟩ : BufTy).Contents (Elt F) → (⟨S256x256, .i32⟩ : BufTy).Contents (Elt F)),
    StableHlo.ternary main_v42 main_v44 main_arg14 main_v45 (select : (⟨S256x256, .i1⟩ : BufTy).Contents (Elt F) → (⟨S256x256, .i32⟩ : BufTy).Contents (Elt F) → (⟨S256x256, .i32⟩ : BufTy).Contents (Elt F) → (⟨S256x256, .i32⟩ : BufTy).Contents (Elt F)),
    StableHlo.unary main_v45 main_v46 (broadcastInDim S256x256x1 ![0, 1] bcast_S256x256_S256x256x1_0_1 : (⟨S256x256, .i32⟩ : BufTy).Contents (Elt F) → (⟨S256x256x1, .i32⟩ : BufTy).Contents (Elt F)),
    StableHlo.binary main_arg5 main_v46 main_v47 ((fun x i => Host.gather gather_S200000x128_S256x256x1_S256x256x128_2_0_n_n_0_2_1128 x i) : (⟨S200000x128, .f32⟩ : BufTy).Contents (Elt F) → (⟨S256x256x1, .i32⟩ : BufTy).Contents (Elt F) → (⟨S256x256x128, .f32⟩ : BufTy).Contents (Elt F)),
    StableHlo.nary ![main_v9, main_v26, main_v33, main_v40, main_v19] main_v48 (fun u => concatenate S256x256x384 2 [⟨S256x256x32, u 0⟩, ⟨S256x256x128, u 1⟩, ⟨S256x256x64, u 2⟩, ⟨S256x256x32, u 3⟩, ⟨S256x256x128, u 4⟩] concatenates_S256x256x32_S256x256x128_S256x256x64_S256x256x32_S256x256x128_S256x256x384_d2),
    StableHlo.binary main_v47 main_v9 main_v49 ((fun a b => concatenate S256x256x160 2 [⟨S256x256x128, a⟩, ⟨S256x256x32, b⟩] concatenates_S256x256x128_S256x256x32_S256x256x160_d2) : (⟨S256x256x128, .f32⟩ : BufTy).Contents (Elt F) → (⟨S256x256x32, .f32⟩ : BufTy).Contents (Elt F) → (⟨S256x256x160, .f32⟩ : BufTy).Contents (Elt F)),
    StableHlo.binary main_v9 main_v19 main_v50 ((fun a b => concatenate S256x256x160 2 [⟨S256x256x32, a⟩, ⟨S256x256x128, b⟩] concatenates_S256x256x32_S256x256x128_S256x256x160_d2) : (⟨S256x256x32, .f32⟩ : BufTy).Contents (Elt F) → (⟨S256x256x128, .f32⟩ : BufTy).Contents (Elt F) → (⟨S256x256x160, .f32⟩ : BufTy).Contents (Elt F)) ]

/-- The late part: masks, merged axes, format changes, transposes, bias rows. -/
def hostTailF : List (HloOp τ sig (Elt F)) :=
  [ StableHlo.nullary main_c_13 (constantI S_ 32 1#32),
    StableHlo.unary main_c_13 main_v51 (broadcastInDim S256x256 ![] bcast_S_S256x256 : (⟨S_, .i32⟩ : BufTy).Contents (Elt F) → (⟨S256x256, .i32⟩ : BufTy).Contents (Elt F)),
    StableHlo.binary main_arg12 main_v51 main_v52 (cmpi .sge : (⟨S256x256, .i32⟩ : BufTy).Contents (Elt F) → (⟨S256x256, .i32⟩ : BufTy).Contents (Elt F) → (⟨S256x256, .i1⟩ : BufTy).Contents (Elt F)),
    StableHlo.nullary main_c_14 (constantI S_ 32 3#32),
    StableHlo.unary main_c_14 main_v53 (broadcastInDim S256x256 ![] bcast_S_S256x256 : (⟨S_, .i32⟩ : BufTy).Contents (Elt F) → (⟨S256x256, .i32⟩ : BufTy).Contents (Elt F)),
    StableHlo.binary main_arg12 main_v53 main_v54 (cmpi .sle : (⟨S256x256, .i32⟩ : BufTy).Contents (Elt F) → (⟨S256x256, .i32⟩ : BufTy).Contents (Elt F) → (⟨S256x256, .i1⟩ : BufTy).Contents (Elt F)),
    StableHlo.binary main_v52 main_v54 main_v55 (andi : (⟨S256x256, .i1⟩ : BufTy).Contents (Elt F) → (⟨S256x256, .i1⟩ : BufTy).Contents (Elt F) → (⟨S256x256, .i1⟩ : BufTy).Contents (Elt F)),
    StableHlo.unary main_v55 main_v56 (uitofp .f32 : (⟨S256x256, .i1⟩ : BufTy).Contents (Elt F) → (⟨S256x256, .f32⟩ : BufTy).Contents (Elt F)),
    StableHlo.unary main_v56 main_v57 (broadcastInDim S256x256x1 ![0, 1] bcast_S256x256_S256x256x1_0_1 : (⟨S256x256, .f32⟩ : BufTy).Contents (Elt F) → (⟨S256x256x1, .f32⟩ : BufTy).Contents (Elt F)),
    StableHlo.nullary main_c_15 (constantI S_ 32 4#32),
    StableHlo.unary main_c_15 main_v58 (broadcastInDim S256x256 ![] bcast_S_S256x256 : (⟨S_, .i32⟩ : BufTy).Contents (Elt F) → (⟨S256x256, .i32⟩ : BufTy).Contents (Elt F)),
    StableHlo.binary main_arg12 main_v58 main_v59 (cmpi .eq : (⟨S256x256, .i32⟩ : BufTy).Contents (Elt F) → (⟨S256x256, .i32⟩ : BufTy).Contents (Elt F) → (⟨S256x256, .i1⟩ : BufTy).Contents (Elt F)),
    StableHlo.unary main_v59 main_v60 (uitofp .f32 : (⟨S256x256, .i1⟩ : BufTy).Contents (Elt F) → (⟨S256x256, .f32⟩ : BufTy).Contents (Elt F)),
    StableHlo.unary main_v60 main_v61 (broadcastInDim S256x256x1 ![0, 1] bcast_S256x256_S256x256x1_0_1 : (⟨S256x256, .f32⟩ : BufTy).Contents (Elt F) → (⟨S256x256x1, .f32⟩ : BufTy).Contents (Elt F)),
    StableHlo.nullary main_c_16 (constantI S_ 32 5#32),
    StableHlo.unary main_c_16 main_v62 (broadcastInDim S256x256 ![] bcast_S_S256x256 : (⟨S_, .i32⟩ : BufTy).Contents (Elt F) → (⟨S256x256, .i32⟩ : BufTy).Contents (Elt F)),
    StableHlo.binary main_arg12 main_v62 main_v63 (cmpi .eq : (⟨S256x256, .i32⟩ : BufTy).Contents (Elt F) → (⟨S256x256, .i32⟩ : BufTy).Contents (Elt F) → (⟨S256x256, .i1⟩ : BufTy).Contents (Elt F)),
    StableHlo.unary main_v63 main_v64 (uitofp .f32 : (⟨S256x256, .i1⟩ : BufTy).Contents (Elt F) → (⟨S256x256, .f32⟩ : BufTy).Contents (Elt F)),
    StableHlo.unary main_v64 main_v65 (broadcastInDim S256x256x1 ![0, 1] bcast_S256x256_S256x256x1_0_1 : (⟨S256x256, .f32⟩ : BufTy).Contents (Elt F) → (⟨S256x256x1, .f32⟩ : BufTy).Contents (Elt F)),
    StableHlo.reshape main_v48 main_v66 rfl shapeCasts_S256x256x384_S65536x384,
    StableHlo.unary main_v66 main_v67 ((truncf .bf16 · bitsLt_bf16_f32) : (⟨S65536x384, .f32⟩ : BufTy).Contents (Elt F) → (⟨S65536x384, .bf16⟩ : BufTy).Contents (Elt F)),
    StableHlo.reshape main_v49 main_v68 rfl shapeCasts_S256x256x160_S65536x160,
    StableHlo.unary main_v68 main_v69 ((truncf .bf16 · bitsLt_bf16_f32) : (⟨S65536x160, .f32⟩ : BufTy).Contents (Elt F) → (⟨S65536x160, .bf16⟩ : BufTy).Contents (Elt F)),
    StableHlo.reshape main_v50 main_v70 rfl shapeCasts_S256x256x160_S65536x160,
    StableHlo.unary main_v70 main_v71 ((truncf .bf16 · bitsLt_bf16_f32) : (⟨S65536x160, .f32⟩ : BufTy).Contents (Elt F) → (⟨S65536x160, .bf16⟩ : BufTy).Contents (Elt F)),
    StableHlo.reshape main_v57 main_v72 rfl shapeCasts_S256x256x1_S65536x1,
    StableHlo.reshape main_v61 main_v73 rfl shapeCasts_S256x256x1_S65536x1,
    StableHlo.reshape main_v65 main_v74 rfl shapeCasts_S256x256x1_S65536x1,
    StableHlo.unary main_arg6 main_v75 ((transpose S384x512 [1, 0] · transposes_S512x384_S384x512_1_0) : (⟨S512x384, .f32⟩ : BufTy).Contents (Elt F) → (⟨S384x512, .f32⟩ : BufTy).Contents (Elt F)),
    StableHlo.unary main_v75 main_v76 ((truncf .bf16 · bitsLt_bf16_f32) : (⟨S384x512, .f32⟩ : BufTy).Contents (Elt F) → (⟨S384x512, .bf16⟩ : BufTy).Contents (Elt F)),
    StableHlo.unary main_arg8 main_v77 ((transpose S160x512 [1, 0] · transposes_S512x160_S160x512_1_0) : (⟨S512x160, .f32⟩ : BufTy).Contents (Elt F) → (⟨S160x512, .f32⟩ : BufTy).Contents (Elt F)),
    StableHlo.unary main_v77 main_v78 ((truncf .bf16 · bitsLt_bf16_f32) : (⟨S160x512, .f32⟩ : BufTy).Contents (Elt F) → (⟨S160x512, .bf16⟩ : BufTy).Contents (Elt F)),
    StableHlo.unary main_arg10 main_v79 ((transpose S160x512 [1, 0] · transposes_S512x160_S160x512_1_0) : (⟨S512x160, .f32⟩ : BufTy).Contents (Elt F) → (⟨S160x512, .f32⟩ : BufTy).Contents (Elt F)),
    StableHlo.unary main_v79 main_v80 ((truncf .bf16 · bitsLt_bf16_f32) : (⟨S160x512, .f32⟩ : BufTy).Contents (Elt F) → (⟨S160x512, .bf16⟩ : BufTy).Contents (Elt F)),
    StableHlo.reshape main_arg7 main_v81 rfl shapeCasts_S512_S1x512,
    StableHlo.reshape main_arg9 main_v82 rfl shapeCasts_S512_S1x512,
    StableHlo.reshape main_arg11 main_v83 rfl shapeCasts_S512_S1x512 ]

set_option maxHeartbeats 4000000 in
/-- The stretch is its early part followed by its late part. -/
theorem host_splitF : hostOps0 (F := F) = hostHeadF ++ hostTailF := rfl

end Split

abbrev hostHead : List (HloOp τ sig (Elt Ideal)) := hostHeadF (F := Ideal)
abbrev hostTail : List (HloOp τ sig (Elt Ideal)) := hostTailF (F := Ideal)
theorem host_split : hostOps0 (F := Ideal) = hostHead ++ hostTail := host_splitF

/-- The contents after the early part. -/
abbrev E (μ : Valuation τ sig (Elt Ideal)) : Valuation τ sig (Elt Ideal) := StableHlo.after hostHead μ

variable (μ : Valuation τ sig (Elt Ideal))

/-- A buffer after the whole stretch is the buffer after the late part run from the contents the early part leaves. -/
theorem H_split (b : Ref sig .tc) : H μ b = StableHlo.after hostTail (E μ) (Proc.devRef .tc b) := by
  unfold H E
  rw [host_split, StableHlo.after_append]

set_option maxHeartbeats 4000000 in
/-- The early part does not write the event types. -/
theorem arg12_early : E μ (Proc.devRef .tc main_arg12) = μ (Proc.devRef .tc main_arg12) :=
  StableHlo.after_of_forall_not_mem (b := Proc.devRef .tc main_arg12) _ _ (List.forall_iff_forall_mem.mp (by
    simp only [hostHead, hostHeadF, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Merging the two leading axes keeps the row-major position: row p * 256 + q of [65536, c] is entry (p, q) of [256, 256, c]. -/
theorem merged_apply {α : Type} {c : ℕ} (x : (⟨3, ![256, 256, c]⟩ : Shape).Idx → α)
    (h : (⟨3, ![256, 256, c]⟩ : Shape).ShapeCasts ⟨2, ![65536, c]⟩) (p q : Fin 256) (r : Fin c) (row : Fin 65536)
    (hrow : row.val = p.val * 256 + q.val) :
    shapeCast ⟨2, ![65536, c]⟩ x h (ix2 row r) = x (ix3 p q r) :=
  shapeCast_apply x h _ _ (by
    rw [Shape.rowMajor_val_three, Shape.rowMajor_val_two]
    show (p.val * 256 + q.val) * c + r.val = row.val * c + r.val
    rw [hrow])

/-- A per-token value [256, 256] given a unit axis [256, 256, 1] reads the token's value. -/
theorem unit_axis_apply {α : Type} (x : (⟨2, ![256, 256]⟩ : Shape).Idx → α)
    (h : (⟨2, ![256, 256]⟩ : Shape).BroadcastsInDim ⟨3, ![256, 256, 1]⟩ ![0, 1]) (p q : Fin 256) (u : Fin 1) :
    broadcastInDim ⟨3, ![256, 256, 1]⟩ ![0, 1] h x (ix3 p q u) = x (ix2 p q) :=
  broadcastInDim_apply _ h x _ _ fun a => match a with
    | ⟨0, _⟩ => rfl
    | ⟨1, _⟩ => rfl

set_option maxHeartbeats 4000000 in
/-- The 384-feature array: row p * 256 + q is token (p, q)'s concatenated features. -/
theorem feat_s (p q : Fin 256) (k : Fin 384) (row : Fin 65536) (hrow : row.val = p.val * 256 + q.val) :
    (H μ main_v67 : S65536x384.Idx → EReal) (ix2 row k) = (H μ main_v48 : S256x256x384.Idx → EReal) (ix3 p q k) := by
  rw [H_split, H_split]
  unfold hostTail hostTailF
  after_results_simp
  rw [truncf_apply]
  exact merged_apply _ _ p q k row hrow

set_option maxHeartbeats 4000000 in
/-- The first 160-feature array. -/
theorem feat_u (p q : Fin 256) (k : Fin 160) (row : Fin 65536) (hrow : row.val = p.val * 256 + q.val) :
    (H μ main_v69 : S65536x160.Idx → EReal) (ix2 row k) = (H μ main_v49 : S256x256x160.Idx → EReal) (ix3 p q k) := by
  rw [H_split, H_split]
  unfold hostTail hostTailF
  after_results_simp
  rw [truncf_apply]
  exact merged_apply _ _ p q k row hrow

set_option maxHeartbeats 4000000 in
/-- The second 160-feature array. -/
theorem feat_q (p q : Fin 256) (k : Fin 160) (row : Fin 65536) (hrow : row.val = p.val * 256 + q.val) :
    (H μ main_v71 : S65536x160.Idx → EReal) (ix2 row k) = (H μ main_v50 : S256x256x160.Idx → EReal) (ix3 p q k) := by
  rw [H_split, H_split]
  unfold hostTail hostTailF
  after_results_simp
  rw [truncf_apply]
  exact merged_apply _ _ p q k row hrow

set_option maxHeartbeats 4000000 in
/-- The first mask column: the number the token's mask bit (1 <= event <= 3) denotes. -/
theorem mask_s (p q : Fin 256) (u : Fin 1) (row : Fin 65536) (hrow : row.val = p.val * 256 + q.val) :
    (H μ main_v72 : S65536x1.Idx → EReal) (ix2 row u)
      = ((((andi (cmpi .sge (μ (Proc.devRef .tc main_arg12) : S256x256.Idx → BitVec 32) (broadcastInDim S256x256 ![] bcast_S_S256x256 (constantI S_ 32 1#32))) (cmpi .sle (μ (Proc.devRef .tc main_arg12) : S256x256.Idx → BitVec 32) (broadcastInDim S256x256 ![] bcast_S_S256x256 (constantI S_ 32 3#32))) : S256x256.Idx → BitVec 1) (ix2 p q)).toNat : ℝ) : EReal) := by
  rw [H_split, ← arg12_early μ]
  unfold hostTail hostTailF
  after_results_simp
  refine (merged_apply _ _ p q u row hrow).trans ?_
  exact unit_axis_apply _ _ p q u

set_option maxHeartbeats 4000000 in
/-- The second mask column (event = 4). -/
theorem mask_u (p q : Fin 256) (u : Fin 1) (row : Fin 65536) (hrow : row.val = p.val * 256 + q.val) :
    (H μ main_v73 : S65536x1.Idx → EReal) (ix2 row u)
      = ((((cmpi .eq (μ (Proc.devRef .tc main_arg12) : S256x256.Idx → BitVec 32) (broadcastInDim S256x256 ![] bcast_S_S256x256 (constantI S_ 32 4#32)) : S256x256.Idx → BitVec 1) (ix2 p q)).toNat : ℝ) : EReal) := by
  rw [H_split, ← arg12_early μ]
  unfold hostTail hostTailF
  after_results_simp
  refine (merged_apply _ _ p q u row hrow).trans ?_
  exact unit_axis_apply _ _ p q u

set_option maxHeartbeats 4000000 in
/-- The third mask column (event = 5). -/
theorem mask_q (p q : Fin 256) (u : Fin 1) (row : Fin 65536) (hrow : row.val = p.val * 256 + q.val) :
    (H μ main_v74 : S65536x1.Idx → EReal) (ix2 row u)
      = ((((cmpi .eq (μ (Proc.devRef .tc main_arg12) : S256x256.Idx → BitVec 32) (broadcastInDim S256x256 ![] bcast_S_S256x256 (constantI S_ 32 5#32)) : S256x256.Idx → BitVec 1) (ix2 p q)).toNat : ℝ) : EReal) := by
  rw [H_split, ← arg12_early μ]
  unfold hostTail hostTailF
  after_results_simp
  refine (merged_apply _ _ p q u row hrow).trans ?_
  exact unit_axis_apply _ _ p q u

set_option maxHeartbeats 4000000 in
/-- A weight matrix of the region is the argument transposed. -/
theorem weight_s (k : Fin 384) (h : Fin 512) :
    (H μ main_v76 : S384x512.Idx → EReal) (ix2 k h) = (E μ (Proc.devRef .tc main_arg6) : S512x384.Idx → EReal) (ix2 h k) := by
  rw [H_split]
  unfold hostTail hostTailF
  after_results_simp
  rw [truncf_apply]
  exact transpose_ix2_apply _ _ k h

set_option maxHeartbeats 4000000 in
/-- A weight matrix of the region is the argument transposed. -/
theorem weight_u (k : Fin 160) (h : Fin 512) :
    (H μ main_v78 : S160x512.Idx → EReal) (ix2 k h) = (E μ (Proc.devRef .tc main_arg8) : S512x160.Idx → EReal) (ix2 h k) := by
  rw [H_split]
  unfold hostTail hostTailF
  after_results_simp
  rw [truncf_apply]
  exact transpose_ix2_apply _ _ k h

set_option maxHeartbeats 4000000 in
/-- A weight matrix of the region is the argument transposed. -/
theorem weight_q (k : Fin 160) (h : Fin 512) :
    (H μ main_v80 : S160x512.Idx → EReal) (ix2 k h) = (E μ (Proc.devRef .tc main_arg10) : S512x160.Idx → EReal) (ix2 h k) := by
  rw [H_split]
  unfold hostTail hostTailF
  after_results_simp
  rw [truncf_apply]
  exact transpose_ix2_apply _ _ k h

set_option maxHeartbeats 4000000 in
/-- A bias row of the region is the argument as one row. -/
theorem bias_s (u : Fin 1) (h : Fin 512) :
    (H μ main_v81 : S1x512.Idx → EReal) (ix2 u h) = (E μ (Proc.devRef .tc main_arg7) : S512.Idx → EReal) (ix1 h) := by
  rw [H_split]
  unfold hostTail hostTailF
  after_results_simp
  exact shapeCast_a_1a_apply _ _ u h

set_option maxHeartbeats 4000000 in
/-- A bias row of the region is the argument as one row. -/
theorem bias_u (u : Fin 1) (h : Fin 512) :
    (H μ main_v82 : S1x512.Idx → EReal) (ix2 u h) = (E μ (Proc.devRef .tc main_arg9) : S512.Idx → EReal) (ix1 h) := by
  rw [H_split]
  unfold hostTail hostTailF
  after_results_simp
  exact shapeCast_a_1a_apply _ _ u h

set_option maxHeartbeats 4000000 in
/-- A bias row of the region is the argument as one row. -/
theorem bias_q (u : Fin 1) (h : Fin 512) :
    (H μ main_v83 : S1x512.Idx → EReal) (ix2 u h) = (E μ (Proc.devRef .tc main_arg11) : S512.Idx → EReal) (ix1 h) := by
  rw [H_split]
  unfold hostTail hostTailF
  after_results_simp
  exact shapeCast_a_1a_apply _ _ u h

set_option maxHeartbeats 4000000 in
/-- The early part does not write argument 6. -/
theorem arg6_early : E μ (Proc.devRef .tc main_arg6) = μ (Proc.devRef .tc main_arg6) :=
  StableHlo.after_of_forall_not_mem (b := Proc.devRef .tc main_arg6) _ _ (List.forall_iff_forall_mem.mp (by
    simp only [hostHead, hostHeadF, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

set_option maxHeartbeats 4000000 in
/-- The early part does not write argument 7. -/
theorem arg7_early : E μ (Proc.devRef .tc main_arg7) = μ (Proc.devRef .tc main_arg7) :=
  StableHlo.after_of_forall_not_mem (b := Proc.devRef .tc main_arg7) _ _ (List.forall_iff_forall_mem.mp (by
    simp only [hostHead, hostHeadF, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

set_option maxHeartbeats 4000000 in
/-- The early part does not write argument 8. -/
theorem arg8_early : E μ (Proc.devRef .tc main_arg8) = μ (Proc.devRef .tc main_arg8) :=
  StableHlo.after_of_forall_not_mem (b := Proc.devRef .tc main_arg8) _ _ (List.forall_iff_forall_mem.mp (by
    simp only [hostHead, hostHeadF, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

set_option maxHeartbeats 4000000 in
/-- The early part does not write argument 9. -/
theorem arg9_early : E μ (Proc.devRef .tc main_arg9) = μ (Proc.devRef .tc main_arg9) :=
  StableHlo.after_of_forall_not_mem (b := Proc.devRef .tc main_arg9) _ _ (List.forall_iff_forall_mem.mp (by
    simp only [hostHead, hostHeadF, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

set_option maxHeartbeats 4000000 in
/-- The early part does not write argument 10. -/
theorem arg10_early : E μ (Proc.devRef .tc main_arg10) = μ (Proc.devRef .tc main_arg10) :=
  StableHlo.after_of_forall_not_mem (b := Proc.devRef .tc main_arg10) _ _ (List.forall_iff_forall_mem.mp (by
    simp only [hostHead, hostHeadF, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

set_option maxHeartbeats 4000000 in
/-- The early part does not write argument 11. -/
theorem arg11_early : E μ (Proc.devRef .tc main_arg11) = μ (Proc.devRef .tc main_arg11) :=
  StableHlo.after_of_forall_not_mem (b := Proc.devRef .tc main_arg11) _ _ (List.forall_iff_forall_mem.mp (by
    simp only [hostHead, hostHeadF, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

end Cert.KernelIdeal.Pre

end
-- ==== Proof.KernelOut.lean ====
/-
  The idealized kernel's two results as functions of its arguments.

  The first result at (p, q, h) is the routed sum of the three rectified layers of token (p, q): the line after the
  region splits the row axis of the region's result, the region's result at row p * 256 + q is the routed sum over that
  row of the region's input arrays, and those arrays at that row are the host stretch's feature tensors, mask bits read
  as numbers, transposed weights and bias rows.  A layer's value times the mask number is the value kept where the bit
  is 1 and 0 elsewhere.  The second result is the padding mask the host stretch computes, untouched by the region.
-/
import proofs.«154332_j41308995453233_1_alg».proof.Proof.ValueIdeal
import proofs.«154332_j41308995453233_1_alg».proof.Proof.PrefixIdeal
import proofs.«154332_j41308995453233_1_alg».proof.Proof.Spec

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx Idealize.ShloMosaic.StableHlo
open Idealize.ShloMosaic.Pipeline (Dat Cfg Window)

variable (m : (ℓ : Loc nD τ sig) → Buf (Elt Ideal) ℓ) (ρ : Dev nD → PrngReg)

/-- The launch contents of core `c` as a valuation. -/
abbrev launch (c : Dev nD) : Valuation τ sig (Elt Ideal) := fun b => m (c, b)

/-- The region-entry contents are the host stretch applied to the launch contents. -/
theorem V_eq (c : Dev nD) (b : Ref sig .tc) : V m c b = Pre.H (launch m c) b := by
  show StableHlo.after (List.flatten [hostOps0 (F := Ideal)]) (fun b => m (c, b)) (Proc.devRef .tc b)
    = StableHlo.after (hostOps0 (F := Ideal)) (fun b => m (c, b)) (Proc.devRef .tc b)
  rw [List.flatten_cons, List.flatten_nil, List.append_nil]

/-- A one-bit word read as a number is 1 where the bit is 1 and 0 elsewhere. -/
theorem bit_number (bit : BitVec 1) : (((bit.toNat : ℝ) : EReal)) = if bit = 1#1 then (1 : EReal) else 0 := by
  by_cases h : bit = 1#1
  · subst h
    rw [if_pos rfl]
    show (((1 : ℕ) : ℝ) : EReal) = 1
    simp
  · rw [eq_zero_of_ne_one h, if_neg (by decide)]
    show (((0 : ℕ) : ℝ) : EReal) = 0
    simp

/-- Splitting the row axis keeps the row-major position: entry (p, q) of [256, 256, c] is row p * 256 + q of [65536, c]. -/
theorem split_apply {α : Type} {c : ℕ} (x : (⟨2, ![65536, c]⟩ : Shape).Idx → α)
    (h : (⟨2, ![65536, c]⟩ : Shape).ShapeCasts ⟨3, ![256, 256, c]⟩) (p q : Fin 256) (r : Fin c) (row : Fin 65536)
    (hrow : row.val = p.val * 256 + q.val) :
    shapeCast ⟨3, ![256, 256, c]⟩ x h (ix3 p q r) = x (ix2 row r) :=
  shapeCast_apply x h _ _ (by
    rw [Shape.rowMajor_val_three, Shape.rowMajor_val_two]
    show row.val * c + r.val = (p.val * 256 + q.val) * c + r.val
    rw [hrow])

/-- Token (p, q) is row p * 256 + q. -/
def tokenRow (p q : Fin 256) : Fin 65536 := ⟨p.val * 256 + q.val, by have := p.isLt; have := q.isLt; omega⟩

/-- The line after the region: the first result is the region's result with its row axis split. -/
theorem tail_out (c : Dev nD) (p q : Fin 256) (h : Fin 512) :
    (Pipeline.afterTail₀ cfgs (dats m) 0 (V0 m) [hostOps1] c main_v85 : S256x256x512.Idx → EReal) (ix3 p q h)
      = ((dats m 0 c).arrAt 12 cfg0.N : S65536x512.Idx → EReal) (ix2 (tokenRow p q) h) := by
  have e := Pipeline.withArrays_arr spec0 launch0.win.arr_inj c (V0 m c) (fun w => (dats m 0 c).arrAt w cfg0.N) 12
  unfold Pipeline.afterTail₀
  show (StableHlo.after (hostOps1 (F := Ideal)) _ (Proc.devRef .tc main_v85) : S256x256x512.Idx → EReal) (ix3 p q h) = _
  after_results_simp
  refine (split_apply _ _ p q h (tokenRow p q) rfl).trans ?_
  exact congrFun e (ix2 (tokenRow p q) h)

/-- A row of the region's result is the routed sum of the three layers of its token, once the region's twelve input
    arrays are read at that row as the token's features, the transposed weights, the bias rows and the mask bits read as
    numbers. -/
theorem rowOut_eq_moe (A0 : S65536x384.Idx → EReal) (A1 A2 : S65536x160.Idx → EReal) (A3 A4 A5 : S65536x1.Idx → EReal)
    (A6 : S384x512.Idx → EReal) (A7 : S1x512.Idx → EReal) (A8 : S160x512.Idx → EReal) (A9 : S1x512.Idx → EReal)
    (A10 : S160x512.Idx → EReal) (A11 : S1x512.Idx → EReal)
    (xs : Fin 256 → Fin 256 → Fin 384 → EReal) (xu xq : Fin 256 → Fin 256 → Fin 160 → EReal)
    (ws : Fin 512 → Fin 384 → EReal) (bs : Fin 512 → EReal) (wu : Fin 512 → Fin 160 → EReal) (bu : Fin 512 → EReal)
    (wq : Fin 512 → Fin 160 → EReal) (bq : Fin 512 → EReal) (ms mu mq : Fin 256 → Fin 256 → BitVec 1)
    (row : Fin 65536) (p q : Fin 256) (h : Fin 512)
    (h0 : ∀ k, A0 (ix2 row k) = xs p q k) (h1 : ∀ k, A1 (ix2 row k) = xu p q k) (h2 : ∀ k, A2 (ix2 row k) = xq p q k)
    (h3 : A3 (ix2 row 0) = (((ms p q).toNat : ℝ) : EReal)) (h4 : A4 (ix2 row 0) = (((mu p q).toNat : ℝ) : EReal))
    (h5 : A5 (ix2 row 0) = (((mq p q).toNat : ℝ) : EReal))
    (h6 : ∀ k, A6 (ix2 k h) = ws h k) (h7 : A7 (ix2 0 h) = bs h) (h8 : ∀ k, A8 (ix2 k h) = wu h k) (h9 : A9 (ix2 0 h) = bu h)
    (h10 : ∀ k, A10 (ix2 k h) = wq h k) (h11 : A11 (ix2 0 h) = bq h) :
    rowOut A0 A1 A2 A3 A4 A5 A6 A7 A8 A9 A10 A11 row h = Moe.moe xs xu xq ws bs wu bu wq bq ms mu mq p q h := by
  unfold rowOut Moe.moe Moe.lin
  simp only [h0, h1, h2, h3, h4, h5, h6, h7, h8, h9, h10, h11, bit_number, Moe.mul_bit]

/-- The first result, entry by entry. -/
theorem out_apply (c : Dev nD) (p q : Fin 256) (h : Fin 512) :
    (Pipeline.afterTail₀ cfgs (dats m) 0 (V0 m) [hostOps1] c main_v85 : S256x256x512.Idx → EReal) (ix3 p q h)
      = Moe.moe (fun p q k => (Pre.H (launch m c) main_v48 : S256x256x384.Idx → EReal) (ix3 p q k))
          (fun p q k => (Pre.H (launch m c) main_v49 : S256x256x160.Idx → EReal) (ix3 p q k))
          (fun p q k => (Pre.H (launch m c) main_v50 : S256x256x160.Idx → EReal) (ix3 p q k))
          (fun h k => (m ((c : Thread nD τ).loc main_arg6) : S512x384.Idx → EReal) (ix2 h k))
          (fun h => (m ((c : Thread nD τ).loc main_arg7) : S512.Idx → EReal) (ix1 h))
          (fun h k => (m ((c : Thread nD τ).loc main_arg8) : S512x160.Idx → EReal) (ix2 h k))
          (fun h => (m ((c : Thread nD τ).loc main_arg9) : S512.Idx → EReal) (ix1 h))
          (fun h k => (m ((c : Thread nD τ).loc main_arg10) : S512x160.Idx → EReal) (ix2 h k))
          (fun h => (m ((c : Thread nD τ).loc main_arg11) : S512.Idx → EReal) (ix1 h))
          (fun p q => (andi (cmpi .sge (m ((c : Thread nD τ).loc main_arg12)) (broadcastInDim S256x256 ![] bcast_S_S256x256 (constantI S_ 32 1#32))) (cmpi .sle (m ((c : Thread nD τ).loc main_arg12)) (broadcastInDim S256x256 ![] bcast_S_S256x256 (constantI S_ 32 3#32))) : S256x256.Idx → BitVec 1) (ix2 p q))
          (fun p q => (cmpi .eq (m ((c : Thread nD τ).loc main_arg12)) (broadcastInDim S256x256 ![] bcast_S_S256x256 (constantI S_ 32 4#32)) : S256x256.Idx → BitVec 1) (ix2 p q))
          (fun p q => (cmpi .eq (m ((c : Thread nD τ).loc main_arg12)) (broadcastInDim S256x256 ![] bcast_S_S256x256 (constantI S_ 32 5#32)) : S256x256.Idx → BitVec 1) (ix2 p q))
          p q h := by
  have hrow : (tokenRow p q).val = p.val * 256 + q.val := rfl
  refine (tail_out m c p q h).trans ?_
  refine (congrFun (final_out m c) (ix2 (tokenRow p q) h)).trans ?_
  refine (arrOut_ix2 (V m c main_v67) (V m c main_v69) (V m c main_v71) (V m c main_v72) (V m c main_v73) (V m c main_v74) (V m c main_v76) (V m c main_v81) (V m c main_v78) (V m c main_v82) (V m c main_v80) (V m c main_v83) (tokenRow p q) h).trans ?_
  exact rowOut_eq_moe (V m c main_v67) (V m c main_v69) (V m c main_v71) (V m c main_v72) (V m c main_v73) (V m c main_v74) (V m c main_v76) (V m c main_v81) (V m c main_v78) (V m c main_v82) (V m c main_v80) (V m c main_v83) _ _ _ _ _ _ _ _ _ _ _ _ (tokenRow p q) p q h
    (fun k => (congrFun (V_eq m c main_v67) _).trans (Pre.feat_s _ p q k _ hrow))
    (fun k => (congrFun (V_eq m c main_v69) _).trans (Pre.feat_u _ p q k _ hrow))
    (fun k => (congrFun (V_eq m c main_v71) _).trans (Pre.feat_q _ p q k _ hrow))
    ((congrFun (V_eq m c main_v72) _).trans (Pre.mask_s _ p q 0 _ hrow))
    ((congrFun (V_eq m c main_v73) _).trans (Pre.mask_u _ p q 0 _ hrow))
    ((congrFun (V_eq m c main_v74) _).trans (Pre.mask_q _ p q 0 _ hrow))
    (fun k => ((congrFun (V_eq m c main_v76) _).trans (Pre.weight_s _ k h)).trans (congrFun (Pre.arg6_early _) _))
    (((congrFun (V_eq m c main_v81) _).trans (Pre.bias_s _ 0 h)).trans (congrFun (Pre.arg7_early _) _))
    (fun k => ((congrFun (V_eq m c main_v78) _).trans (Pre.weight_u _ k h)).trans (congrFun (Pre.arg8_early _) _))
    (((congrFun (V_eq m c main_v82) _).trans (Pre.bias_u _ 0 h)).trans (congrFun (Pre.arg9_early _) _))
    (fun k => ((congrFun (V_eq m c main_v80) _).trans (Pre.weight_q _ k h)).trans (congrFun (Pre.arg10_early _) _))
    (((congrFun (V_eq m c main_v83) _).trans (Pre.bias_q _ 0 h)).trans (congrFun (Pre.arg11_early _) _))

/-- The line after the region does not write the padding mask, and the region does not stage it: it ends as the host
    stretch computed it. -/
theorem tail_pad (c : Dev nD) :
    Pipeline.afterTail₀ cfgs (dats m) 0 (V0 m) [hostOps1] c main_v2 = Pre.H (launch m c) main_v2 := by
  unfold Pipeline.afterTail₀
  rw [StableHlo.after_of_forall_not_mem (b := Proc.devRef .tc main_v2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_v2 (by exact (by decide : ∀ w, Pipeline.arrRef spec0 w ≠ main_v2))]
  exact V_eq m c main_v2

/-- The run of the idealized kernel with both results named and the arguments unchanged. -/
theorem run_results : θ_run defs (onTc (τ := τ) (main (F := Ideal))) ⟨m, fun _ => 0, ρ⟩ (fun r => ∀ c : Dev nD,
      r.2.mem ((c.tc : Thread nD τ).loc main_v85) = Pipeline.afterTail₀ cfgs (dats m) 0 (V0 m) [hostOps1] c main_v85
      ∧ r.2.mem ((c.tc : Thread nD τ).loc main_v2) = Pipeline.afterTail₀ cfgs (dats m) 0 (V0 m) [hostOps1] c main_v2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨(h c).2 main_v85 (Pipeline.mem_restRefs_of main_v85 (by decide) (by decide)),
    (h c).2 main_v2 (Pipeline.mem_restRefs_of main_v2 (by decide) (by decide)),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c),
    ((h c).2 main_arg9 (Pipeline.mem_restRefs_of main_arg9 (by decide) (by decide))).trans (W_main_arg9 m (dats m) c),
    ((h c).2 main_arg10 (Pipeline.mem_restRefs_of main_arg10 (by decide) (by decide))).trans (W_main_arg10 m (dats m) c),
    ((h c).2 main_arg11 (Pipeline.mem_restRefs_of main_arg11 (by decide) (by decide))).trans (W_main_arg11 m (dats m) c),
    ((h c).2 main_arg12 (Pipeline.mem_restRefs_of main_arg12 (by decide) (by decide))).trans (W_main_arg12 m (dats m) c),
    ((h c).2 main_arg13 (Pipeline.mem_restRefs_of main_arg13 (by decide) (by decide))).trans (W_main_arg13 m (dats m) c),
    ((h c).2 main_arg14 (Pipeline.mem_restRefs_of main_arg14 (by decide) (by decide))).trans (W_main_arg14 m (dats m) c),
    ((h c).2 main_arg15 (Pipeline.mem_restRefs_of main_arg15 (by decide) (by decide))).trans (W_main_arg15 m (dats m) c),
    ((h c).2 main_arg16 (Pipeline.mem_restRefs_of main_arg16 (by decide) (by decide))).trans (W_main_arg16 m (dats m) c),
    ((h c).2 main_arg17 (Pipeline.mem_restRefs_of main_arg17 (by decide) (by decide))).trans (W_main_arg17 m (dats m) c)⟩) (run_main m ρ)

end Cert.KernelIdeal.Hand

end
-- ==== Proof.RefMoe.lean ====
/-
  The reference program's first result, read index by index: at token (p, q) and hidden unit h it is the
  routed sum of three rectified dense layers (Spec.lean, Moe.moe).  The three feature rows (two
  concatenations of gathered embeddings) and the three one-bit masks are kept as named terms of the
  program's arguments; everything between them and the result is opened here.
-/
import proofs.«154332_j41308995453233_1_alg».proof.Proof.Gen.ReferenceIdeal.Read
import proofs.«154332_j41308995453233_1_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo

/-! ## Index functions of the layout operations, at literal coordinates -/

section Indices

variable (p q : Fin 256) (h : Fin 512)

/-- The contraction of the 384-feature layer reads the token's row at feature k. -/
theorem lidx42 (k : Fin 384) : Read.lidx_main_v42 (ValueIdx.ix3 p q h) k = ValueIdx.ix3 p q k := by
  funext a; match a with
  | ⟨0, _⟩ => rfl
  | ⟨1, _⟩ => rfl
  | ⟨2, _⟩ => rfl
/-- ... and the weight of hidden unit h at feature k. -/
theorem ridx42 (k : Fin 384) : Read.ridx_main_v42 (ValueIdx.ix3 p q h) k = ValueIdx.ix2 h k := by
  funext a; match a with
  | ⟨0, _⟩ => rfl
  | ⟨1, _⟩ => rfl
theorem lidx55 (k : Fin 160) : Read.lidx_main_v55 (ValueIdx.ix3 p q h) k = ValueIdx.ix3 p q k := by
  funext a; match a with
  | ⟨0, _⟩ => rfl
  | ⟨1, _⟩ => rfl
  | ⟨2, _⟩ => rfl
theorem ridx55 (k : Fin 160) : Read.ridx_main_v55 (ValueIdx.ix3 p q h) k = ValueIdx.ix2 h k := by
  funext a; match a with
  | ⟨0, _⟩ => rfl
  | ⟨1, _⟩ => rfl
theorem lidx61 (k : Fin 160) : Read.lidx_main_v61 (ValueIdx.ix3 p q h) k = ValueIdx.ix3 p q k := by
  funext a; match a with
  | ⟨0, _⟩ => rfl
  | ⟨1, _⟩ => rfl
  | ⟨2, _⟩ => rfl
theorem ridx61 (k : Fin 160) : Read.ridx_main_v61 (ValueIdx.ix3 p q h) k = ValueIdx.ix2 h k := by
  funext a; match a with
  | ⟨0, _⟩ => rfl
  | ⟨1, _⟩ => rfl

/-- The doubly broadcast bias is read at hidden unit h. -/
theorem bidx44 : Read.idx_main_v43 (Read.idx_main_v44 (ValueIdx.ix3 p q h)) = ValueIdx.ix1 h := by
  funext a; match a with
  | ⟨0, _⟩ => rfl
theorem bidx57 : Read.idx_main_v56 (Read.idx_main_v57 (ValueIdx.ix3 p q h)) = ValueIdx.ix1 h := by
  funext a; match a with
  | ⟨0, _⟩ => rfl
theorem bidx63 : Read.idx_main_v62 (Read.idx_main_v63 (ValueIdx.ix3 p q h)) = ValueIdx.ix1 h := by
  funext a; match a with
  | ⟨0, _⟩ => rfl

/-- The doubly broadcast mask is read at token (p, q). -/
theorem midx71 : Read.idx_main_v71 (Read.idx_main_call3_v1 (ValueIdx.ix3 p q h)) = ValueIdx.ix2 p q := by
  funext a; match a with
  | ⟨0, _⟩ => rfl
  | ⟨1, _⟩ => rfl
theorem midx74 : Read.idx_main_v74 (Read.idx_main_call4_v1 (ValueIdx.ix3 p q h)) = ValueIdx.ix2 p q := by
  funext a; match a with
  | ⟨0, _⟩ => rfl
  | ⟨1, _⟩ => rfl
theorem midx77 : Read.idx_main_v77 (Read.idx_main_call5_v1 (ValueIdx.ix3 p q h)) = ValueIdx.ix2 p q := by
  funext a; match a with
  | ⟨0, _⟩ => rfl
  | ⟨1, _⟩ => rfl

end Indices

/-- Selecting a value against 0 on a one-bit condition is routing by that bit. -/
theorem select_routed (bit : BitVec 1) (v : EReal) : Scalar.select bit v (0 : EReal) = Moe.routed bit v := by
  unfold Moe.routed
  by_cases hb : bit = 1#1
  · rw [hb, ValueIdx.select_one, if_pos rfl]
  · rw [ValueIdx.eq_zero_of_ne_one hb, ValueIdx.select_zero, if_neg (by decide)]

/-! ## The three rectified dense layers -/

section Layers

variable (x0 : (⟨S6x32, .f32⟩ : BufTy).Contents (Elt Ideal)) (x1 : (⟨S100000x128, .f32⟩ : BufTy).Contents (Elt Ideal))
  (x2 : (⟨S500000x128, .f32⟩ : BufTy).Contents (Elt Ideal)) (x3 : (⟨S10000x64, .f32⟩ : BufTy).Contents (Elt Ideal))
  (x4 : (⟨S100x32, .f32⟩ : BufTy).Contents (Elt Ideal)) (x5 : (⟨S200000x128, .f32⟩ : BufTy).Contents (Elt Ideal))
  (x6 : (⟨S512x384, .f32⟩ : BufTy).Contents (Elt Ideal)) (x7 : (⟨S512, .f32⟩ : BufTy).Contents (Elt Ideal))
  (x8 : (⟨S512x160, .f32⟩ : BufTy).Contents (Elt Ideal)) (x9 : (⟨S512, .f32⟩ : BufTy).Contents (Elt Ideal))
  (x10 : (⟨S512x160, .f32⟩ : BufTy).Contents (Elt Ideal)) (x11 : (⟨S512, .f32⟩ : BufTy).Contents (Elt Ideal))
  (x12 x13 x14 x15 x16 : (⟨S256x256, .i32⟩ : BufTy).Contents (Elt Ideal))
  (x17 : (⟨S256x256x12, .i32⟩ : BufTy).Contents (Elt Ideal))
  (p q : Fin 256) (h : Fin 512)

/-- The first layer (384 features): max (sum_k x k * w h k + b h) 0. -/
theorem layer_s :
    Read.val_main_v46 (F := Ideal) x0 x1 x2 x3 x4 x6 x7 x12 x13 x15 x16 x17 (ValueIdx.ix3 p q h)
      = Moe.lin (fun p q k => Read.val_main_v41 (F := Ideal) x0 x1 x2 x3 x4 x12 x13 x15 x16 x17 (ValueIdx.ix3 p q k))
          (fun h k => x6 (ValueIdx.ix2 h k)) (fun h => x7 (ValueIdx.ix1 h)) p q h := by
  rw [Read.val_main_v46_apply, Read.val_main_v45_apply, Read.val_main_v42_apply, Read.val_main_v44_apply,
    Read.val_main_v43_apply, Read.val_main_call0_v0_apply, Read.val_main_call0_cst_apply, bidx44]
  simp only [lidx42, ridx42]
  unfold Moe.lin
  rw [Ideal.maximumf_def, Ideal.addf_def, Ideal.ofBits_def, Ideal.ofBits_zero_f32]

/-- The second layer (160 features). -/
theorem layer_u :
    Read.val_main_v59 (F := Ideal) x0 x5 x8 x9 x12 x14 (ValueIdx.ix3 p q h)
      = Moe.lin (fun p q k => Read.val_main_v54 (F := Ideal) x0 x5 x12 x14 (ValueIdx.ix3 p q k))
          (fun h k => x8 (ValueIdx.ix2 h k)) (fun h => x9 (ValueIdx.ix1 h)) p q h := by
  rw [Read.val_main_v59_apply, Read.val_main_v58_apply, Read.val_main_v55_apply, Read.val_main_v57_apply,
    Read.val_main_v56_apply, Read.val_main_call1_v0_apply, Read.val_main_call1_cst_apply, bidx57]
  simp only [lidx55, ridx55]
  unfold Moe.lin
  rw [Ideal.maximumf_def, Ideal.addf_def, Ideal.ofBits_def, Ideal.ofBits_zero_f32]

/-- The third layer (160 features). -/
theorem layer_q :
    Read.val_main_v65 (F := Ideal) x0 x1 x10 x11 x12 x17 (ValueIdx.ix3 p q h)
      = Moe.lin (fun p q k => Read.val_main_v60 (F := Ideal) x0 x1 x12 x17 (ValueIdx.ix3 p q k))
          (fun h k => x10 (ValueIdx.ix2 h k)) (fun h => x11 (ValueIdx.ix1 h)) p q h := by
  rw [Read.val_main_v65_apply, Read.val_main_v64_apply, Read.val_main_v61_apply, Read.val_main_v63_apply,
    Read.val_main_v62_apply, Read.val_main_call2_v0_apply, Read.val_main_call2_cst_apply, bidx63]
  simp only [lidx61, ridx61]
  unfold Moe.lin
  rw [Ideal.maximumf_def, Ideal.addf_def, Ideal.ofBits_def, Ideal.ofBits_zero_f32]

/-! ## Routing by the masks -/

/-- The first routed layer. -/
theorem routed_s :
    Read.val_main_v78 (F := Ideal) x0 x1 x2 x3 x4 x6 x7 x12 x13 x15 x16 x17 (ValueIdx.ix3 p q h)
      = Moe.routed (Read.val_main_v70 (F := Ideal) x12 (ValueIdx.ix2 p q))
          (Read.val_main_v46 (F := Ideal) x0 x1 x2 x3 x4 x6 x7 x12 x13 x15 x16 x17 (ValueIdx.ix3 p q h)) := by
  rw [Read.val_main_v78_apply, Read.val_main_call3_v1_apply, Read.val_main_v71_apply, midx71,
    Read.val_main_call3_v2_apply, Read.val_main_call3_v0_apply, Read.val_main_cst_17_apply,
    Ideal.ofBits_def, Ideal.ofBits_zero_f32]
  exact select_routed _ _

/-- The second routed layer. -/
theorem routed_u :
    Read.val_main_v79 (F := Ideal) x0 x5 x8 x9 x12 x14 (ValueIdx.ix3 p q h)
      = Moe.routed (Read.val_main_v73 (F := Ideal) x12 (ValueIdx.ix2 p q))
          (Read.val_main_v59 (F := Ideal) x0 x5 x8 x9 x12 x14 (ValueIdx.ix3 p q h)) := by
  rw [Read.val_main_v79_apply, Read.val_main_call4_v1_apply, Read.val_main_v74_apply, midx74,
    Read.val_main_call4_v2_apply, Read.val_main_call4_v0_apply, Read.val_main_cst_18_apply,
    Ideal.ofBits_def, Ideal.ofBits_zero_f32]
  exact select_routed _ _

/-- The third routed layer. -/
theorem routed_q :
    Read.val_main_v81 (F := Ideal) x0 x1 x10 x11 x12 x17 (ValueIdx.ix3 p q h)
      = Moe.routed (Read.val_main_v76 (F := Ideal) x12 (ValueIdx.ix2 p q))
          (Read.val_main_v65 (F := Ideal) x0 x1 x10 x11 x12 x17 (ValueIdx.ix3 p q h)) := by
  rw [Read.val_main_v81_apply, Read.val_main_call5_v1_apply, Read.val_main_v77_apply, midx77,
    Read.val_main_call5_v2_apply, Read.val_main_call5_v0_apply, Read.val_main_cst_19_apply,
    Ideal.ofBits_def, Ideal.ofBits_zero_f32]
  exact select_routed _ _

/-- The whole stage at an index: the routed sum of the three layers. -/
theorem v82_apply :
    Read.val_main_v82 (F := Ideal) x0 x1 x2 x3 x4 x5 x6 x7 x8 x9 x10 x11 x12 x13 x14 x15 x16 x17 (ValueIdx.ix3 p q h)
      = Moe.moe (fun p q k => Read.val_main_v41 (F := Ideal) x0 x1 x2 x3 x4 x12 x13 x15 x16 x17 (ValueIdx.ix3 p q k))
          (fun p q k => Read.val_main_v54 (F := Ideal) x0 x5 x12 x14 (ValueIdx.ix3 p q k))
          (fun p q k => Read.val_main_v60 (F := Ideal) x0 x1 x12 x17 (ValueIdx.ix3 p q k))
          (fun h k => x6 (ValueIdx.ix2 h k)) (fun h => x7 (ValueIdx.ix1 h))
          (fun h k => x8 (ValueIdx.ix2 h k)) (fun h => x9 (ValueIdx.ix1 h))
          (fun h k => x10 (ValueIdx.ix2 h k)) (fun h => x11 (ValueIdx.ix1 h))
          (fun p q => Read.val_main_v70 (F := Ideal) x12 (ValueIdx.ix2 p q))
          (fun p q => Read.val_main_v73 (F := Ideal) x12 (ValueIdx.ix2 p q))
          (fun p q => Read.val_main_v76 (F := Ideal) x12 (ValueIdx.ix2 p q)) p q h := by
  rw [Read.val_main_v82_apply, Read.val_main_v80_apply, routed_s, routed_u, routed_q, layer_s, layer_u, layer_q,
    Ideal.addf_def, Ideal.addf_def]
  rfl

end Layers

/-! ## The named inputs of the claim, as functions of the arguments' launch contents -/

section Result

variable (m : (ℓ : Loc nD τ sig) → Buf (Elt Ideal) ℓ) (c : Dev nD)

/-- The 384-feature row of each token: the concatenation of five gathered embeddings. -/
def xs : Fin 256 → Fin 256 → Fin 384 → EReal := fun p q k =>
  Read.val_main_v41 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg12)) (m ((c.tc : Thread nD τ).loc main_arg13)) (m ((c.tc : Thread nD τ).loc main_arg15))
    (m ((c.tc : Thread nD τ).loc main_arg16)) (m ((c.tc : Thread nD τ).loc main_arg17)) (ValueIdx.ix3 p q k)
/-- The 160-feature row of the second layer: the concatenation of two gathered embeddings. -/
def xu : Fin 256 → Fin 256 → Fin 160 → EReal := fun p q k =>
  Read.val_main_v54 (F := Ideal) (m ((c.tc : Thread nD τ).loc main_arg0)) (m ((c.tc : Thread nD τ).loc main_arg5))
    (m ((c.tc : Thread nD τ).loc main_arg12)) (m ((c.tc : Thread nD τ).loc main_arg14)) (ValueIdx.ix3 p q k)
/-- The 160-feature row of the third layer: the concatenation of two gathered embeddings. -/
def xq : Fin 256 → Fin 256 → Fin 160 → EReal := fun p q k =>
  Read.val_main_v60 (F := Ideal) (m ((c.tc : Thread nD τ).loc main_arg0)) (m ((c.tc : Thread nD τ).loc main_arg1))
    (m ((c.tc : Thread nD τ).loc main_arg12)) (m ((c.tc : Thread nD τ).loc main_arg17)) (ValueIdx.ix3 p q k)
/-- The first layer's weights. -/
def ws : Fin 512 → Fin 384 → EReal := fun h k => m ((c.tc : Thread nD τ).loc main_arg6) (ValueIdx.ix2 h k)
/-- The first layer's bias. -/
def bs : Fin 512 → EReal := fun h => m ((c.tc : Thread nD τ).loc main_arg7) (ValueIdx.ix1 h)
/-- The second layer's weights. -/
def wu : Fin 512 → Fin 160 → EReal := fun h k => m ((c.tc : Thread nD τ).loc main_arg8) (ValueIdx.ix2 h k)
/-- The second layer's bias. -/
def bu : Fin 512 → EReal := fun h => m ((c.tc : Thread nD τ).loc main_arg9) (ValueIdx.ix1 h)
/-- The third layer's weights. -/
def wq : Fin 512 → Fin 160 → EReal := fun h k => m ((c.tc : Thread nD τ).loc main_arg10) (ValueIdx.ix2 h k)
/-- The third layer's bias. -/
def bq : Fin 512 → EReal := fun h => m ((c.tc : Thread nD τ).loc main_arg11) (ValueIdx.ix1 h)
/-- The first mask: the token's event code lies between 1 and 3. -/
def ms : Fin 256 → Fin 256 → BitVec 1 := fun p q =>
  Read.val_main_v70 (F := Ideal) (m ((c.tc : Thread nD τ).loc main_arg12)) (ValueIdx.ix2 p q)
/-- The second mask: the token's event code is 4. -/
def mu : Fin 256 → Fin 256 → BitVec 1 := fun p q =>
  Read.val_main_v73 (F := Ideal) (m ((c.tc : Thread nD τ).loc main_arg12)) (ValueIdx.ix2 p q)
/-- The third mask: the token's event code is 5. -/
def mq : Fin 256 → Fin 256 → BitVec 1 := fun p q =>
  Read.val_main_v76 (F := Ideal) (m ((c.tc : Thread nD τ).loc main_arg12)) (ValueIdx.ix2 p q)

/-- The reference's first result at token (p, q) and hidden unit h is the routed sum of the three layers. -/
theorem out0_apply (p q : Fin 256) (h : Fin 512) :
    Cert.ReferenceIdeal.Value.res_out0 (F := Ideal) m c (ValueIdx.ix3 p q h)
      = Moe.moe (xs m c) (xu m c) (xq m c) (ws m c) (bs m c) (wu m c) (bu m c) (wq m c) (bq m c)
          (ms m c) (mu m c) (mq m c) p q h := by
  show Cert.ReferenceIdeal.Value.res_main_v82 (F := Ideal) m c (ValueIdx.ix3 p q h) = _
  rw [Read.val_main_v82_eq]
  exact v82_apply _ _ _ _ _ _ _ _ _ _ _ _ _ _ _ _ _ _ p q h

/-- The reference's second result is the indicator, as a float, of the event code 0. -/
theorem out1_eq :
    (uitofp (F := Ideal) .f32 (cmpi .eq
        (m ((c.tc : Thread nD τ).loc main_arg12) : (⟨S256x256, .i32⟩ : BufTy).Contents (Elt Ideal))
        (broadcastInDim S256x256 ![] bcast_S_S256x256 (constantI S_ 32 0#32)))
        : (⟨S256x256, .f32⟩ : BufTy).Contents (Elt Ideal))
      = Read.val_main_v2 (F := Ideal) (m ((c.tc : Thread nD τ).loc main_arg12)) := rfl

end Result

/-! ## The three mask bits, read down to the token's event code -/

section Masks

variable (m : (ℓ : Loc nD τ sig) → Buf (Elt Ideal) ℓ) (c : Dev nD) (p q : Fin 256)

/-- The first mask bit: 1 <= code and code <= 3, as signed 32-bit comparisons. -/
theorem ms_apply :
    ms m c p q = IntOp.andi
      (IntOp.cmpi .sge (m ((c.tc : Thread nD τ).loc main_arg12) (ValueIdx.ix2 p q)) 1#32)
      (IntOp.cmpi .sle (m ((c.tc : Thread nD τ).loc main_arg12) (ValueIdx.ix2 p q)) 3#32) := by
  unfold ms
  rw [Read.val_main_v70_apply, Read.val_main_v67_apply, Read.val_main_v69_apply, Read.val_main_v66_apply,
    Read.val_main_v68_apply, Read.val_main_c_13_apply, Read.val_main_c_14_apply]

/-- The second mask bit: code = 4. -/
theorem mu_apply :
    mu m c p q = IntOp.cmpi .eq (m ((c.tc : Thread nD τ).loc main_arg12) (ValueIdx.ix2 p q)) 4#32 := by
  unfold mu
  rw [Read.val_main_v73_apply, Read.val_main_v72_apply, Read.val_main_c_15_apply]

/-- The third mask bit: code = 5. -/
theorem mq_apply :
    mq m c p q = IntOp.cmpi .eq (m ((c.tc : Thread nD τ).loc main_arg12) (ValueIdx.ix2 p q)) 5#32 := by
  unfold mq
  rw [Read.val_main_v76_apply, Read.val_main_v75_apply, Read.val_main_c_16_apply]

/-- The second result at token (p, q): the indicator of code = 0 as a float. -/
theorem out1_apply :
    Read.val_main_v2 (F := Ideal) (m ((c.tc : Thread nD τ).loc main_arg12)) (ValueIdx.ix2 p q)
      = FloatOps.uitofp (F := Ideal) .f32 (IntOp.cmpi .eq (m ((c.tc : Thread nD τ).loc main_arg12) (ValueIdx.ix2 p q)) 0#32) := by
  rw [Read.val_main_v2_apply, Read.val_main_v1_apply, Read.val_main_v0_apply, Read.val_main_c_apply]

end Masks

end Cert.ReferenceIdeal.RefValue

end
-- ==== Proof.PrefixBridge.lean ====
/-
  The host stretch before the region and the reference compute the same feature tensors and the same mask bits
  from the arguments.

  Both programs gather the same table rows by the same token codes (negative codes wrapped by the table's size),
  average the same twelve gathered rows, and join the same groups along the feature axis; both compare the token's
  code with the same constants.  The two sides are the same terms of the arguments, so each equation holds by
  unfolding both.
-/
import proofs.«154332_j41308995453233_1_alg».proof.Proof.PrefixIdeal
import proofs.«154332_j41308995453233_1_alg».proof.Proof.Gen.ReferenceIdeal.Read

set_option maxRecDepth 16384

noncomputable section

namespace Cert.KernelIdeal.Bridge

open Cert.KernelIdeal Cert.KernelIdeal.Gen
open Idealize.ShloMosaic Idealize.ShloMosaic.TcCoe Idealize.SL.Sem Idealize.ShloMosaic.StableHlo

variable (μ : Valuation τ sig (Elt Ideal))

set_option maxHeartbeats 4000000 in
/-- The first feature tensor: the five gathered feature groups joined along the feature axis. -/
theorem feat_s_eq :
    (Pre.H μ main_v48 : S256x256x384.Idx → EReal)
      = Cert.ReferenceIdeal.Read.val_main_v41 (F := Ideal) (μ (Proc.devRef .tc main_arg0)) (μ (Proc.devRef .tc main_arg1)) (μ (Proc.devRef .tc main_arg2)) (μ (Proc.devRef .tc main_arg3)) (μ (Proc.devRef .tc main_arg4))
          (μ (Proc.devRef .tc main_arg12)) (μ (Proc.devRef .tc main_arg13)) (μ (Proc.devRef .tc main_arg15)) (μ (Proc.devRef .tc main_arg16)) (μ (Proc.devRef .tc main_arg17)) := by
  unfold Pre.H
  after_results_simp
  simp (disch := decide) only [Matrix.cons_val, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxHeartbeats 4000000 in
/-- The second feature tensor: 128 gathered features joined with the 32 gathered by the token's code. -/
theorem feat_u_eq :
    (Pre.H μ main_v49 : S256x256x160.Idx → EReal)
      = Cert.ReferenceIdeal.Read.val_main_v54 (F := Ideal) (μ (Proc.devRef .tc main_arg0)) (μ (Proc.devRef .tc main_arg5)) (μ (Proc.devRef .tc main_arg12)) (μ (Proc.devRef .tc main_arg14)) := by
  unfold Pre.H
  after_results_simp
  rfl

set_option maxHeartbeats 4000000 in
/-- The third feature tensor: the 32 features gathered by the token's code joined with the 128 averaged ones. -/
theorem feat_q_eq :
    (Pre.H μ main_v50 : S256x256x160.Idx → EReal)
      = Cert.ReferenceIdeal.Read.val_main_v60 (F := Ideal) (μ (Proc.devRef .tc main_arg0)) (μ (Proc.devRef .tc main_arg1)) (μ (Proc.devRef .tc main_arg12)) (μ (Proc.devRef .tc main_arg17)) := by
  unfold Pre.H
  after_results_simp
  rfl

set_option maxHeartbeats 4000000 in
/-- The first mask: the token's code lies between 1 and 3. -/
theorem mask_s_eq :
    (Pre.H μ main_v55 : S256x256.Idx → BitVec 1)
      = Cert.ReferenceIdeal.Read.val_main_v70 (F := Ideal) (μ (Proc.devRef .tc main_arg12)) := by
  unfold Pre.H
  after_results_simp
  rfl

set_option maxHeartbeats 4000000 in
/-- The second mask: the token's code is 4. -/
theorem mask_u_eq :
    (Pre.H μ main_v59 : S256x256.Idx → BitVec 1)
      = Cert.ReferenceIdeal.Read.val_main_v73 (F := Ideal) (μ (Proc.devRef .tc main_arg12)) := by
  unfold Pre.H
  after_results_simp
  rfl

set_option maxHeartbeats 4000000 in
/-- The third mask: the token's code is 5. -/
theorem mask_q_eq :
    (Pre.H μ main_v63 : S256x256.Idx → BitVec 1)
      = Cert.ReferenceIdeal.Read.val_main_v76 (F := Ideal) (μ (Proc.devRef .tc main_arg12)) := by
  unfold Pre.H
  after_results_simp
  rfl

set_option maxHeartbeats 4000000 in
/-- The padding indicator as the reference's value: 1 where the token's code is 0, else 0. -/
theorem pad_eq_val :
    (Pre.H μ main_v2 : S256x256.Idx → EReal)
      = Cert.ReferenceIdeal.Read.val_main_v2 (F := Ideal) (μ (Proc.devRef .tc main_arg12)) := by
  unfold Pre.H
  after_results_simp
  rfl

/-- The padding indicator written out: the comparison of the token's code with the constant 0, read as a number. -/
theorem pad_eq :
    (Pre.H μ main_v2 : S256x256.Idx → EReal)
      = uitofp (F := Ideal) .f32 (cmpi .eq (μ (Proc.devRef .tc main_arg12))
          (broadcastInDim Cert.ReferenceIdeal.S256x256 ![] Cert.ReferenceIdeal.Gen.bcast_S_S256x256
            (constantI Cert.ReferenceIdeal.S_ 32 0#32))) :=
  (pad_eq_val μ).trans (Cert.ReferenceIdeal.Read.val_main_v2_eq (F := Ideal) (μ (Proc.devRef .tc main_arg12))).symm

end Cert.KernelIdeal.Bridge

end
-- ==== Proof.lean ====
/-
  The certificate of the routed three-layer kernel against its reference.

  Each token (p, q) of a 256 x 256 batch has three feature rows (gathered embedding rows and a mean of twelve gathered
  word rows, concatenated), each sent through its own dense layer and rectifier; the three outputs are routed by the
  token's event type and added.  The kernel computes the features on the host, merges the two token axes into 65536
  rows, runs the three layers blockwise on 32 blocks of 2048 rows with the weights transposed, multiplies each layer's
  output by its mask read as the number 0 or 1, and splits the row axis again; the reference keeps the token axes,
  contracts against the untransposed weights, and selects each layer's output against 0 by its mask bit.  On the extended
  reals the two are the same function of the arguments: a change of float format is the identity, the sums are the same
  sums term by term, and v * 1 = v, v * 0 = 0 for every extended real v, so no finiteness is used.

  The three frames: the kernel (word level and idealized, the same text) runs its host stretch, the region point by
  point, and the reshape after it, and no operation writes an argument array; the reference's frame is its run with the
  results dropped.  No operation was rewritten by the idealization, so there is nothing to preserve.
-/
import proofs.«154332_j41308995453233_1_alg».proof.Defs
import proofs.«154332_j41308995453233_1_alg».proof.Proof.Gen.Kernel
import proofs.«154332_j41308995453233_1_alg».proof.Proof.Gen.KernelIdeal
import proofs.«154332_j41308995453233_1_alg».proof.Proof.Gen.ReferenceIdeal
import proofs.«154332_j41308995453233_1_alg».proof.Proof.Gen.Pre_finite_inputs
import proofs.«154332_j41308995453233_1_alg».proof.Proof.BodyBits
import proofs.«154332_j41308995453233_1_alg».proof.Proof.KernelOut
import proofs.«154332_j41308995453233_1_alg».proof.Proof.RefMoe
import proofs.«154332_j41308995453233_1_alg».proof.Proof.PrefixBridge
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The word-level kernel runs and leaves its arguments as launched. -/
theorem frame_k : Cert.frame_Kernel := fun m ρ _ => Cert.Kernel.Hand.frame (F := Bits) m ρ

/-- So does the idealized kernel. -/
theorem frame_ki : Cert.frame_KernelIdeal := fun m ρ _ => Cert.KernelIdeal.Hand.frame (F := Ideal) m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- The kernel's first result is the reference's, entry by entry, when the arguments agree. -/
theorem out0_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    Pipeline.afterTail₀ Cert.KernelIdeal.cfgs (Cert.KernelIdeal.Hand.dats m) 0 (Cert.KernelIdeal.Hand.V0 m) [Cert.KernelIdeal.Gen.hostOps1] c Cert.KernelIdeal.main_v85
      = Cert.ReferenceIdeal.Value.res_out0 (F := Ideal) m' c := by
  obtain ⟨h0, h1, h2, h3, h4, h5, h6, h7, h8, h9, h10, h11, h12, h13, h14, h15, h16, h17⟩ := hagree
  funext i
  obtain ⟨p, q, h, rfl⟩ : ∃ (p q : Fin 256) (h : Fin 512), i = ix3 p q h := ⟨i 0, i 1, i 2, eq_ix3 i⟩
  refine (Cert.KernelIdeal.Hand.out_apply m c p q h).trans ?_
  refine Eq.trans ?_ (Cert.ReferenceIdeal.RefValue.out0_apply m' c p q h).symm
  unfold Cert.ReferenceIdeal.RefValue.xs Cert.ReferenceIdeal.RefValue.xu Cert.ReferenceIdeal.RefValue.xq
    Cert.ReferenceIdeal.RefValue.ws Cert.ReferenceIdeal.RefValue.bs Cert.ReferenceIdeal.RefValue.wu Cert.ReferenceIdeal.RefValue.bu
    Cert.ReferenceIdeal.RefValue.wq Cert.ReferenceIdeal.RefValue.bq
    Cert.ReferenceIdeal.RefValue.ms Cert.ReferenceIdeal.RefValue.mu Cert.ReferenceIdeal.RefValue.mq
  rw [h0, h1, h2, h3, h4, h5, h6, h7, h8, h9, h10, h11, h12, h13, h14, h15, h16, h17,
    Cert.KernelIdeal.Bridge.feat_s_eq, Cert.KernelIdeal.Bridge.feat_u_eq, Cert.KernelIdeal.Bridge.feat_q_eq]
  rfl

/-- The kernel's second result, the padding mask, is the reference's. -/
theorem out1_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    Pipeline.afterTail₀ Cert.KernelIdeal.cfgs (Cert.KernelIdeal.Hand.dats m) 0 (Cert.KernelIdeal.Hand.V0 m) [Cert.KernelIdeal.Gen.hostOps1] c Cert.KernelIdeal.main_v2
      = uitofp (F := Ideal) .f32 (cmpi .eq (m' ((c.tc : Thread Cert.ReferenceIdeal.nD Cert.ReferenceIdeal.τ).loc Cert.ReferenceIdeal.main_arg12)) (broadcastInDim Cert.ReferenceIdeal.S256x256 ![] Cert.ReferenceIdeal.Gen.bcast_S_S256x256 (constantI Cert.ReferenceIdeal.S_ 32 0#32))) := by
  rw [Cert.KernelIdeal.Hand.tail_pad, Cert.KernelIdeal.Bridge.pad_eq, h12]

/-- On the extended reals the idealized kernel and the idealized reference, run from memories that agree on the
    arguments, end with equal results. -/
theorem algebraic : Cert.algebraic_KernelIdeal_ReferenceIdeal := by
  intro m ρ m' ρ' _ hagree
  refine ⟨fun c => Cert.ReferenceIdeal.Value.res_out0 (F := Ideal) m' c,
    fun c => uitofp (F := Ideal) .f32 (cmpi .eq (m' ((c.tc : Thread Cert.ReferenceIdeal.nD Cert.ReferenceIdeal.τ).loc Cert.ReferenceIdeal.main_arg12)) (broadcastInDim Cert.ReferenceIdeal.S256x256 ![] Cert.ReferenceIdeal.Gen.bcast_S_S256x256 (constantI Cert.ReferenceIdeal.S_ 32 0#32))), ?_, ?_⟩
  · refine (θ_run Cert.KernelIdeal.defs _ _).mono (fun r h c => ⟨(h c).1.trans ?_, (h c).2.1.trans ?_, (h c).2.2⟩)
      (Cert.KernelIdeal.Hand.run_results m ρ)
    · exact out0_eq m ρ m' c (hagree c)
    · exact out1_eq m m' c (hagree c).2.2.2.2.2.2.2.2.2.2.2.2.1
  · exact Cert.ReferenceIdeal.Value.run (F := Ideal) m' ρ'

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
